-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v225) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S64x128 .f32) (main_arg11 : FVec F S64 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S64x128 .f32 := Host.absf main_arg10
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S64x128 .f32) (main_arg11 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S64x128 .f32) (main_arg11 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 150
  | .vmem => 50
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S64x128, .f32⟩
  | 11 => ⟨S64, .f32⟩
  | 12 => ⟨S50000, .i32⟩
  | 13 => ⟨S1x800000, .i32⟩
  | 14 => ⟨S800000, .i32⟩
  | 15 => ⟨S850000, .i32⟩
  | 16 => ⟨S1x800000, .i32⟩
  | 17 => ⟨S800000, .i32⟩
  | 18 => ⟨S850000, .i32⟩
  | 19 => ⟨S_, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .i1⟩
  | 28 => ⟨S_, .f32⟩
  | 29 => ⟨S50000, .f32⟩
  | 30 => ⟨S50000, .f32⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S850000, .f32⟩
  | 55 => ⟨S50000x128, .f32⟩
  | 56 => ⟨S_, .i32⟩
  | 57 => ⟨S850000, .i32⟩
  | 58 => ⟨S850000, .i1⟩
  | 59 => ⟨S_, .i32⟩
  | 60 => ⟨S850000, .i32⟩
  | 61 => ⟨S850000, .i32⟩
  | 62 => ⟨S850000, .i32⟩
  | 63 => ⟨S850000x1, .i32⟩
  | 64 => ⟨S850000x128, .f32⟩
  | 65 => ⟨S850000x1, .f32⟩
  | 66 => ⟨S850000x128, .f32⟩
  | 67 => ⟨S850000x128, .f32⟩
  | 68 => ⟨S_, .f32⟩
  | 69 => ⟨S50000x128, .f32⟩
  | 70 => ⟨S850000x1, .i32⟩
  | 71 => ⟨S50000x128, .f32⟩
  | 72 => ⟨S1x128, .f32⟩
  | 73 => ⟨S50000x128, .f32⟩
  | 74 => ⟨S50000x128, .f32⟩
  | 75 => ⟨S_, .i32⟩
  | 76 => ⟨S850000, .i32⟩
  | 77 => ⟨S850000, .i1⟩
  | 78 => ⟨S_, .i32⟩
  | 79 => ⟨S850000, .i32⟩
  | 80 => ⟨S850000, .i32⟩
  | 81 => ⟨S850000, .i32⟩
  | 82 => ⟨S850000x1, .i32⟩
  | 83 => ⟨S850000x128, .f32⟩
  | 84 => ⟨S850000x1, .f32⟩
  | 85 => ⟨S850000x128, .f32⟩
  | 86 => ⟨S850000x128, .f32⟩
  | 87 => ⟨S_, .f32⟩
  | 88 => ⟨S50000x128, .f32⟩
  | 89 => ⟨S850000x1, .i32⟩
  | 90 => ⟨S50000x128, .f32⟩
  | 91 => ⟨S1x128, .f32⟩
  | 92 => ⟨S50000x128, .f32⟩
  | 93 => ⟨S50000x128, .f32⟩
  | 94 => ⟨S_, .i32⟩
  | 95 => ⟨S850000, .i32⟩
  | 96 => ⟨S850000, .i1⟩
  | 97 => ⟨S_, .i32⟩
  | 98 => ⟨S850000, .i32⟩
  | 99 => ⟨S850000, .i32⟩
  | 100 => ⟨S850000, .i32⟩
  | 101 => ⟨S850000x1, .i32⟩
  | 102 => ⟨S850000x128, .f32⟩
  | 103 => ⟨S850000x1, .f32⟩
  | 104 => ⟨S850000x128, .f32⟩
  | 105 => ⟨S850000x128, .f32⟩
  | 106 => ⟨S_, .f32⟩
  | 107 => ⟨S50000x128, .f32⟩
  | 108 => ⟨S850000x1, .i32⟩
  | 109 => ⟨S50000x128, .f32⟩
  | 110 => ⟨S1x128, .f32⟩
  | 111 => ⟨S50000x128, .f32⟩
  | 112 => ⟨S50000x128, .f32⟩
  | 113 => ⟨S_, .i32⟩
  | 114 => ⟨S850000, .i32⟩
  | 115 => ⟨S850000, .i1⟩
  | 116 => ⟨S_, .i32⟩
  | 117 => ⟨S850000, .i32⟩
  | 118 => ⟨S850000, .i32⟩
  | 119 => ⟨S850000, .i32⟩
  | 120 => ⟨S850000x1, .i32⟩
  | 121 => ⟨S850000x128, .f32⟩
  | 122 => ⟨S850000x1, .f32⟩
  | 123 => ⟨S850000x128, .f32⟩
  | 124 => ⟨S850000x128, .f32⟩
  | 125 => ⟨S_, .f32⟩
  | 126 => ⟨S50000x128, .f32⟩
  | 127 => ⟨S850000x1, .i32⟩
  | _ => ⟨S50000x128, .f32⟩

abbrev hbmTy0_1 (i : Nat) : BufTy := match i % 128 with
  | 0 => ⟨S50000x128, .f32⟩
  | 1 => ⟨S1x128, .f32⟩
  | 2 => ⟨S50000x128, .f32⟩
  | 3 => ⟨S50000x64, .f32⟩
  | 4 => ⟨S_, .i32⟩
  | 5 => ⟨S850000, .i32⟩
  | 6 => ⟨S850000, .i1⟩
  | 7 => ⟨S_, .i32⟩
  | 8 => ⟨S850000, .i32⟩
  | 9 => ⟨S850000, .i32⟩
  | 10 => ⟨S850000, .i32⟩
  | 11 => ⟨S850000x1, .i32⟩
  | 12 => ⟨S850000x64, .f32⟩
  | 13 => ⟨S850000x1, .f32⟩
  | 14 => ⟨S850000x64, .f32⟩
  | 15 => ⟨S850000x64, .f32⟩
  | 16 => ⟨S_, .f32⟩
  | 17 => ⟨S50000x64, .f32⟩
  | 18 => ⟨S850000x1, .i32⟩
  | 19 => ⟨S50000x64, .f32⟩
  | 20 => ⟨S1x64, .f32⟩
  | 21 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S64x128, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S1x64, .f32⟩
  | .local _ .vmem, ⟨48, _⟩ => ⟨S5000x64, .f32⟩
  | .local _ .vmem, ⟨49, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_c_10 : Ref sig .tc := ⟨.hbm, 75, rfl⟩
abbrev main_v49 : Ref sig .tc := ⟨.hbm, 76, rfl⟩
abbrev main_v50 : Ref sig .tc := ⟨.hbm, 77, rfl⟩
abbrev main_c_11 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_12 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_13 : Ref sig .tc := ⟨.hbm, 94, rfl⟩
abbrev main_v65 : Ref sig .tc := ⟨.hbm, 95, rfl⟩
abbrev main_v66 : Ref sig .tc := ⟨.hbm, 96, rfl⟩
abbrev main_c_14 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_15 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_c_16 : Ref sig .tc := ⟨.hbm, 113, rfl⟩
abbrev main_v81 : Ref sig .tc := ⟨.hbm, 114, rfl⟩
abbrev main_v82 : Ref sig .tc := ⟨.hbm, 115, rfl⟩
abbrev main_c_17 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_18 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_c_19 : Ref sig .tc := ⟨.hbm, 132, rfl⟩
abbrev main_v97 : Ref sig .tc := ⟨.hbm, 133, rfl⟩
abbrev main_v98 : Ref sig .tc := ⟨.hbm, 134, rfl⟩
abbrev main_c_20 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_21 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg2_0 : Ref sig .tc := ⟨.vmem, 43, rfl⟩
abbrev cc8_stg2_1 : Ref sig .tc := ⟨.vmem, 44, rfl⟩
abbrev cc9_stg0_0 : Ref sig .tc := ⟨.vmem, 45, rfl⟩
abbrev cc9_stg0_1 : Ref sig .tc := ⟨.vmem, 46, rfl⟩
abbrev cc9_stg1_0 : Ref sig .tc := ⟨.vmem, 47, rfl⟩
abbrev cc9_stg2_0 : Ref sig .tc := ⟨.vmem, 48, rfl⟩
abbrev cc9_stg2_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39
abbrev cc8_sem0_0 : DmaSem sig := 40
abbrev cc8_sem0_1 : DmaSem sig := 41
abbrev cc8_sem1_0 : DmaSem sig := 42
abbrev cc8_sem2_0 : DmaSem sig := 43
abbrev cc8_sem2_1 : DmaSem sig := 44
abbrev cc9_sem0_0 : DmaSem sig := 45
abbrev cc9_sem0_1 : DmaSem sig := 46
abbrev cc9_sem1_0 : DmaSem sig := 47
abbrev cc9_sem2_0 : DmaSem sig := 48
abbrev cc9_sem2_1 : DmaSem sig := 49

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S5000x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S64x128_S64x128_0_0 : ∀ a, (![0, 0] : Fin 2 → Nat) a + S64x128.size a ≤ S64x128.size a
  h_S64x128 : 0 < S64x128.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_1_0_0_n_n_wf : DotDims.WF S5000x128 S128x128 S5000x128 [1] [1] [0] [0] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S64x128_S5000x64_1_1_0_0_n_n_wf : DotDims.WF S5000x128 S64x128 S5000x64 [1] [1] [0] [0] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S50000x128.size a
  hwx7_2 : ∀ i : grid7.Coords, EltTy.bits .f32 = 32 ∨ (Rect.block (s := S50000x128) S5000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x128.size a ≤ S64x128.size a
  hwx8_1 : ∀ i : grid8.Coords, EltTy.bits .f32 = 32 ∨ (Rect.block (s := S64x128) S64x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x64.size a ≤ S50000x64.size a
  hwx8_2 : ∀ i : grid8.Coords, EltTy.bits .f32 = 32 ∨ (Rect.block (s := S50000x64) S5000x64.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S50000x64.size a
  hwx9_0 : ∀ i : grid9.Coords, EltTy.bits .f32 = 32 ∨ (Rect.block (s := S50000x64) S5000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x64.size a ≤ S1x64.size a
  hwx9_1 : ∀ i : grid9.Coords, EltTy.bits .f32 = 32 ∨ (Rect.block (s := S1x64) S1x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x64.size a ≤ S50000x64.size a
  hwx9_2 : ∀ i : grid9.Coords, EltTy.bits .f32 = 32 ∨ (Rect.block (s := S50000x64) S5000x64.size (cc9_transform_2 i) (hinb9_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S64x128_S5000x64_1_1_0_0_n_n : DotDims S5000x128 S64x128 S5000x64 where
  lhsContracting := [1]
  rhsContracting := [1]
  lhsNonContracting := [0]
  rhsNonContracting := [0]
  lhsBatch := []
  rhsBatch := []
  wf := dot_S5000x128_S64x128_S5000x64_1_1_0_0_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v79) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v80) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v93) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v94) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v95) S5000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v95) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg10) S64x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v96) S5000x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v109) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v110) S1x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v111) S5000x64.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S128x64 : Shape := ⟨2, ![128, 64]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 316
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S64x128, .f32⟩
  | 11 => ⟨S64, .f32⟩
  | 12 => ⟨S50000, .i32⟩
  | 13 => ⟨S1x800000, .i32⟩
  | 14 => ⟨S800000, .i32⟩
  | 15 => ⟨S850000, .i32⟩
  | 16 => ⟨S1x800000, .i32⟩
  | 17 => ⟨S800000, .i32⟩
  | 18 => ⟨S850000, .i32⟩
  | 19 => ⟨S128x128, .f32⟩
  | 20 => ⟨S50000x128, .f32⟩
  | 21 => ⟨S_, .f32⟩
  | 22 => ⟨S850000, .f32⟩
  | 23 => ⟨S_, .f32⟩
  | 24 => ⟨S50000, .f32⟩
  | 25 => ⟨S850000x1, .i32⟩
  | 26 => ⟨S50000, .f32⟩
  | 27 => ⟨S_, .f32⟩
  | 28 => ⟨S50000, .f32⟩
  | 29 => ⟨S50000, .i1⟩
  | 30 => ⟨S_, .f32⟩
  | 31 => ⟨S50000, .f32⟩
  | 32 => ⟨S50000, .f32⟩
  | 33 => ⟨S50000, .f32⟩
  | 34 => ⟨S_, .f32⟩
  | 35 => ⟨S_, .f32⟩
  | 36 => ⟨S50000, .f32⟩
  | 37 => ⟨S50000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000, .f32⟩
  | 56 => ⟨S850000, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000x128, .f32⟩
  | 66 => ⟨S850000x1, .f32⟩
  | 67 => ⟨S850000x128, .f32⟩
  | 68 => ⟨S850000x128, .f32⟩
  | 69 => ⟨S_, .f32⟩
  | 70 => ⟨S50000x128, .f32⟩
  | 71 => ⟨S850000x1, .i32⟩
  | 72 => ⟨S50000x128, .f32⟩
  | 73 => ⟨S1x128, .f32⟩
  | 74 => ⟨S50000x128, .f32⟩
  | 75 => ⟨S50000x128, .f32⟩
  | 76 => ⟨S_, .f32⟩
  | 77 => ⟨S50000x128, .f32⟩
  | 78 => ⟨S50000x128, .f32⟩
  | 79 => ⟨S128x128, .f32⟩
  | 80 => ⟨S50000x128, .f32⟩
  | 81 => ⟨S_, .f32⟩
  | 82 => ⟨S850000, .f32⟩
  | 83 => ⟨S_, .f32⟩
  | 84 => ⟨S50000, .f32⟩
  | 85 => ⟨S850000x1, .i32⟩
  | 86 => ⟨S50000, .f32⟩
  | 87 => ⟨S_, .f32⟩
  | 88 => ⟨S50000, .f32⟩
  | 89 => ⟨S50000, .i1⟩
  | 90 => ⟨S_, .f32⟩
  | 91 => ⟨S50000, .f32⟩
  | 92 => ⟨S50000, .f32⟩
  | 93 => ⟨S50000, .f32⟩
  | 94 => ⟨S_, .f32⟩
  | 95 => ⟨S_, .f32⟩
  | 96 => ⟨S50000, .f32⟩
  | 97 => ⟨S50000, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000, .f32⟩
  | 107 => ⟨S_, .i32⟩
  | 108 => ⟨S850000, .i32⟩
  | 109 => ⟨S850000, .i1⟩
  | 110 => ⟨S_, .i32⟩
  | 111 => ⟨S850000, .i32⟩
  | 112 => ⟨S850000, .i32⟩
  | 113 => ⟨S850000, .i32⟩
  | 114 => ⟨S850000x1, .i32⟩
  | 115 => ⟨S850000, .f32⟩
  | 116 => ⟨S850000, .f32⟩
  | 117 => ⟨S_, .i32⟩
  | 118 => ⟨S850000, .i32⟩
  | 119 => ⟨S850000, .i1⟩
  | 120 => ⟨S_, .i32⟩
  | 121 => ⟨S850000, .i32⟩
  | 122 => ⟨S850000, .i32⟩
  | 123 => ⟨S850000, .i32⟩
  | 124 => ⟨S850000x1, .i32⟩
  | 125 => ⟨S850000x128, .f32⟩
  | 126 => ⟨S850000x1, .f32⟩
  | 127 => ⟨S850000x128, .f32⟩
  | _ => ⟨S50000x128, .f32⟩

abbrev hbmTy0_1 (i : Nat) : BufTy := match i % 128 with
  | 0 => ⟨S850000x128, .f32⟩
  | 1 => ⟨S_, .f32⟩
  | 2 => ⟨S50000x128, .f32⟩
  | 3 => ⟨S850000x1, .i32⟩
  | 4 => ⟨S50000x128, .f32⟩
  | 5 => ⟨S1x128, .f32⟩
  | 6 => ⟨S50000x128, .f32⟩
  | 7 => ⟨S50000x128, .f32⟩
  | 8 => ⟨S_, .f32⟩
  | 9 => ⟨S50000x128, .f32⟩
  | 10 => ⟨S50000x128, .f32⟩
  | 11 => ⟨S128x128, .f32⟩
  | 12 => ⟨S50000x128, .f32⟩
  | 13 => ⟨S_, .f32⟩
  | 14 => ⟨S850000, .f32⟩
  | 15 => ⟨S_, .f32⟩
  | 16 => ⟨S50000, .f32⟩
  | 17 => ⟨S850000x1, .i32⟩
  | 18 => ⟨S50000, .f32⟩
  | 19 => ⟨S_, .f32⟩
  | 20 => ⟨S50000, .f32⟩
  | 21 => ⟨S50000, .i1⟩
  | 22 => ⟨S_, .f32⟩
  | 23 => ⟨S50000, .f32⟩
  | 24 => ⟨S50000, .f32⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000x128, .f32⟩
  | 58 => ⟨S850000x1, .f32⟩
  | 59 => ⟨S850000x128, .f32⟩
  | 60 => ⟨S850000x128, .f32⟩
  | 61 => ⟨S_, .f32⟩
  | 62 => ⟨S50000x128, .f32⟩
  | 63 => ⟨S850000x1, .i32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S128x128, .f32⟩
  | 72 => ⟨S50000x128, .f32⟩
  | 73 => ⟨S_, .f32⟩
  | 74 => ⟨S850000, .f32⟩
  | 75 => ⟨S_, .f32⟩
  | 76 => ⟨S50000, .f32⟩
  | 77 => ⟨S850000x1, .i32⟩
  | 78 => ⟨S50000, .f32⟩
  | 79 => ⟨S_, .f32⟩
  | 80 => ⟨S50000, .f32⟩
  | 81 => ⟨S50000, .i1⟩
  | 82 => ⟨S_, .f32⟩
  | 83 => ⟨S50000, .f32⟩
  | 84 => ⟨S50000, .f32⟩
  | 85 => ⟨S50000, .f32⟩
  | 86 => ⟨S_, .f32⟩
  | 87 => ⟨S_, .f32⟩
  | 88 => ⟨S50000, .f32⟩
  | 89 => ⟨S50000, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000, .f32⟩
  | 108 => ⟨S850000, .f32⟩
  | 109 => ⟨S_, .i32⟩
  | 110 => ⟨S850000, .i32⟩
  | 111 => ⟨S850000, .i1⟩
  | 112 => ⟨S_, .i32⟩
  | 113 => ⟨S850000, .i32⟩
  | 114 => ⟨S850000, .i32⟩
  | 115 => ⟨S850000, .i32⟩
  | 116 => ⟨S850000x1, .i32⟩
  | 117 => ⟨S850000x128, .f32⟩
  | 118 => ⟨S850000x1, .f32⟩
  | 119 => ⟨S850000x128, .f32⟩
  | 120 => ⟨S850000x128, .f32⟩
  | 121 => ⟨S_, .f32⟩
  | 122 => ⟨S50000x128, .f32⟩
  | 123 => ⟨S850000x1, .i32⟩
  | 124 => ⟨S50000x128, .f32⟩
  | 125 => ⟨S1x128, .f32⟩
  | 126 => ⟨S50000x128, .f32⟩
  | 127 => ⟨S50000x128, .f32⟩
  | _ => ⟨S50000x128, .f32⟩

abbrev hbmTy0_2 (i : Nat) : BufTy := match i % 128 with
  | 0 => ⟨S_, .f32⟩
  | 1 => ⟨S50000x128, .f32⟩
  | 2 => ⟨S50000x128, .f32⟩
  | 3 => ⟨S128x64, .f32⟩
  | 4 => ⟨S50000x64, .f32⟩
  | 5 => ⟨S_, .f32⟩
  | 6 => ⟨S850000, .f32⟩
  | 7 => ⟨S_, .f32⟩
  | 8 => ⟨S50000, .f32⟩
  | 9 => ⟨S850000x1, .i32⟩
  | 10 => ⟨S50000, .f32⟩
  | 11 => ⟨S_, .f32⟩
  | 12 => ⟨S50000, .f32⟩
  | 13 => ⟨S50000, .i1⟩
  | 14 => ⟨S_, .f32⟩
  | 15 => ⟨S50000, .f32⟩
  | 16 => ⟨S50000, .f32⟩
  | 17 => ⟨S50000, .f32⟩
  | 18 => ⟨S_, .f32⟩
  | 19 => ⟨S_, .f32⟩
  | 20 => ⟨S50000, .f32⟩
  | 21 => ⟨S50000, .f32⟩
  | 22 => ⟨S_, .i32⟩
  | 23 => ⟨S850000, .i32⟩
  | 24 => ⟨S850000, .i1⟩
  | 25 => ⟨S_, .i32⟩
  | 26 => ⟨S850000, .i32⟩
  | 27 => ⟨S850000, .i32⟩
  | 28 => ⟨S850000, .i32⟩
  | 29 => ⟨S850000x1, .i32⟩
  | 30 => ⟨S850000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000x64, .f32⟩
  | 50 => ⟨S850000x1, .f32⟩
  | 51 => ⟨S850000x64, .f32⟩
  | 52 => ⟨S850000x64, .f32⟩
  | 53 => ⟨S_, .f32⟩
  | 54 => ⟨S50000x64, .f32⟩
  | 55 => ⟨S850000x1, .i32⟩
  | 56 => ⟨S50000x64, .f32⟩
  | 57 => ⟨S1x64, .f32⟩
  | 58 => ⟨S50000x64, .f32⟩
  | 59 => ⟨S50000x64, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v18 : Ref sig .tc := ⟨.hbm, 37, rfl⟩
abbrev main_c : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_c_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_call1_cst : Ref sig .tc := ⟨.hbm, 76, rfl⟩
abbrev main_call1_v0 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_10 : Ref sig .tc := ⟨.hbm, 81, rfl⟩
abbrev main_v53 : Ref sig .tc := ⟨.hbm, 82, rfl⟩
abbrev main_cst_11 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_12 : Ref sig .tc := ⟨.hbm, 87, rfl⟩
abbrev main_v57 : Ref sig .tc := ⟨.hbm, 88, rfl⟩
abbrev main_v58 : Ref sig .tc := ⟨.hbm, 89, rfl⟩
abbrev main_cst_13 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_14 : Ref sig .tc := ⟨.hbm, 94, rfl⟩
abbrev main_call2_v0 : Ref sig .tc := ⟨.hbm, 95, rfl⟩
abbrev main_call2_v1 : Ref sig .tc := ⟨.hbm, 96, rfl⟩
abbrev main_v62 : Ref sig .tc := ⟨.hbm, 97, rfl⟩
abbrev main_c_15 : Ref sig .tc := ⟨.hbm, 98, rfl⟩
abbrev main_v63 : Ref sig .tc := ⟨.hbm, 99, rfl⟩
abbrev main_v64 : Ref sig .tc := ⟨.hbm, 100, rfl⟩
abbrev main_c_16 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_c_17 : Ref sig .tc := ⟨.hbm, 107, rfl⟩
abbrev main_v70 : Ref sig .tc := ⟨.hbm, 108, rfl⟩
abbrev main_v71 : Ref sig .tc := ⟨.hbm, 109, rfl⟩
abbrev main_c_18 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_c_19 : Ref sig .tc := ⟨.hbm, 117, rfl⟩
abbrev main_v78 : Ref sig .tc := ⟨.hbm, 118, rfl⟩
abbrev main_v79 : Ref sig .tc := ⟨.hbm, 119, rfl⟩
abbrev main_c_20 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_21 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_call3_cst : Ref sig .tc := ⟨.hbm, 136, rfl⟩
abbrev main_call3_v0 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_22 : Ref sig .tc := ⟨.hbm, 141, rfl⟩
abbrev main_v97 : Ref sig .tc := ⟨.hbm, 142, rfl⟩
abbrev main_cst_23 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_cst_24 : Ref sig .tc := ⟨.hbm, 147, rfl⟩
abbrev main_v101 : Ref sig .tc := ⟨.hbm, 148, rfl⟩
abbrev main_v102 : Ref sig .tc := ⟨.hbm, 149, rfl⟩
abbrev main_cst_25 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_cst_26 : Ref sig .tc := ⟨.hbm, 154, rfl⟩
abbrev main_call4_v0 : Ref sig .tc := ⟨.hbm, 155, rfl⟩
abbrev main_call4_v1 : Ref sig .tc := ⟨.hbm, 156, rfl⟩
abbrev main_v106 : Ref sig .tc := ⟨.hbm, 157, rfl⟩
abbrev main_c_27 : Ref sig .tc := ⟨.hbm, 158, rfl⟩
abbrev main_v107 : Ref sig .tc := ⟨.hbm, 159, rfl⟩
abbrev main_v108 : Ref sig .tc := ⟨.hbm, 160, rfl⟩
abbrev main_c_28 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_c_29 : Ref sig .tc := ⟨.hbm, 167, rfl⟩
abbrev main_v114 : Ref sig .tc := ⟨.hbm, 168, rfl⟩
abbrev main_v115 : Ref sig .tc := ⟨.hbm, 169, rfl⟩
abbrev main_c_30 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_c_31 : Ref sig .tc := ⟨.hbm, 177, rfl⟩
abbrev main_v122 : Ref sig .tc := ⟨.hbm, 178, rfl⟩
abbrev main_v123 : Ref sig .tc := ⟨.hbm, 179, rfl⟩
abbrev main_c_32 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_cst_33 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_call5_cst : Ref sig .tc := ⟨.hbm, 196, rfl⟩
abbrev main_call5_v0 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_cst_34 : Ref sig .tc := ⟨.hbm, 201, rfl⟩
abbrev main_v141 : Ref sig .tc := ⟨.hbm, 202, rfl⟩
abbrev main_cst_35 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_cst_36 : Ref sig .tc := ⟨.hbm, 207, rfl⟩
abbrev main_v145 : Ref sig .tc := ⟨.hbm, 208, rfl⟩
abbrev main_v146 : Ref sig .tc := ⟨.hbm, 209, rfl⟩
abbrev main_cst_37 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_cst_38 : Ref sig .tc := ⟨.hbm, 214, rfl⟩
abbrev main_call6_v0 : Ref sig .tc := ⟨.hbm, 215, rfl⟩
abbrev main_call6_v1 : Ref sig .tc := ⟨.hbm, 216, rfl⟩
abbrev main_v150 : Ref sig .tc := ⟨.hbm, 217, rfl⟩
abbrev main_c_39 : Ref sig .tc := ⟨.hbm, 218, rfl⟩
abbrev main_v151 : Ref sig .tc := ⟨.hbm, 219, rfl⟩
abbrev main_v152 : Ref sig .tc := ⟨.hbm, 220, rfl⟩
abbrev main_c_40 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_c_41 : Ref sig .tc := ⟨.hbm, 227, rfl⟩
abbrev main_v158 : Ref sig .tc := ⟨.hbm, 228, rfl⟩
abbrev main_v159 : Ref sig .tc := ⟨.hbm, 229, rfl⟩
abbrev main_c_42 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_v165 : Ref sig .tc := ⟨.hbm, 236, rfl⟩
abbrev main_c_43 : Ref sig .tc := ⟨.hbm, 237, rfl⟩
abbrev main_v166 : Ref sig .tc := ⟨.hbm, 238, rfl⟩
abbrev main_v167 : Ref sig .tc := ⟨.hbm, 239, rfl⟩
abbrev main_c_44 : Ref sig .tc := ⟨.hbm, 240, rfl⟩
abbrev main_v168 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_v172 : Ref sig .tc := ⟨.hbm, 245, rfl⟩
abbrev main_v173 : Ref sig .tc := ⟨.hbm, 246, rfl⟩
abbrev main_v174 : Ref sig .tc := ⟨.hbm, 247, rfl⟩
abbrev main_v175 : Ref sig .tc := ⟨.hbm, 248, rfl⟩
abbrev main_cst_45 : Ref sig .tc := ⟨.hbm, 249, rfl⟩
abbrev main_v176 : Ref sig .tc := ⟨.hbm, 250, rfl⟩
abbrev main_v177 : Ref sig .tc := ⟨.hbm, 251, rfl⟩
abbrev main_v178 : Ref sig .tc := ⟨.hbm, 252, rfl⟩
abbrev main_v179 : Ref sig .tc := ⟨.hbm, 253, rfl⟩
abbrev main_v180 : Ref sig .tc := ⟨.hbm, 254, rfl⟩
abbrev main_v181 : Ref sig .tc := ⟨.hbm, 255, rfl⟩
abbrev main_call7_cst : Ref sig .tc := ⟨.hbm, 256, rfl⟩
abbrev main_call7_v0 : Ref sig .tc := ⟨.hbm, 257, rfl⟩
abbrev main_v182 : Ref sig .tc := ⟨.hbm, 258, rfl⟩
abbrev main_v183 : Ref sig .tc := ⟨.hbm, 259, rfl⟩
abbrev main_v184 : Ref sig .tc := ⟨.hbm, 260, rfl⟩
abbrev main_cst_46 : Ref sig .tc := ⟨.hbm, 261, rfl⟩
abbrev main_v185 : Ref sig .tc := ⟨.hbm, 262, rfl⟩
abbrev main_cst_47 : Ref sig .tc := ⟨.hbm, 263, rfl⟩
abbrev main_v186 : Ref sig .tc := ⟨.hbm, 264, rfl⟩
abbrev main_v187 : Ref sig .tc := ⟨.hbm, 265, rfl⟩
abbrev main_v188 : Ref sig .tc := ⟨.hbm, 266, rfl⟩
abbrev main_cst_48 : Ref sig .tc := ⟨.hbm, 267, rfl⟩
abbrev main_v189 : Ref sig .tc := ⟨.hbm, 268, rfl⟩
abbrev main_v190 : Ref sig .tc := ⟨.hbm, 269, rfl⟩
abbrev main_cst_49 : Ref sig .tc := ⟨.hbm, 270, rfl⟩
abbrev main_v191 : Ref sig .tc := ⟨.hbm, 271, rfl⟩
abbrev main_v192 : Ref sig .tc := ⟨.hbm, 272, rfl⟩
abbrev main_v193 : Ref sig .tc := ⟨.hbm, 273, rfl⟩
abbrev main_cst_50 : Ref sig .tc := ⟨.hbm, 274, rfl⟩
abbrev main_call8_v0 : Ref sig .tc := ⟨.hbm, 275, rfl⟩
abbrev main_call8_v1 : Ref sig .tc := ⟨.hbm, 276, rfl⟩
abbrev main_v194 : Ref sig .tc := ⟨.hbm, 277, rfl⟩
abbrev main_c_51 : Ref sig .tc := ⟨.hbm, 278, rfl⟩
abbrev main_v195 : Ref sig .tc := ⟨.hbm, 279, rfl⟩
abbrev main_v196 : Ref sig .tc := ⟨.hbm, 280, rfl⟩
abbrev main_c_52 : Ref sig .tc := ⟨.hbm, 281, rfl⟩
abbrev main_v197 : Ref sig .tc := ⟨.hbm, 282, rfl⟩
abbrev main_v198 : Ref sig .tc := ⟨.hbm, 283, rfl⟩
abbrev main_v199 : Ref sig .tc := ⟨.hbm, 284, rfl⟩
abbrev main_v200 : Ref sig .tc := ⟨.hbm, 285, rfl⟩
abbrev main_v201 : Ref sig .tc := ⟨.hbm, 286, rfl⟩
abbrev main_c_53 : Ref sig .tc := ⟨.hbm, 287, rfl⟩
abbrev main_v202 : Ref sig .tc := ⟨.hbm, 288, rfl⟩
abbrev main_v203 : Ref sig .tc := ⟨.hbm, 289, rfl⟩
abbrev main_c_54 : Ref sig .tc := ⟨.hbm, 290, rfl⟩
abbrev main_v204 : Ref sig .tc := ⟨.hbm, 291, rfl⟩
abbrev main_v205 : Ref sig .tc := ⟨.hbm, 292, rfl⟩
abbrev main_v206 : Ref sig .tc := ⟨.hbm, 293, rfl⟩
abbrev main_v207 : Ref sig .tc := ⟨.hbm, 294, rfl⟩
abbrev main_v208 : Ref sig .tc := ⟨.hbm, 295, rfl⟩
abbrev main_v209 : Ref sig .tc := ⟨.hbm, 296, rfl⟩
abbrev main_c_55 : Ref sig .tc := ⟨.hbm, 297, rfl⟩
abbrev main_v210 : Ref sig .tc := ⟨.hbm, 298, rfl⟩
abbrev main_v211 : Ref sig .tc := ⟨.hbm, 299, rfl⟩
abbrev main_c_56 : Ref sig .tc := ⟨.hbm, 300, rfl⟩
abbrev main_v212 : Ref sig .tc := ⟨.hbm, 301, rfl⟩
abbrev main_v213 : Ref sig .tc := ⟨.hbm, 302, rfl⟩
abbrev main_v214 : Ref sig .tc := ⟨.hbm, 303, rfl⟩
abbrev main_v215 : Ref sig .tc := ⟨.hbm, 304, rfl⟩
abbrev main_v216 : Ref sig .tc := ⟨.hbm, 305, rfl⟩
abbrev main_v217 : Ref sig .tc := ⟨.hbm, 306, rfl⟩
abbrev main_v218 : Ref sig .tc := ⟨.hbm, 307, rfl⟩
abbrev main_v219 : Ref sig .tc := ⟨.hbm, 308, rfl⟩
abbrev main_cst_57 : Ref sig .tc := ⟨.hbm, 309, rfl⟩
abbrev main_v220 : Ref sig .tc := ⟨.hbm, 310, rfl⟩
abbrev main_v221 : Ref sig .tc := ⟨.hbm, 311, rfl⟩
abbrev main_v222 : Ref sig .tc := ⟨.hbm, 312, rfl⟩
abbrev main_v223 : Ref sig .tc := ⟨.hbm, 313, rfl⟩
abbrev main_v224 : Ref sig .tc := ⟨.hbm, 314, rfl⟩
abbrev main_v225 : Ref sig .tc := ⟨.hbm, 315, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  transposes_S128x128_S128x128_1_0 : S128x128.Transposes [1, 0] S128x128
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S64x128_S128x64_1_0 : S64x128.Transposes [1, 0] S128x64
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Spec.lean ====
/-
  A five-layer graph convolution over N = 50000 nodes, as one function of the argument arrays.

  The edge list `e : i32[2, 800000]` gives E = 800000 directed edges; every node gets a self loop, so the
  endpoints are `src = e[0] ++ [0..N)` and `dst = e[1] ++ [0..N)`, 850000 entries each. With
  `deg[n] = #{j | dst[j] = n}` and `dinv[n] = if deg[n] > 0 then rsqrt (max deg[n] 1) else 0`, edge `j` carries the
  weight `norm[j] = dinv[src[j]] * dinv[dst[j]]`. One layer maps node features `x : [N, din]` to

      out[n, :] = (∑ over edges j with dst[j] = n of norm[j] * h[src[j], :]) + b,      h = x · Wᵀ,

  followed by `max · 0` in every layer but the last. Gathering rows at an index word and accumulating rows at an
  index word are the host's `gather` and `scatter`-add; a negative index word is first shifted by N (the indexing
  convention of the source language). The gather and the accumulation enter only as functions applied to equal
  operands. The product `h` has two spellings — row blocks of `x` times `W` contracting the second axis of both,
  or `W` transposed and the second axis contracted against the first —, and both are the sum
  `h[r, q] = ∑ k, x[r, k] * W[q, k]` over the extended reals.
-/
import proofs.«106422_j64647847740121_1_alg».proof.ReferenceIdeal
import proofs.«106422_j64647847740121_1_alg».proof.Proof.Gen.ReferenceIdeal
import Idealize.ShloMosaic.PureOps.Ideal
import Idealize.ShloMosaic.PureOps.Ideal.Laws
import Idealize.ShloMosaic.Lib.ValueIdx
import Idealize.ShloMosaic.Lib.Pipeline.Value

noncomputable section

namespace Cert.Gcn

open Idealize.ShloMosaic Cert.ReferenceIdeal Cert.ReferenceIdeal.Gen

variable {F : FTy → Type} [FloatOps F]

/-! ## The graph: endpoints, index words, edge weights -/

/-- Row `r` of the edge list followed by the self loops `0, 1, …, N-1`. -/
def endpoints0 (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

def endpoints1 (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- The index words a row gather takes: a negative word shifted by N, laid out as a column. -/
def indexColumn (s : (⟨S850000, .i32⟩ : BufTy).Contents (Elt F)) : (⟨S850000x1, .i32⟩ : BufTy).Contents (Elt F) :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- `dinv`: the in-degree (self loop included) to the power -1/2, zero where the degree is zero. -/
def invSqrtDegree (dst : (⟨S850000, .i32⟩ : BufTy).Contents (Elt F)) : (⟨S50000, .f32⟩ : BufTy).Contents (Elt F) :=
  select
    (cmpf .ogt
      (Host.scatterAdd scatter_S50000_S850000x1_S850000_n_0_0_1 (broadcastInDim S50000 ![] bcast_S_S50000 (constant (F := F) S_ .f32 0x00000000#32))
        (broadcastInDim S850000x1 ![0] bcast_S850000_S850000x1_0 dst) (broadcastInDim S850000 ![] bcast_S_S850000 (constant (F := F) S_ .f32 0x3F800000#32)))
      (broadcastInDim S50000 ![] bcast_S_S50000 (constant (F := F) S_ .f32 0x00000000#32)))
    (Host.rsqrt (maximumf
      (Host.scatterAdd scatter_S50000_S850000x1_S850000_n_0_0_1 (broadcastInDim S50000 ![] bcast_S_S50000 (constant (F := F) S_ .f32 0x00000000#32))
        (broadcastInDim S850000x1 ![0] bcast_S850000_S850000x1_0 dst) (broadcastInDim S850000 ![] bcast_S_S850000 (constant (F := F) S_ .f32 0x3F800000#32)))
      (broadcastInDim S50000 ![] bcast_S_S50000 (constant (F := F) S_ .f32 0x3F800000#32))))
    (broadcastInDim S50000 ![] bcast_S_S50000 (id (constant (F := F) S_ .f32 0x00000000#32)))

/-- `norm[j] = dinv[src[j]] * dinv[dst[j]]`. -/
def edgeWeight (src dst : (⟨S850000, .i32⟩ : BufTy).Contents (Elt F)) : (⟨S850000, .f32⟩ : BufTy).Contents (Elt F) :=
  mulf (Host.gather gather_S50000_S850000x1_S850000_n_0_n_n_0_1_1 (invSqrtDegree dst) (indexColumn src))
       (Host.gather gather_S50000_S850000x1_S850000_n_0_n_n_0_1_1 (invSqrtDegree dst) (indexColumn dst))

/-! ## One layer -/

/-- Rows of `h` gathered at `src`, scaled by the edge weights, accumulated at `dst` (128 features). -/
def aggregate128 (h : (⟨S50000x128, .f32⟩ : BufTy).Contents (Elt F)) (src dst : (⟨S850000, .i32⟩ : BufTy).Contents (Elt F)) (w : (⟨S850000, .f32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant (F := F) S_ .f32 0x00000000#32))
    (broadcastInDim S850000x1 ![0] bcast_S850000_S850000x1_0 dst)
    (mulf (Host.gather gather_S50000x128_S850000x1_S850000x128_1_0_n_n_0_1_1128 h (indexColumn src))
      (broadcastInDim S850000x128 ![0, 1] bcast_S850000x1_S850000x128_0_1 (broadcastInDim S850000x1 ![0] bcast_S850000_S850000x1_0 w)))

/-- The same at 64 features. -/
def aggregate64 (h : (⟨S50000x64, .f32⟩ : BufTy).Contents (Elt F)) (src dst : (⟨S850000, .i32⟩ : BufTy).Contents (Elt F)) (w : (⟨S850000, .f32⟩ : BufTy).Contents (Elt F)) : (⟨S50000x64, .f32⟩ : BufTy).Contents (Elt F) :=
  Host.scatterAdd scatter_S50000x64_S850000x1_S850000x64_1_0_0_1 (broadcastInDim S50000x64 ![] bcast_S_S50000x64 (constant (F := F) S_ .f32 0x00000000#32))
    (broadcastInDim S850000x1 ![0] bcast_S850000_S850000x1_0 dst)
    (mulf (Host.gather gather_S50000x64_S850000x1_S850000x64_1_0_n_n_0_1_164 h (indexColumn src))
      (broadcastInDim S850000x64 ![0, 1] bcast_S850000x1_S850000x64_0_1 (broadcastInDim S850000x1 ![0] bcast_S850000_S850000x1_0 w)))

/-- `x · Wᵀ` for `W : [128, 128]`. -/
def linear128 (x : (⟨S50000x128, .f32⟩ : BufTy).Contents (Elt F)) (W : (⟨S128x128, .f32⟩ : BufTy).Contents (Elt F)) : (⟨S50000x128, .f32⟩ : BufTy).Contents (Elt F) :=
  Host.dotGeneral dot_S50000x128_S128x128_S50000x128_1_0_0_1_n_n none x (transpose S128x128 [1, 0] W transposes_S128x128_S128x128_1_0)

/-- `x · Wᵀ` for `W : [64, 128]`. -/
def linear64 (x : (⟨S50000x128, .f32⟩ : BufTy).Contents (Elt F)) (W : (⟨S64x128, .f32⟩ : BufTy).Contents (Elt F)) : (⟨S50000x64, .f32⟩ : BufTy).Contents (Elt F) :=
  Host.dotGeneral dot_S50000x128_S128x64_S50000x64_1_0_0_1_n_n none x (transpose S128x64 [1, 0] W transposes_S64x128_S128x64_1_0)

/-- The bias vector as a row, repeated down the N rows. -/
def biasRows128 (b : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 b)

def biasRows64 (b : (⟨S64, .f32⟩ : BufTy).Contents (Elt F)) : (⟨S50000x64, .f32⟩ : BufTy).Contents (Elt F) :=
  broadcastInDim S50000x64 ![0, 1] bcast_S1x64_S50000x64_0_1 (broadcastInDim S1x64 ![1] bcast_S64_S1x64_1 b)

/-- `max · 0`, entry by entry. -/
def relu128 (a : (⟨S50000x128, .f32⟩ : BufTy).Contents (Elt F)) : (⟨S50000x128, .f32⟩ : BufTy).Contents (Elt F) :=
  maximumf a (broadcastInDim S50000x128 ![] bcast_S_S50000x128 (constant (F := F) S_ .f32 0x00000000#32))

/-- A hidden layer: aggregate `x · Wᵀ`, add the bias, clamp at zero. -/
def hiddenLayer (x : (⟨S50000x128, .f32⟩ : BufTy).Contents (Elt F)) (W : (⟨S128x128, .f32⟩ : BufTy).Contents (Elt F)) (b : (⟨S128, .f32⟩ : BufTy).Contents (Elt F))
    (src dst : (⟨S850000, .i32⟩ : BufTy).Contents (Elt F)) (w : (⟨S850000, .f32⟩ : BufTy).Contents (Elt F)) : (⟨S50000x128, .f32⟩ : BufTy).Contents (Elt F) :=
  relu128 (addf (aggregate128 (linear128 x W) src dst w) (biasRows128 b))

/-- The last layer: 64 output features, no clamp. -/
def outputLayer (x : (⟨S50000x128, .f32⟩ : BufTy).Contents (Elt F)) (W : (⟨S64x128, .f32⟩ : BufTy).Contents (Elt F)) (b : (⟨S64, .f32⟩ : BufTy).Contents (Elt F))
    (src dst : (⟨S850000, .i32⟩ : BufTy).Contents (Elt F)) (w : (⟨S850000, .f32⟩ : BufTy).Contents (Elt F)) : (⟨S50000x64, .f32⟩ : BufTy).Contents (Elt F) :=
  addf (aggregate64 (linear64 x W) src dst w) (biasRows64 b)

/-- The network: four hidden layers and the output layer over one graph. -/
def network (x : (⟨S50000x128, .f32⟩ : BufTy).Contents (Elt F)) (e : (⟨S2x800000, .i32⟩ : BufTy).Contents (Elt F))
    (W0 : (⟨S128x128, .f32⟩ : BufTy).Contents (Elt F)) (b0 : (⟨S128, .f32⟩ : BufTy).Contents (Elt F)) (W1 : (⟨S128x128, .f32⟩ : BufTy).Contents (Elt F)) (b1 : (⟨S128, .f32⟩ : BufTy).Contents (Elt F))
    (W2 : (⟨S128x128, .f32⟩ : BufTy).Contents (Elt F)) (b2 : (⟨S128, .f32⟩ : BufTy).Contents (Elt F)) (W3 : (⟨S128x128, .f32⟩ : BufTy).Contents (Elt F)) (b3 : (⟨S128, .f32⟩ : BufTy).Contents (Elt F))
    (W4 : (⟨S64x128, .f32⟩ : BufTy).Contents (Elt F)) (b4 : (⟨S64, .f32⟩ : BufTy).Contents (Elt F)) : (⟨S50000x64, .f32⟩ : BufTy).Contents (Elt F) :=
  outputLayer
    (hiddenLayer (hiddenLayer (hiddenLayer (hiddenLayer x W0 b0 (endpoints0 e) (endpoints1 e) (edgeWeight (endpoints0 e) (endpoints1 e)))
      W1 b1 (endpoints0 e) (endpoints1 e) (edgeWeight (endpoints0 e) (endpoints1 e)))
      W2 b2 (endpoints0 e) (endpoints1 e) (edgeWeight (endpoints0 e) (endpoints1 e)))
      W3 b3 (endpoints0 e) (endpoints1 e) (edgeWeight (endpoints0 e) (endpoints1 e)))
    W4 b4 (endpoints0 e) (endpoints1 e) (edgeWeight (endpoints0 e) (endpoints1 e))

end Cert.Gcn

end
-- ==== Proof.RefRun.lean ====
/-
  The reference program's run, read back: its @main is a straight line of host operations, so every weakly fair
  execution ends with each buffer at the operations' composed function of the launch contents. The composed function
  at the result buffer is `Cert.Gcn.network` of the twelve arguments — the specification was written with the same
  operations in the same order, the edge weights recomputed in every layer from the same endpoints —, and no
  operation writes an argument.
-/
import proofs.«106422_j64647847740121_1_alg».proof.Proof.Gen.ReferenceIdeal
import proofs.«106422_j64647847740121_1_alg».proof.Proof.Spec
import Idealize.ShloMosaic.Lib.StableHlo.Run

noncomputable section

namespace Cert.Gcn.Reference

open Cert.ReferenceIdeal Cert.ReferenceIdeal.Gen Idealize.ShloMosaic Idealize.ShloMosaic.TcCoe Idealize.SL.Sem Idealize.ShloMosaic.StableHlo

variable {F : FTy → Type} [FloatOps F]

/-- @main's 304 operations, in order (a called function's operations stand in its call's place, spelt `TRef.…`). -/
abbrev ops : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg2 main_v7 ((transpose S128x128 [1, 0] · transposes_S128x128_S128x128_1_0) : (⟨S128x128, .f32⟩ : BufTy).Contents (Elt F) → (⟨S128x128, .f32⟩ : BufTy).Contents (Elt F)),
    binary main_arg0 main_v7 main_v8 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst (constant S_ .f32 0x3F800000#32),
    unary main_cst main_v9 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v10 (broadcastInDim S50000 ![] bcast_S_S50000 : (⟨S_, .f32⟩ : BufTy).Contents (Elt F) → (⟨S50000, .f32⟩ : BufTy).Contents (Elt F)),
    unary main_v6 main_v11 (broadcastInDim S850000x1 ![0] bcast_S850000_S850000x1_0 : (⟨S850000, .i32⟩ : BufTy).Contents (Elt F) → (⟨S850000x1, .i32⟩ : BufTy).Contents (Elt F)),
    ternary main_v10 main_v11 main_v9 main_v12 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v13 (broadcastInDim S50000 ![] bcast_S_S50000 : (⟨S_, .f32⟩ : BufTy).Contents (Elt F) → (⟨S50000, .f32⟩ : BufTy).Contents (Elt F)),
    binary main_v12 main_v13 main_v14 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x3F800000#32),
    unary main_cst_2 main_v15 (broadcastInDim S50000 ![] bcast_S_S50000 : (⟨S_, .f32⟩ : BufTy).Contents (Elt F) → (⟨S50000, .f32⟩ : BufTy).Contents (Elt F)),
    binary main_v12 main_v15 main_v16 (maximumf : (⟨S50000, .f32⟩ : BufTy).Contents (Elt F) → (⟨S50000, .f32⟩ : BufTy).Contents (Elt F) → (⟨S50000, .f32⟩ : BufTy).Contents (Elt F)),
    unary main_v16 main_v17 (Host.rsqrt : (⟨S50000, .f32⟩ : BufTy).Contents (Elt F) → (⟨S50000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v14) (TRef.of (T := ⟨S50000, .f32⟩) main_v17) (TRef.of (T := ⟨S50000, .f32⟩) main_call0_v1) (TRef.of (T := ⟨S50000, .f32⟩) main_v18) select,
    nullary main_c (constantI S_ 32 0#32),
    unary main_c main_v19 (broadcastInDim S850000 ![] bcast_S_S850000 : (⟨S_, .i32⟩ : BufTy).Contents (Elt F) → (⟨S850000, .i32⟩ : BufTy).Contents (Elt F)),
    binary main_v3 main_v19 main_v20 (cmpi .slt : (⟨S850000, .i32⟩ : BufTy).Contents (Elt F) → (⟨S850000, .i32⟩ : BufTy).Contents (Elt F) → (⟨S850000, .i1⟩ : BufTy).Contents (Elt F)),
    nullary main_c_4 (constantI S_ 32 50000#32),
    unary main_c_4 main_v21 (broadcastInDim S850000 ![] bcast_S_S850000 : (⟨S_, .i32⟩ : BufTy).Contents (Elt F) → (⟨S850000, .i32⟩ : BufTy).Contents (Elt F)),
    binary main_v3 main_v21 main_v22 (addi : (⟨S850000, .i32⟩ : BufTy).Contents (Elt F) → (⟨S850000, .i32⟩ : BufTy).Contents (Elt F) → (⟨S850000, .i32⟩ : BufTy).Contents (Elt F)),
    ternary main_v20 main_v22 main_v3 main_v23 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v23 main_v24 (broadcastInDim S850000x1 ![0] bcast_S850000_S850000x1_0 : (⟨S850000, .i32⟩ : BufTy).Contents (Elt F) → (⟨S850000x1, .i32⟩ : BufTy).Contents (Elt F)),
    binary main_v18 main_v24 main_v25 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_5 (constantI S_ 32 0#32),
    unary main_c_5 main_v26 (broadcastInDim S850000 ![] bcast_S_S850000 : (⟨S_, .i32⟩ : BufTy).Contents (Elt F) → (⟨S850000, .i32⟩ : BufTy).Contents (Elt F)),
    binary main_v6 main_v26 main_v27 (cmpi .slt : (⟨S850000, .i32⟩ : BufTy).Contents (Elt F) → (⟨S850000, .i32⟩ : BufTy).Contents (Elt F) → (⟨S850000, .i1⟩ : BufTy).Contents (Elt F)),
    nullary main_c_6 (constantI S_ 32 50000#32),
    unary main_c_6 main_v28 (broadcastInDim S850000 ![] bcast_S_S850000 : (⟨S_, .i32⟩ : BufTy).Contents (Elt F) → (⟨S850000, .i32⟩ : BufTy).Contents (Elt F)),
    binary main_v6 main_v28 main_v29 (addi : (⟨S850000, .i32⟩ : BufTy).Contents (Elt F) → (⟨S850000, .i32⟩ : BufTy).Contents (Elt F) → (⟨S850000, .i32⟩ : BufTy).Contents (Elt F)),
    ternary main_v27 main_v29 main_v6 main_v30 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v30 main_v31 (broadcastInDim S850000x1 ![0] bcast_S850000_S850000x1_0 : (⟨S850000, .i32⟩ : BufTy).Contents (Elt F) → (⟨S850000x1, .i32⟩ : BufTy).Contents (Elt F)),
    binary main_v18 main_v31 main_v32 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v25 main_v32 main_v33 (mulf : (⟨S850000, .f32⟩ : BufTy).Contents (Elt F) → (⟨S850000, .f32⟩ : BufTy).Contents (Elt F) → (⟨S850000, .f32⟩ : BufTy).Contents (Elt F)),
    nullary main_c_7 (constantI S_ 32 0#32),
    unary main_c_7 main_v34 (broadcastInDim S850000 ![] bcast_S_S850000 : (⟨S_, .i32⟩ : BufTy).Contents (Elt F) → (⟨S850000, .i32⟩ : BufTy).Contents (Elt F)),
    binary main_v3 main_v34 main_v35 (cmpi .slt : (⟨S850000, .i32⟩ : BufTy).Contents (Elt F) → (⟨S850000, .i32⟩ : BufTy).Contents (Elt F) → (⟨S850000, .i1⟩ : BufTy).Contents (Elt F)),
    nullary main_c_8 (constantI S_ 32 50000#32),
    unary main_c_8 main_v36 (broadcastInDim S850000 ![] bcast_S_S850000 : (⟨S_, .i32⟩ : BufTy).Contents (Elt F) → (⟨S850000, .i32⟩ : BufTy).Contents (Elt F)),
    binary main_v3 main_v36 main_v37 (addi : (⟨S850000, .i32⟩ : BufTy).Contents (Elt F) → (⟨S850000, .i32⟩ : BufTy).Contents (Elt F) → (⟨S850000, .i32⟩ : BufTy).Contents (Elt F)),
    ternary main_v35 main_v37 main_v3 main_v38 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v38 main_v39 (broadcastInDim S850000x1 ![0] bcast_S850000_S850000x1_0 : (⟨S850000, .i32⟩ : BufTy).Contents (Elt F) → (⟨S850000x1, .i32⟩ : BufTy).Contents (Elt F)),
    binary main_v8 main_v39 main_v40 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v33 main_v41 (broadcastInDim S850000x1 ![0] bcast_S850000_S850000x1_0 : (⟨S850000, .f32⟩ : BufTy).Contents (Elt F) → (⟨S850000x1, .f32⟩ : BufTy).Contents (Elt F)),
    unary main_v41 main_v42 (broadcastInDim S850000x128 ![0, 1] bcast_S850000x1_S850000x128_0_1 : (⟨S850000x1, .f32⟩ : BufTy).Contents (Elt F) → (⟨S850000x128, .f32⟩ : BufTy).Contents (Elt F)),
    binary main_v40 main_v42 main_v43 (mulf : (⟨S850000x128, .f32⟩ : BufTy).Contents (Elt F) → (⟨S850000x128, .f32⟩ : BufTy).Contents (Elt F) → (⟨S850000x128, .f32⟩ : BufTy).Contents (Elt F)),
    nullary main_cst_9 (constant S_ .f32 0x00000000#32),
    unary main_cst_9 main_v44 (broadcastInDim S50000x128 ![] bcast_S_S50000x128 : (⟨S_, .f32⟩ : BufTy).Contents (Elt F) → (⟨S50000x128, .f32⟩ : BufTy).Contents (Elt F)),
    unary main_v6 main_v45 (broadcastInDim S850000x1 ![0] bcast_S850000_S850000x1_0 : (⟨S850000, .i32⟩ : BufTy).Contents (Elt F) → (⟨S850000x1, .i32⟩ : BufTy).Contents (Elt F)),
    ternary main_v44 main_v45 main_v43 main_v46 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v47 (broadcastInDim S1x128 ![1] bcast_S128_S1x128_1 : (⟨S128, .f32⟩ : BufTy).Contents (Elt F) → (⟨S1x128, .f32⟩ : BufTy).Contents (Elt F)),
    unary main_v47 main_v48 (broadcastInDim S50000x128 ![0, 1] bcast_S1x128_S50000x128_0_1 : (⟨S1x128, .f32⟩ : BufTy).Contents (Elt F) → (⟨S50000x128, .f32⟩ : BufTy).Contents (Elt F)),
    binary main_v46 main_v48 main_v49 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v49) (TRef.of (T := ⟨S50000x128, .f32⟩) main_call1_v0) (TRef.of (T := ⟨S50000x128, .f32⟩) main_v50) maximumf,
    unary main_arg4 main_v51 ((transpose S128x128 [1, 0] · transposes_S128x128_S128x128_1_0) : (⟨S128x128, .f32⟩ : BufTy).Contents (Elt F) → (⟨S128x128, .f32⟩ : BufTy).Contents (Elt F)),
    binary main_v50 main_v51 main_v52 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst_10 (constant S_ .f32 0x3F800000#32),
    unary main_cst_10 main_v53 (broadcastInDim S850000 ![] bcast_S_S850000 : (⟨S_, .f32⟩ : BufTy).Contents (Elt F) → (⟨S850000, .f32⟩ : BufTy).Contents (Elt F)),
    nullary main_cst_11 (constant S_ .f32 0x00000000#32),
    unary main_cst_11 main_v54 (broadcastInDim S50000 ![] bcast_S_S50000 : (⟨S_, .f32⟩ : BufTy).Contents (Elt F) → (⟨S50000, .f32⟩ : BufTy).Contents (Elt F)),
    unary main_v6 main_v55 (broadcastInDim S850000x1 ![0] bcast_S850000_S850000x1_0 : (⟨S850000, .i32⟩ : BufTy).Contents (Elt F) → (⟨S850000x1, .i32⟩ : BufTy).Contents (Elt F)),
    ternary main_v54 main_v55 main_v53 main_v56 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_12 (constant S_ .f32 0x00000000#32),
    unary main_cst_12 main_v57 (broadcastInDim S50000 ![] bcast_S_S50000 : (⟨S_, .f32⟩ : BufTy).Contents (Elt F) → (⟨S50000, .f32⟩ : BufTy).Contents (Elt F)),
    binary main_v56 main_v57 main_v58 (cmpf .ogt : (⟨S50000, .f32⟩ : BufTy).Contents (Elt F) → (⟨S50000, .f32⟩ : BufTy).Contents (Elt F) → (⟨S50000, .i1⟩ : BufTy).Contents (Elt F)),
    nullary main_cst_13 (constant S_ .f32 0x3F800000#32),
    unary main_cst_13 main_v59 (broadcastInDim S50000 ![] bcast_S_S50000 : (⟨S_, .f32⟩ : BufTy).Contents (Elt F) → (⟨S50000, .f32⟩ : BufTy).Contents (Elt F)),
    binary main_v56 main_v59 main_v60 (maximumf : (⟨S50000, .f32⟩ : BufTy).Contents (Elt F) → (⟨S50000, .f32⟩ : BufTy).Contents (Elt F) → (⟨S50000, .f32⟩ : BufTy).Contents (Elt F)),
    unary main_v60 main_v61 (Host.rsqrt : (⟨S50000, .f32⟩ : BufTy).Contents (Elt F) → (⟨S50000, .f32⟩ : BufTy).Contents (Elt F)),
    nullary main_cst_14 (constant S_ .f32 0x00000000#32),
    TRef.unary (TRef.of (T := ⟨S_, .f32⟩) main_cst_14) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v58) (TRef.of (T := ⟨S50000, .f32⟩) main_v61) (TRef.of (T := ⟨S50000, .f32⟩) main_call2_v1) (TRef.of (T := ⟨S50000, .f32⟩) main_v62) select,
    nullary main_c_15 (constantI S_ 32 0#32),
    unary main_c_15 main_v63 (broadcastInDim S850000 ![] bcast_S_S850000 : (⟨S_, .i32⟩ : BufTy).Contents (Elt F) → (⟨S850000, .i32⟩ : BufTy).Contents (Elt F)),
    binary main_v3 main_v63 main_v64 (cmpi .slt : (⟨S850000, .i32⟩ : BufTy).Contents (Elt F) → (⟨S850000, .i32⟩ : BufTy).Contents (Elt F) → (⟨S850000, .i1⟩ : BufTy).Contents (Elt F)),
    nullary main_c_16 (constantI S_ 32 50000#32),
    unary main_c_16 main_v65 (broadcastInDim S850000 ![] bcast_S_S850000 : (⟨S_, .i32⟩ : BufTy).Contents (Elt F) → (⟨S850000, .i32⟩ : BufTy).Contents (Elt F)),
    binary main_v3 main_v65 main_v66 (addi : (⟨S850000, .i32⟩ : BufTy).Contents (Elt F) → (⟨S850000, .i32⟩ : BufTy).Contents (Elt F) → (⟨S850000, .i32⟩ : BufTy).Contents (Elt F)),
    ternary main_v64 main_v66 main_v3 main_v67 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v67 main_v68 (broadcastInDim S850000x1 ![0] bcast_S850000_S850000x1_0 : (⟨S850000, .i32⟩ : BufTy).Contents (Elt F) → (⟨S850000x1, .i32⟩ : BufTy).Contents (Elt F)),
    binary main_v62 main_v68 main_v69 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_17 (constantI S_ 32 0#32),
    unary main_c_17 main_v70 (broadcastInDim S850000 ![] bcast_S_S850000 : (⟨S_, .i32⟩ : BufTy).Contents (Elt F) → (⟨S850000, .i32⟩ : BufTy).Contents (Elt F)),
    binary main_v6 main_v70 main_v71 (cmpi .slt : (⟨S850000, .i32⟩ : BufTy).Contents (Elt F) → (⟨S850000, .i32⟩ : BufTy).Contents (Elt F) → (⟨S850000, .i1⟩ : BufTy).Contents (Elt F)),
    nullary main_c_18 (constantI S_ 32 50000#32),
    unary main_c_18 main_v72 (broadcastInDim S850000 ![] bcast_S_S850000 : (⟨S_, .i32⟩ : BufTy).Contents (Elt F) → (⟨S850000, .i32⟩ : BufTy).Contents (Elt F)),
    binary main_v6 main_v72 main_v73 (addi : (⟨S850000, .i32⟩ : BufTy).Contents (Elt F) → (⟨S850000, .i32⟩ : BufTy).Contents (Elt F) → (⟨S850000, .i32⟩ : BufTy).Contents (Elt F)),
    ternary main_v71 main_v73 main_v6 main_v74 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v74 main_v75 (broadcastInDim S850000x1 ![0] bcast_S850000_S850000x1_0 : (⟨S850000, .i32⟩ : BufTy).Contents (Elt F) → (⟨S850000x1, .i32⟩ : BufTy).Contents (Elt F)),
    binary main_v62 main_v75 main_v76 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v69 main_v76 main_v77 (mulf : (⟨S850000, .f32⟩ : BufTy).Contents (Elt F) → (⟨S850000, .f32⟩ : BufTy).Contents (Elt F) → (⟨S850000, .f32⟩ : BufTy).Contents (Elt F)),
    nullary main_c_19 (constantI S_ 32 0#32),
    unary main_c_19 main_v78 (broadcastInDim S850000 ![] bcast_S_S850000 : (⟨S_, .i32⟩ : BufTy).Contents (Elt F) → (⟨S850000, .i32⟩ : BufTy).Contents (Elt F)),
    binary main_v3 main_v78 main_v79 (cmpi .slt : (⟨S850000, .i32⟩ : BufTy).Contents (Elt F) → (⟨S850000, .i32⟩ : BufTy).Contents (Elt F) → (⟨S850000, .i1⟩ : BufTy).Contents (Elt F)),
    nullary main_c_20 (constantI S_ 32 50000#32),
    unary main_c_20 main_v80 (broadcastInDim S850000 ![] bcast_S_S850000 : (⟨S_, .i32⟩ : BufTy).Contents (Elt F) → (⟨S850000, .i32⟩ : BufTy).Contents (Elt F)),
    binary main_v3 main_v80 main_v81 (addi : (⟨S850000, .i32⟩ : BufTy).Contents (Elt F) → (⟨S850000, .i32⟩ : BufTy).Contents (Elt F) → (⟨S850000, .i32⟩ : BufTy).Contents (Elt F)),
    ternary main_v79 main_v81 main_v3 main_v82 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v82 main_v83 (broadcastInDim S850000x1 ![0] bcast_S850000_S850000x1_0 : (⟨S850000, .i32⟩ : BufTy).Contents (Elt F) → (⟨S850000x1, .i32⟩ : BufTy).Contents (Elt F)),
    binary main_v52 main_v83 main_v84 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v77 main_v85 (broadcastInDim S850000x1 ![0] bcast_S850000_S850000x1_0 : (⟨S850000, .f32⟩ : BufTy).Contents (Elt F) → (⟨S850000x1, .f32⟩ : BufTy).Contents (Elt F)),
    unary main_v85 main_v86 (broadcastInDim S850000x128 ![0, 1] bcast_S850000x1_S850000x128_0_1 : (⟨S850000x1, .f32⟩ : BufTy).Contents (Elt F) → (⟨S850000x128, .f32⟩ : BufTy).Contents (Elt F)),
    binary main_v84 main_v86 main_v87 (mulf : (⟨S850000x128, .f32⟩ : BufTy).Contents (Elt F) → (⟨S850000x128, .f32⟩ : BufTy).Contents (Elt F) → (⟨S850000x128, .f32⟩ : BufTy).Contents (Elt F)),
    nullary main_cst_21 (constant S_ .f32 0x00000000#32),
    unary main_cst_21 main_v88 (broadcastInDim S50000x128 ![] bcast_S_S50000x128 : (⟨S_, .f32⟩ : BufTy).Contents (Elt F) → (⟨S50000x128, .f32⟩ : BufTy).Contents (Elt F)),
    unary main_v6 main_v89 (broadcastInDim S850000x1 ![0] bcast_S850000_S850000x1_0 : (⟨S850000, .i32⟩ : BufTy).Contents (Elt F) → (⟨S850000x1, .i32⟩ : BufTy).Contents (Elt F)),
    ternary main_v88 main_v89 main_v87 main_v90 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg5 main_v91 (broadcastInDim S1x128 ![1] bcast_S128_S1x128_1 : (⟨S128, .f32⟩ : BufTy).Contents (Elt F) → (⟨S1x128, .f32⟩ : BufTy).Contents (Elt F)),
    unary main_v91 main_v92 (broadcastInDim S50000x128 ![0, 1] bcast_S1x128_S50000x128_0_1 : (⟨S1x128, .f32⟩ : BufTy).Contents (Elt F) → (⟨S50000x128, .f32⟩ : BufTy).Contents (Elt F)),
    binary main_v90 main_v92 main_v93 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v93) (TRef.of (T := ⟨S50000x128, .f32⟩) main_call3_v0) (TRef.of (T := ⟨S50000x128, .f32⟩) main_v94) maximumf,
    unary main_arg6 main_v95 ((transpose S128x128 [1, 0] · transposes_S128x128_S128x128_1_0) : (⟨S128x128, .f32⟩ : BufTy).Contents (Elt F) → (⟨S128x128, .f32⟩ : BufTy).Contents (Elt F)),
    binary main_v94 main_v95 main_v96 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst_22 (constant S_ .f32 0x3F800000#32),
    unary main_cst_22 main_v97 (broadcastInDim S850000 ![] bcast_S_S850000 : (⟨S_, .f32⟩ : BufTy).Contents (Elt F) → (⟨S850000, .f32⟩ : BufTy).Contents (Elt F)),
    nullary main_cst_23 (constant S_ .f32 0x00000000#32),
    unary main_cst_23 main_v98 (broadcastInDim S50000 ![] bcast_S_S50000 : (⟨S_, .f32⟩ : BufTy).Contents (Elt F) → (⟨S50000, .f32⟩ : BufTy).Contents (Elt F)),
    unary main_v6 main_v99 (broadcastInDim S850000x1 ![0] bcast_S850000_S850000x1_0 : (⟨S850000, .i32⟩ : BufTy).Contents (Elt F) → (⟨S850000x1, .i32⟩ : BufTy).Contents (Elt F)),
    ternary main_v98 main_v99 main_v97 main_v100 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_24 (constant S_ .f32 0x00000000#32),
    unary main_cst_24 main_v101 (broadcastInDim S50000 ![] bcast_S_S50000 : (⟨S_, .f32⟩ : BufTy).Contents (Elt F) → (⟨S50000, .f32⟩ : BufTy).Contents (Elt F)),
    binary main_v100 main_v101 main_v102 (cmpf .ogt : (⟨S50000, .f32⟩ : BufTy).Contents (Elt F) → (⟨S50000, .f32⟩ : BufTy).Contents (Elt F) → (⟨S50000, .i1⟩ : BufTy).Contents (Elt F)),
    nullary main_cst_25 (constant S_ .f32 0x3F800000#32),
    unary main_cst_25 main_v103 (broadcastInDim S50000 ![] bcast_S_S50000 : (⟨S_, .f32⟩ : BufTy).Contents (Elt F) → (⟨S50000, .f32⟩ : BufTy).Contents (Elt F)),
    binary main_v100 main_v103 main_v104 (maximumf : (⟨S50000, .f32⟩ : BufTy).Contents (Elt F) → (⟨S50000, .f32⟩ : BufTy).Contents (Elt F) → (⟨S50000, .f32⟩ : BufTy).Contents (Elt F)),
    unary main_v104 main_v105 (Host.rsqrt : (⟨S50000, .f32⟩ : BufTy).Contents (Elt F) → (⟨S50000, .f32⟩ : BufTy).Contents (Elt F)),
    nullary main_cst_26 (constant S_ .f32 0x00000000#32),
    TRef.unary (TRef.of (T := ⟨S_, .f32⟩) main_cst_26) (TRef.of (T := ⟨S_, .f32⟩) main_call4_v0) id,
    TRef.unary (TRef.of (T := ⟨S_, .f32⟩) main_call4_v0) (TRef.of (T := ⟨S50000, .f32⟩) main_call4_v1) (broadcastInDim S50000 ![] bcast_S_S50000),
    TRef.ternary (TRef.of (T := ⟨S50000, .i1⟩) main_v102) (TRef.of (T := ⟨S50000, .f32⟩) main_v105) (TRef.of (T := ⟨S50000, .f32⟩) main_call4_v1) (TRef.of (T := ⟨S50000, .f32⟩) main_v106) select,
    nullary main_c_27 (constantI S_ 32 0#32),
    unary main_c_27 main_v107 (broadcastInDim S850000 ![] bcast_S_S850000 : (⟨S_, .i32⟩ : BufTy).Contents (Elt F) → (⟨S850000, .i32⟩ : BufTy).Contents (Elt F)),
    binary main_v3 main_v107 main_v108 (cmpi .slt : (⟨S850000, .i32⟩ : BufTy).Contents (Elt F) → (⟨S850000, .i32⟩ : BufTy).Contents (Elt F) → (⟨S850000, .i1⟩ : BufTy).Contents (Elt F)),
    nullary main_c_28 (constantI S_ 32 50000#32),
    unary main_c_28 main_v109 (broadcastInDim S850000 ![] bcast_S_S850000 : (⟨S_, .i32⟩ : BufTy).Contents (Elt F) → (⟨S850000, .i32⟩ : BufTy).Contents (Elt F)),
    binary main_v3 main_v109 main_v110 (addi : (⟨S850000, .i32⟩ : BufTy).Contents (Elt F) → (⟨S850000, .i32⟩ : BufTy).Contents (Elt F) → (⟨S850000, .i32⟩ : BufTy).Contents (Elt F)),
    ternary main_v108 main_v110 main_v3 main_v111 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v111 main_v112 (broadcastInDim S850000x1 ![0] bcast_S850000_S850000x1_0 : (⟨S850000, .i32⟩ : BufTy).Contents (Elt F) → (⟨S850000x1, .i32⟩ : BufTy).Contents (Elt F)),
    binary main_v106 main_v112 main_v113 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_29 (constantI S_ 32 0#32),
    unary main_c_29 main_v114 (broadcastInDim S850000 ![] bcast_S_S850000 : (⟨S_, .i32⟩ : BufTy).Contents (Elt F) → (⟨S850000, .i32⟩ : BufTy).Contents (Elt F)),
    binary main_v6 main_v114 main_v115 (cmpi .slt : (⟨S850000, .i32⟩ : BufTy).Contents (Elt F) → (⟨S850000, .i32⟩ : BufTy).Contents (Elt F) → (⟨S850000, .i1⟩ : BufTy).Contents (Elt F)),
    nullary main_c_30 (constantI S_ 32 50000#32),
    unary main_c_30 main_v116 (broadcastInDim S850000 ![] bcast_S_S850000 : (⟨S_, .i32⟩ : BufTy).Contents (Elt F) → (⟨S850000, .i32⟩ : BufTy).Contents (Elt F)),
    binary main_v6 main_v116 main_v117 (addi : (⟨S850000, .i32⟩ : BufTy).Contents (Elt F) → (⟨S850000, .i32⟩ : BufTy).Contents (Elt F) → (⟨S850000, .i32⟩ : BufTy).Contents (Elt F)),
    ternary main_v115 main_v117 main_v6 main_v118 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v118 main_v119 (broadcastInDim S850000x1 ![0] bcast_S850000_S850000x1_0 : (⟨S850000, .i32⟩ : BufTy).Contents (Elt F) → (⟨S850000x1, .i32⟩ : BufTy).Contents (Elt F)),
    binary main_v106 main_v119 main_v120 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v113 main_v120 main_v121 (mulf : (⟨S850000, .f32⟩ : BufTy).Contents (Elt F) → (⟨S850000, .f32⟩ : BufTy).Contents (Elt F) → (⟨S850000, .f32⟩ : BufTy).Contents (Elt F)),
    nullary main_c_31 (constantI S_ 32 0#32),
    unary main_c_31 main_v122 (broadcastInDim S850000 ![] bcast_S_S850000 : (⟨S_, .i32⟩ : BufTy).Contents (Elt F) → (⟨S850000, .i32⟩ : BufTy).Contents (Elt F)),
    binary main_v3 main_v122 main_v123 (cmpi .slt : (⟨S850000, .i32⟩ : BufTy).Contents (Elt F) → (⟨S850000, .i32⟩ : BufTy).Contents (Elt F) → (⟨S850000, .i1⟩ : BufTy).Contents (Elt F)),
    nullary main_c_32 (constantI S_ 32 50000#32),
    unary main_c_32 main_v124 (broadcastInDim S850000 ![] bcast_S_S850000 : (⟨S_, .i32⟩ : BufTy).Contents (Elt F) → (⟨S850000, .i32⟩ : BufTy).Contents (Elt F)),
    binary main_v3 main_v124 main_v125 (addi : (⟨S850000, .i32⟩ : BufTy).Contents (Elt F) → (⟨S850000, .i32⟩ : BufTy).Contents (Elt F) → (⟨S850000, .i32⟩ : BufTy).Contents (Elt F)),
    ternary main_v123 main_v125 main_v3 main_v126 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v126 main_v127 (broadcastInDim S850000x1 ![0] bcast_S850000_S850000x1_0 : (⟨S850000, .i32⟩ : BufTy).Contents (Elt F) → (⟨S850000x1, .i32⟩ : BufTy).Contents (Elt F)),
    binary main_v96 main_v127 main_v128 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v121 main_v129 (broadcastInDim S850000x1 ![0] bcast_S850000_S850000x1_0 : (⟨S850000, .f32⟩ : BufTy).Contents (Elt F) → (⟨S850000x1, .f32⟩ : BufTy).Contents (Elt F)),
    unary main_v129 main_v130 (broadcastInDim S850000x128 ![0, 1] bcast_S850000x1_S850000x128_0_1 : (⟨S850000x1, .f32⟩ : BufTy).Contents (Elt F) → (⟨S850000x128, .f32⟩ : BufTy).Contents (Elt F)),
    binary main_v128 main_v130 main_v131 (mulf : (⟨S850000x128, .f32⟩ : BufTy).Contents (Elt F) → (⟨S850000x128, .f32⟩ : BufTy).Contents (Elt F) → (⟨S850000x128, .f32⟩ : BufTy).Contents (Elt F)),
    nullary main_cst_33 (constant S_ .f32 0x00000000#32),
    unary main_cst_33 main_v132 (broadcastInDim S50000x128 ![] bcast_S_S50000x128 : (⟨S_, .f32⟩ : BufTy).Contents (Elt F) → (⟨S50000x128, .f32⟩ : BufTy).Contents (Elt F)),
    unary main_v6 main_v133 (broadcastInDim S850000x1 ![0] bcast_S850000_S850000x1_0 : (⟨S850000, .i32⟩ : BufTy).Contents (Elt F) → (⟨S850000x1, .i32⟩ : BufTy).Contents (Elt F)),
    ternary main_v132 main_v133 main_v131 main_v134 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg7 main_v135 (broadcastInDim S1x128 ![1] bcast_S128_S1x128_1 : (⟨S128, .f32⟩ : BufTy).Contents (Elt F) → (⟨S1x128, .f32⟩ : BufTy).Contents (Elt F)),
    unary main_v135 main_v136 (broadcastInDim S50000x128 ![0, 1] bcast_S1x128_S50000x128_0_1 : (⟨S1x128, .f32⟩ : BufTy).Contents (Elt F) → (⟨S50000x128, .f32⟩ : BufTy).Contents (Elt F)),
    binary main_v134 main_v136 main_v137 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x128, .f32⟩) main_call5_v0) (broadcastInDim S50000x128 ![] bcast_S_S50000x128),
    TRef.binary (TRef.of (T := ⟨S50000x128, .f32⟩) main_v137) (TRef.of (T := ⟨S50000x128, .f32⟩) main_call5_v0) (TRef.of (T := ⟨S50000x128, .f32⟩) main_v138) maximumf,
    unary main_arg8 main_v139 ((transpose S128x128 [1, 0] · transposes_S128x128_S128x128_1_0) : (⟨S128x128, .f32⟩ : BufTy).Contents (Elt F) → (⟨S128x128, .f32⟩ : BufTy).Contents (Elt F)),
    binary main_v138 main_v139 main_v140 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst_34 (constant S_ .f32 0x3F800000#32),
    unary main_cst_34 main_v141 (broadcastInDim S850000 ![] bcast_S_S850000 : (⟨S_, .f32⟩ : BufTy).Contents (Elt F) → (⟨S850000, .f32⟩ : BufTy).Contents (Elt F)),
    nullary main_cst_35 (constant S_ .f32 0x00000000#32),
    unary main_cst_35 main_v142 (broadcastInDim S50000 ![] bcast_S_S50000 : (⟨S_, .f32⟩ : BufTy).Contents (Elt F) → (⟨S50000, .f32⟩ : BufTy).Contents (Elt F)),
    unary main_v6 main_v143 (broadcastInDim S850000x1 ![0] bcast_S850000_S850000x1_0 : (⟨S850000, .i32⟩ : BufTy).Contents (Elt F) → (⟨S850000x1, .i32⟩ : BufTy).Contents (Elt F)),
    ternary main_v142 main_v143 main_v141 main_v144 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_36 (constant S_ .f32 0x00000000#32),
    unary main_cst_36 main_v145 (broadcastInDim S50000 ![] bcast_S_S50000 : (⟨S_, .f32⟩ : BufTy).Contents (Elt F) → (⟨S50000, .f32⟩ : BufTy).Contents (Elt F)),
    binary main_v144 main_v145 main_v146 (cmpf .ogt : (⟨S50000, .f32⟩ : BufTy).Contents (Elt F) → (⟨S50000, .f32⟩ : BufTy).Contents (Elt F) → (⟨S50000, .i1⟩ : BufTy).Contents (Elt F)),
    nullary main_cst_37 (constant S_ .f32 0x3F800000#32),
    unary main_cst_37 main_v147 (broadcastInDim S50000 ![] bcast_S_S50000 : (⟨S_, .f32⟩ : BufTy).Contents (Elt F) → (⟨S50000, .f32⟩ : BufTy).Contents (Elt F)),
    binary main_v144 main_v147 main_v148 (maximumf : (⟨S50000, .f32⟩ : BufTy).Contents (Elt F) → (⟨S50000, .f32⟩ : BufTy).Contents (Elt F) → (⟨S50000, .f32⟩ : BufTy).Contents (Elt F)),
    unary main_v148 main_v149 (Host.rsqrt : (⟨S50000, .f32⟩ : BufTy).Contents (Elt F) → (⟨S50000, .f32⟩ : BufTy).Contents (Elt F)),
    nullary main_cst_38 (constant S_ .f32 0x00000000#32),
    TRef.unary (TRef.of (T := ⟨S_, .f32⟩) main_cst_38) (TRef.of (T := ⟨S_, .f32⟩) main_call6_v0) id,
    TRef.unary (TRef.of (T := ⟨S_, .f32⟩) main_call6_v0) (TRef.of (T := ⟨S50000, .f32⟩) main_call6_v1) (broadcastInDim S50000 ![] bcast_S_S50000),
    TRef.ternary (TRef.of (T := ⟨S50000, .i1⟩) main_v146) (TRef.of (T := ⟨S50000, .f32⟩) main_v149) (TRef.of (T := ⟨S50000, .f32⟩) main_call6_v1) (TRef.of (T := ⟨S50000, .f32⟩) main_v150) select,
    nullary main_c_39 (constantI S_ 32 0#32),
    unary main_c_39 main_v151 (broadcastInDim S850000 ![] bcast_S_S850000 : (⟨S_, .i32⟩ : BufTy).Contents (Elt F) → (⟨S850000, .i32⟩ : BufTy).Contents (Elt F)),
    binary main_v3 main_v151 main_v152 (cmpi .slt : (⟨S850000, .i32⟩ : BufTy).Contents (Elt F) → (⟨S850000, .i32⟩ : BufTy).Contents (Elt F) → (⟨S850000, .i1⟩ : BufTy).Contents (Elt F)),
    nullary main_c_40 (constantI S_ 32 50000#32),
    unary main_c_40 main_v153 (broadcastInDim S850000 ![] bcast_S_S850000 : (⟨S_, .i32⟩ : BufTy).Contents (Elt F) → (⟨S850000, .i32⟩ : BufTy).Contents (Elt F)),
    binary main_v3 main_v153 main_v154 (addi : (⟨S850000, .i32⟩ : BufTy).Contents (Elt F) → (⟨S850000, .i32⟩ : BufTy).Contents (Elt F) → (⟨S850000, .i32⟩ : BufTy).Contents (Elt F)),
    ternary main_v152 main_v154 main_v3 main_v155 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v155 main_v156 (broadcastInDim S850000x1 ![0] bcast_S850000_S850000x1_0 : (⟨S850000, .i32⟩ : BufTy).Contents (Elt F) → (⟨S850000x1, .i32⟩ : BufTy).Contents (Elt F)),
    binary main_v150 main_v156 main_v157 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_41 (constantI S_ 32 0#32),
    unary main_c_41 main_v158 (broadcastInDim S850000 ![] bcast_S_S850000 : (⟨S_, .i32⟩ : BufTy).Contents (Elt F) → (⟨S850000, .i32⟩ : BufTy).Contents (Elt F)),
    binary main_v6 main_v158 main_v159 (cmpi .slt : (⟨S850000, .i32⟩ : BufTy).Contents (Elt F) → (⟨S850000, .i32⟩ : BufTy).Contents (Elt F) → (⟨S850000, .i1⟩ : BufTy).Contents (Elt F)),
    nullary main_c_42 (constantI S_ 32 50000#32),
    unary main_c_42 main_v160 (broadcastInDim S850000 ![] bcast_S_S850000 : (⟨S_, .i32⟩ : BufTy).Contents (Elt F) → (⟨S850000, .i32⟩ : BufTy).Contents (Elt F)),
    binary main_v6 main_v160 main_v161 (addi : (⟨S850000, .i32⟩ : BufTy).Contents (Elt F) → (⟨S850000, .i32⟩ : BufTy).Contents (Elt F) → (⟨S850000, .i32⟩ : BufTy).Contents (Elt F)),
    ternary main_v159 main_v161 main_v6 main_v162 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v162 main_v163 (broadcastInDim S850000x1 ![0] bcast_S850000_S850000x1_0 : (⟨S850000, .i32⟩ : BufTy).Contents (Elt F) → (⟨S850000x1, .i32⟩ : BufTy).Contents (Elt F)),
    binary main_v150 main_v163 main_v164 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v157 main_v164 main_v165 (mulf : (⟨S850000, .f32⟩ : BufTy).Contents (Elt F) → (⟨S850000, .f32⟩ : BufTy).Contents (Elt F) → (⟨S850000, .f32⟩ : BufTy).Contents (Elt F)),
    nullary main_c_43 (constantI S_ 32 0#32),
    unary main_c_43 main_v166 (broadcastInDim S850000 ![] bcast_S_S850000 : (⟨S_, .i32⟩ : BufTy).Contents (Elt F) → (⟨S850000, .i32⟩ : BufTy).Contents (Elt F)),
    binary main_v3 main_v166 main_v167 (cmpi .slt : (⟨S850000, .i32⟩ : BufTy).Contents (Elt F) → (⟨S850000, .i32⟩ : BufTy).Contents (Elt F) → (⟨S850000, .i1⟩ : BufTy).Contents (Elt F)),
    nullary main_c_44 (constantI S_ 32 50000#32),
    unary main_c_44 main_v168 (broadcastInDim S850000 ![] bcast_S_S850000 : (⟨S_, .i32⟩ : BufTy).Contents (Elt F) → (⟨S850000, .i32⟩ : BufTy).Contents (Elt F)),
    binary main_v3 main_v168 main_v169 (addi : (⟨S850000, .i32⟩ : BufTy).Contents (Elt F) → (⟨S850000, .i32⟩ : BufTy).Contents (Elt F) → (⟨S850000, .i32⟩ : BufTy).Contents (Elt F)),
    ternary main_v167 main_v169 main_v3 main_v170 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v170 main_v171 (broadcastInDim S850000x1 ![0] bcast_S850000_S850000x1_0 : (⟨S850000, .i32⟩ : BufTy).Contents (Elt F) → (⟨S850000x1, .i32⟩ : BufTy).Contents (Elt F)),
    binary main_v140 main_v171 main_v172 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v165 main_v173 (broadcastInDim S850000x1 ![0] bcast_S850000_S850000x1_0 : (⟨S850000, .f32⟩ : BufTy).Contents (Elt F) → (⟨S850000x1, .f32⟩ : BufTy).Contents (Elt F)),
    unary main_v173 main_v174 (broadcastInDim S850000x128 ![0, 1] bcast_S850000x1_S850000x128_0_1 : (⟨S850000x1, .f32⟩ : BufTy).Contents (Elt F) → (⟨S850000x128, .f32⟩ : BufTy).Contents (Elt F)),
    binary main_v172 main_v174 main_v175 (mulf : (⟨S850000x128, .f32⟩ : BufTy).Contents (Elt F) → (⟨S850000x128, .f32⟩ : BufTy).Contents (Elt F) → (⟨S850000x128, .f32⟩ : BufTy).Contents (Elt F)),
    nullary main_cst_45 (constant S_ .f32 0x00000000#32),
    unary main_cst_45 main_v176 (broadcastInDim S50000x128 ![] bcast_S_S50000x128 : (⟨S_, .f32⟩ : BufTy).Contents (Elt F) → (⟨S50000x128, .f32⟩ : BufTy).Contents (Elt F)),
    unary main_v6 main_v177 (broadcastInDim S850000x1 ![0] bcast_S850000_S850000x1_0 : (⟨S850000, .i32⟩ : BufTy).Contents (Elt F) → (⟨S850000x1, .i32⟩ : BufTy).Contents (Elt F)),
    ternary main_v176 main_v177 main_v175 main_v178 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg9 main_v179 (broadcastInDim S1x128 ![1] bcast_S128_S1x128_1 : (⟨S128, .f32⟩ : BufTy).Contents (Elt F) → (⟨S1x128, .f32⟩ : BufTy).Contents (Elt F)),
    unary main_v179 main_v180 (broadcastInDim S50000x128 ![0, 1] bcast_S1x128_S50000x128_0_1 : (⟨S1x128, .f32⟩ : BufTy).Contents (Elt F) → (⟨S50000x128, .f32⟩ : BufTy).Contents (Elt F)),
    binary main_v178 main_v180 main_v181 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S50000x128, .f32⟩) main_call7_v0) (broadcastInDim S50000x128 ![] bcast_S_S50000x128),
    TRef.binary (TRef.of (T := ⟨S50000x128, .f32⟩) main_v181) (TRef.of (T := ⟨S50000x128, .f32⟩) main_call7_v0) (TRef.of (T := ⟨S50000x128, .f32⟩) main_v182) maximumf,
    unary main_arg10 main_v183 ((transpose S128x64 [1, 0] · transposes_S64x128_S128x64_1_0) : (⟨S64x128, .f32⟩ : BufTy).Contents (Elt F) → (⟨S128x64, .f32⟩ : BufTy).Contents (Elt F)),
    binary main_v182 main_v183 main_v184 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    nullary main_cst_46 (constant S_ .f32 0x3F800000#32),
    unary main_cst_46 main_v185 (broadcastInDim S850000 ![] bcast_S_S850000 : (⟨S_, .f32⟩ : BufTy).Contents (Elt F) → (⟨S850000, .f32⟩ : BufTy).Contents (Elt F)),
    nullary main_cst_47 (constant S_ .f32 0x00000000#32),
    unary main_cst_47 main_v186 (broadcastInDim S50000 ![] bcast_S_S50000 : (⟨S_, .f32⟩ : BufTy).Contents (Elt F) → (⟨S50000, .f32⟩ : BufTy).Contents (Elt F)),
    unary main_v6 main_v187 (broadcastInDim S850000x1 ![0] bcast_S850000_S850000x1_0 : (⟨S850000, .i32⟩ : BufTy).Contents (Elt F) → (⟨S850000x1, .i32⟩ : BufTy).Contents (Elt F)),
    ternary main_v186 main_v187 main_v185 main_v188 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_48 (constant S_ .f32 0x00000000#32),
    unary main_cst_48 main_v189 (broadcastInDim S50000 ![] bcast_S_S50000 : (⟨S_, .f32⟩ : BufTy).Contents (Elt F) → (⟨S50000, .f32⟩ : BufTy).Contents (Elt F)),
    binary main_v188 main_v189 main_v190 (cmpf .ogt : (⟨S50000, .f32⟩ : BufTy).Contents (Elt F) → (⟨S50000, .f32⟩ : BufTy).Contents (Elt F) → (⟨S50000, .i1⟩ : BufTy).Contents (Elt F)),
    nullary main_cst_49 (constant S_ .f32 0x3F800000#32),
    unary main_cst_49 main_v191 (broadcastInDim S50000 ![] bcast_S_S50000 : (⟨S_, .f32⟩ : BufTy).Contents (Elt F) → (⟨S50000, .f32⟩ : BufTy).Contents (Elt F)),
    binary main_v188 main_v191 main_v192 (maximumf : (⟨S50000, .f32⟩ : BufTy).Contents (Elt F) → (⟨S50000, .f32⟩ : BufTy).Contents (Elt F) → (⟨S50000, .f32⟩ : BufTy).Contents (Elt F)),
    unary main_v192 main_v193 (Host.rsqrt : (⟨S50000, .f32⟩ : BufTy).Contents (Elt F) → (⟨S50000, .f32⟩ : BufTy).Contents (Elt F)),
    nullary main_cst_50 (constant S_ .f32 0x00000000#32),
    TRef.unary (TRef.of (T := ⟨S_, .f32⟩) main_cst_50) (TRef.of (T := ⟨S_, .f32⟩) main_call8_v0) id,
    TRef.unary (TRef.of (T := ⟨S_, .f32⟩) main_call8_v0) (TRef.of (T := ⟨S50000, .f32⟩) main_call8_v1) (broadcastInDim S50000 ![] bcast_S_S50000),
    TRef.ternary (TRef.of (T := ⟨S50000, .i1⟩) main_v190) (TRef.of (T := ⟨S50000, .f32⟩) main_v193) (TRef.of (T := ⟨S50000, .f32⟩) main_call8_v1) (TRef.of (T := ⟨S50000, .f32⟩) main_v194) select,
    nullary main_c_51 (constantI S_ 32 0#32),
    unary main_c_51 main_v195 (broadcastInDim S850000 ![] bcast_S_S850000 : (⟨S_, .i32⟩ : BufTy).Contents (Elt F) → (⟨S850000, .i32⟩ : BufTy).Contents (Elt F)),
    binary main_v3 main_v195 main_v196 (cmpi .slt : (⟨S850000, .i32⟩ : BufTy).Contents (Elt F) → (⟨S850000, .i32⟩ : BufTy).Contents (Elt F) → (⟨S850000, .i1⟩ : BufTy).Contents (Elt F)),
    nullary main_c_52 (constantI S_ 32 50000#32),
    unary main_c_52 main_v197 (broadcastInDim S850000 ![] bcast_S_S850000 : (⟨S_, .i32⟩ : BufTy).Contents (Elt F) → (⟨S850000, .i32⟩ : BufTy).Contents (Elt F)),
    binary main_v3 main_v197 main_v198 (addi : (⟨S850000, .i32⟩ : BufTy).Contents (Elt F) → (⟨S850000, .i32⟩ : BufTy).Contents (Elt F) → (⟨S850000, .i32⟩ : BufTy).Contents (Elt F)),
    ternary main_v196 main_v198 main_v3 main_v199 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v199 main_v200 (broadcastInDim S850000x1 ![0] bcast_S850000_S850000x1_0 : (⟨S850000, .i32⟩ : BufTy).Contents (Elt F) → (⟨S850000x1, .i32⟩ : BufTy).Contents (Elt F)),
    binary main_v194 main_v200 main_v201 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_53 (constantI S_ 32 0#32),
    unary main_c_53 main_v202 (broadcastInDim S850000 ![] bcast_S_S850000 : (⟨S_, .i32⟩ : BufTy).Contents (Elt F) → (⟨S850000, .i32⟩ : BufTy).Contents (Elt F)),
    binary main_v6 main_v202 main_v203 (cmpi .slt : (⟨S850000, .i32⟩ : BufTy).Contents (Elt F) → (⟨S850000, .i32⟩ : BufTy).Contents (Elt F) → (⟨S850000, .i1⟩ : BufTy).Contents (Elt F)),
    nullary main_c_54 (constantI S_ 32 50000#32),
    unary main_c_54 main_v204 (broadcastInDim S850000 ![] bcast_S_S850000 : (⟨S_, .i32⟩ : BufTy).Contents (Elt F) → (⟨S850000, .i32⟩ : BufTy).Contents (Elt F)),
    binary main_v6 main_v204 main_v205 (addi : (⟨S850000, .i32⟩ : BufTy).Contents (Elt F) → (⟨S850000, .i32⟩ : BufTy).Contents (Elt F) → (⟨S850000, .i32⟩ : BufTy).Contents (Elt F)),
    ternary main_v203 main_v205 main_v6 main_v206 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v206 main_v207 (broadcastInDim S850000x1 ![0] bcast_S850000_S850000x1_0 : (⟨S850000, .i32⟩ : BufTy).Contents (Elt F) → (⟨S850000x1, .i32⟩ : BufTy).Contents (Elt F)),
    binary main_v194 main_v207 main_v208 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v201 main_v208 main_v209 (mulf : (⟨S850000, .f32⟩ : BufTy).Contents (Elt F) → (⟨S850000, .f32⟩ : BufTy).Contents (Elt F) → (⟨S850000, .f32⟩ : BufTy).Contents (Elt F)),
    nullary main_c_55 (constantI S_ 32 0#32),
    unary main_c_55 main_v210 (broadcastInDim S850000 ![] bcast_S_S850000 : (⟨S_, .i32⟩ : BufTy).Contents (Elt F) → (⟨S850000, .i32⟩ : BufTy).Contents (Elt F)),
    binary main_v3 main_v210 main_v211 (cmpi .slt : (⟨S850000, .i32⟩ : BufTy).Contents (Elt F) → (⟨S850000, .i32⟩ : BufTy).Contents (Elt F) → (⟨S850000, .i1⟩ : BufTy).Contents (Elt F)),
    nullary main_c_56 (constantI S_ 32 50000#32),
    unary main_c_56 main_v212 (broadcastInDim S850000 ![] bcast_S_S850000 : (⟨S_, .i32⟩ : BufTy).Contents (Elt F) → (⟨S850000, .i32⟩ : BufTy).Contents (Elt F)),
    binary main_v3 main_v212 main_v213 (addi : (⟨S850000, .i32⟩ : BufTy).Contents (Elt F) → (⟨S850000, .i32⟩ : BufTy).Contents (Elt F) → (⟨S850000, .i32⟩ : BufTy).Contents (Elt F)),
    ternary main_v211 main_v213 main_v3 main_v214 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v214 main_v215 (broadcastInDim S850000x1 ![0] bcast_S850000_S850000x1_0 : (⟨S850000, .i32⟩ : BufTy).Contents (Elt F) → (⟨S850000x1, .i32⟩ : BufTy).Contents (Elt F)),
    binary main_v184 main_v215 main_v216 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v209 main_v217 (broadcastInDim S850000x1 ![0] bcast_S850000_S850000x1_0 : (⟨S850000, .f32⟩ : BufTy).Contents (Elt F) → (⟨S850000x1, .f32⟩ : BufTy).Contents (Elt F)),
    unary main_v217 main_v218 (broadcastInDim S850000x64 ![0, 1] bcast_S850000x1_S850000x64_0_1 : (⟨S850000x1, .f32⟩ : BufTy).Contents (Elt F) → (⟨S850000x64, .f32⟩ : BufTy).Contents (Elt F)),
    binary main_v216 main_v218 main_v219 (mulf : (⟨S850000x64, .f32⟩ : BufTy).Contents (Elt F) → (⟨S850000x64, .f32⟩ : BufTy).Contents (Elt F) → (⟨S850000x64, .f32⟩ : BufTy).Contents (Elt F)),
    nullary main_cst_57 (constant S_ .f32 0x00000000#32),
    unary main_cst_57 main_v220 (broadcastInDim S50000x64 ![] bcast_S_S50000x64 : (⟨S_, .f32⟩ : BufTy).Contents (Elt F) → (⟨S50000x64, .f32⟩ : BufTy).Contents (Elt F)),
    unary main_v6 main_v221 (broadcastInDim S850000x1 ![0] bcast_S850000_S850000x1_0 : (⟨S850000, .i32⟩ : BufTy).Contents (Elt F) → (⟨S850000x1, .i32⟩ : BufTy).Contents (Elt F)),
    ternary main_v220 main_v221 main_v219 main_v222 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg11 main_v223 (broadcastInDim S1x64 ![1] bcast_S64_S1x64_1 : (⟨S64, .f32⟩ : BufTy).Contents (Elt F) → (⟨S1x64, .f32⟩ : BufTy).Contents (Elt F)),
    unary main_v223 main_v224 (broadcastInDim S50000x64 ![0, 1] bcast_S1x64_S50000x64_0_1 : (⟨S1x64, .f32⟩ : BufTy).Contents (Elt F) → (⟨S50000x64, .f32⟩ : BufTy).Contents (Elt F)),
    binary main_v222 main_v224 main_v225 (addf : (⟨S50000x64, .f32⟩ : BufTy).Contents (Elt F) → (⟨S50000x64, .f32⟩ : BufTy).Contents (Elt F) → (⟨S50000x64, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

set_option maxRecDepth 8192 in
set_option maxHeartbeats 121600000 in
/-- On every device, from any memory with zero counters: every weakly fair execution of the reference terminates with
    the result at the network of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v225) = Cert.Gcn.network (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v225).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl)⟩)
    (run_seq scopedRefs_eq scopedSems_eq defs main (fun _ => ops) main_eq (fun _ => ops_sub) m ρ)

end Cert.Gcn.Reference

end
-- ==== Proof.KernelRun.lean ====
/-
  The kernel program's run with its result kept: @main is ten pipelined regions among stretches of host operations,
  and along the run every unscoped buffer of a core is held at the contents the fold through @main assigns to it at
  each boundary. Read against a final state, the last boundary gives the result buffer at its folded contents and
  every argument at its launch contents. The statement is the frame's with one more buffer read at the end.
-/
import proofs.«106422_j64647847740121_1_alg».proof.Proof.Gen.KernelIdeal.Frame

set_option maxRecDepth 16384

noncomputable section

namespace Cert.Gcn.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the contents the fold
    assigns to it at the last boundary and every argument array as launched. -/
theorem run_result : θ_run defs (onTc (τ := τ) (main (F := F))) ⟨m, fun _ => 0, ρ⟩ (fun r => ∀ c : Dev nD,
      r.2.mem ((c.tc : Thread nD τ).loc main_v111) = W18 m ρ c (Proc.devRef .tc main_v111)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v111 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c)⟩)

end Cert.Gcn.KernelRun

end
-- ==== Proof.KernelBody.lean ====
/-
  What one grid point's body computes, read at an entry of its output block, over the extended reals.

  A projection body holds a block `x : [5000, 128]` of node features and the whole `W : [n, 128]`; narrowing to a
  shorter float format is the identity on extended reals, and the product contracts the second axis of both operands
  into a zero accumulator, so entry `(p, q)` is `∑ k, x[p, k] * W[q, k]`. A bias body holds a block `a : [5000, n]`
  and the bias as a single row `b : [1, n]`, repeats the row down the block and adds: entry `(p, q)` is
  `a[p, q] + b[0, q]`, clamped below at zero in every layer but the last.
-/
import proofs.«106422_j64647847740121_1_alg».proof.Proof.Gen.KernelIdeal.Skeleton
import Idealize.ShloMosaic.PureOps.Ideal
import Idealize.ShloMosaic.PureOps.Ideal.Laws
import Idealize.ShloMosaic.Lib.ValueIdx
import Idealize.ShloMosaic.Lib.Pipeline.Value

noncomputable section

namespace Cert.Gcn.Body

open Idealize.ShloMosaic Idealize.ShloMosaic.ValueIdx Cert.KernelIdeal Cert.KernelIdeal.Gen
open scoped BigOperators

/-! ### The block product with `W : [128, 128]`: operand indices at output index `j` and contraction index `κ` -/

theorem kdot128_lhs0 (j : S5000x128.Idx) (κ : dot_S5000x128_S128x128_S5000x128_1_1_0_0_n_n.contr.Idx) :
    (dot_S5000x128_S128x128_S5000x128_1_1_0_0_n_n.lhsIdx j κ 0).val = (j 0).val := by
  unfold DotDims.lhsIdx
  rw [dif_neg (show ¬(0 : Fin S5000x128.rank) ∈ dot_S5000x128_S128x128_S5000x128_1_1_0_0_n_n.lhsBatch by decide), dif_pos (show (0 : Fin S5000x128.rank) ∈ dot_S5000x128_S128x128_S5000x128_1_1_0_0_n_n.lhsNonContracting by decide)]
  rfl
theorem kdot128_lhs1 (j : S5000x128.Idx) (κ : dot_S5000x128_S128x128_S5000x128_1_1_0_0_n_n.contr.Idx) :
    (dot_S5000x128_S128x128_S5000x128_1_1_0_0_n_n.lhsIdx j κ 1).val = (κ ⟨0, by decide⟩).val :=
  dot_S5000x128_S128x128_S5000x128_1_1_0_0_n_n.lhsIdx_val_of_single rfl j κ
theorem kdot128_rhs0 (j : S5000x128.Idx) (κ : dot_S5000x128_S128x128_S5000x128_1_1_0_0_n_n.contr.Idx) :
    (dot_S5000x128_S128x128_S5000x128_1_1_0_0_n_n.rhsIdx j κ 0).val = (j 1).val := by
  unfold DotDims.rhsIdx
  rw [dif_neg (show ¬(0 : Fin S128x128.rank) ∈ dot_S5000x128_S128x128_S5000x128_1_1_0_0_n_n.rhsBatch by decide), dif_pos (show (0 : Fin S128x128.rank) ∈ dot_S5000x128_S128x128_S5000x128_1_1_0_0_n_n.rhsNonContracting by decide)]
  rfl
theorem kdot128_rhs1 (j : S5000x128.Idx) (κ : dot_S5000x128_S128x128_S5000x128_1_1_0_0_n_n.contr.Idx) :
    (dot_S5000x128_S128x128_S5000x128_1_1_0_0_n_n.rhsIdx j κ 1).val = (κ ⟨0, by decide⟩).val :=
  dot_S5000x128_S128x128_S5000x128_1_1_0_0_n_n.rhsIdx_val_of_single rfl j κ

/-- The product into a zero accumulator at `(p, q)`: row `p` of the left block against row `q` of `W`. -/
theorem kdot128_apply {φ₁ φ₂ : FTy} (lhs : FVec Ideal S5000x128 φ₁) (rhs : FVec Ideal S128x128 φ₂) (p : Fin 5000) (q : Fin 128) :
    matmul dot_S5000x128_S128x128_S5000x128_1_1_0_0_n_n none lhs rhs (constant (F := Ideal) S5000x128 .f32 0x00000000#32) (ix2 p q)
      = ∑ k : Fin 128, lhs (ix2 p k) * rhs (ix2 q k) := by
  simp only [matmul]
  rw [Ideal.matmul_constant_zero_apply, ← Equiv.sum_comp (contrEquiv1 dot_S5000x128_S128x128_S5000x128_1_1_0_0_n_n 128 rfl rfl).symm]
  refine Finset.sum_congr rfl fun k _ => ?_
  have hk := contrEquiv1_symm_val dot_S5000x128_S128x128_S5000x128_1_1_0_0_n_n 128 rfl rfl k
  have el : dot_S5000x128_S128x128_S5000x128_1_1_0_0_n_n.lhsIdx (ix2 p q) ((contrEquiv1 dot_S5000x128_S128x128_S5000x128_1_1_0_0_n_n 128 rfl rfl).symm k) = ix2 p k := funext fun a => Fin.ext (by
    match a with
    | ⟨0, _⟩ => exact kdot128_lhs0 _ _
    | ⟨1, _⟩ => exact (kdot128_lhs1 _ _).trans hk)
  have er : dot_S5000x128_S128x128_S5000x128_1_1_0_0_n_n.rhsIdx (ix2 p q) ((contrEquiv1 dot_S5000x128_S128x128_S5000x128_1_1_0_0_n_n 128 rfl rfl).symm k) = ix2 q k := funext fun a => Fin.ext (by
    match a with
    | ⟨0, _⟩ => exact kdot128_rhs0 _ _
    | ⟨1, _⟩ => exact (kdot128_rhs1 _ _).trans hk)
  rw [el, er]

/-! ### The block product with `W : [64, 128]`: operand indices at output index `j` and contraction index `κ` -/

theorem kdot64_lhs0 (j : S5000x64.Idx) (κ : dot_S5000x128_S64x128_S5000x64_1_1_0_0_n_n.contr.Idx) :
    (dot_S5000x128_S64x128_S5000x64_1_1_0_0_n_n.lhsIdx j κ 0).val = (j 0).val := by
  unfold DotDims.lhsIdx
  rw [dif_neg (show ¬(0 : Fin S5000x128.rank) ∈ dot_S5000x128_S64x128_S5000x64_1_1_0_0_n_n.lhsBatch by decide), dif_pos (show (0 : Fin S5000x128.rank) ∈ dot_S5000x128_S64x128_S5000x64_1_1_0_0_n_n.lhsNonContracting by decide)]
  rfl
theorem kdot64_lhs1 (j : S5000x64.Idx) (κ : dot_S5000x128_S64x128_S5000x64_1_1_0_0_n_n.contr.Idx) :
    (dot_S5000x128_S64x128_S5000x64_1_1_0_0_n_n.lhsIdx j κ 1).val = (κ ⟨0, by decide⟩).val :=
  dot_S5000x128_S64x128_S5000x64_1_1_0_0_n_n.lhsIdx_val_of_single rfl j κ
theorem kdot64_rhs0 (j : S5000x64.Idx) (κ : dot_S5000x128_S64x128_S5000x64_1_1_0_0_n_n.contr.Idx) :
    (dot_S5000x128_S64x128_S5000x64_1_1_0_0_n_n.rhsIdx j κ 0).val = (j 1).val := by
  unfold DotDims.rhsIdx
  rw [dif_neg (show ¬(0 : Fin S64x128.rank) ∈ dot_S5000x128_S64x128_S5000x64_1_1_0_0_n_n.rhsBatch by decide), dif_pos (show (0 : Fin S64x128.rank) ∈ dot_S5000x128_S64x128_S5000x64_1_1_0_0_n_n.rhsNonContracting by decide)]
  rfl
theorem kdot64_rhs1 (j : S5000x64.Idx) (κ : dot_S5000x128_S64x128_S5000x64_1_1_0_0_n_n.contr.Idx) :
    (dot_S5000x128_S64x128_S5000x64_1_1_0_0_n_n.rhsIdx j κ 1).val = (κ ⟨0, by decide⟩).val :=
  dot_S5000x128_S64x128_S5000x64_1_1_0_0_n_n.rhsIdx_val_of_single rfl j κ

/-- The product into a zero accumulator at `(p, q)`: row `p` of the left block against row `q` of `W`. -/
theorem kdot64_apply {φ₁ φ₂ : FTy} (lhs : FVec Ideal S5000x128 φ₁) (rhs : FVec Ideal S64x128 φ₂) (p : Fin 5000) (q : Fin 64) :
    matmul dot_S5000x128_S64x128_S5000x64_1_1_0_0_n_n none lhs rhs (constant (F := Ideal) S5000x64 .f32 0x00000000#32) (ix2 p q)
      = ∑ k : Fin 128, lhs (ix2 p k) * rhs (ix2 q k) := by
  simp only [matmul]
  rw [Ideal.matmul_constant_zero_apply, ← Equiv.sum_comp (contrEquiv1 dot_S5000x128_S64x128_S5000x64_1_1_0_0_n_n 128 rfl rfl).symm]
  refine Finset.sum_congr rfl fun k _ => ?_
  have hk := contrEquiv1_symm_val dot_S5000x128_S64x128_S5000x64_1_1_0_0_n_n 128 rfl rfl k
  have el : dot_S5000x128_S64x128_S5000x64_1_1_0_0_n_n.lhsIdx (ix2 p q) ((contrEquiv1 dot_S5000x128_S64x128_S5000x64_1_1_0_0_n_n 128 rfl rfl).symm k) = ix2 p k := funext fun a => Fin.ext (by
    match a with
    | ⟨0, _⟩ => exact kdot64_lhs0 _ _
    | ⟨1, _⟩ => exact (kdot64_lhs1 _ _).trans hk)
  have er : dot_S5000x128_S64x128_S5000x64_1_1_0_0_n_n.rhsIdx (ix2 p q) ((contrEquiv1 dot_S5000x128_S64x128_S5000x64_1_1_0_0_n_n 128 rfl rfl).symm k) = ix2 q k := funext fun a => Fin.ext (by
    match a with
    | ⟨0, _⟩ => exact kdot64_rhs0 _ _
    | ⟨1, _⟩ => exact (kdot64_rhs1 _ _).trans hk)
  rw [el, er]

/-! ### The projection bodies -/

theorem pay_linear0 (x : Vec Ideal S5000x128 .f32) (w : Vec Ideal S128x128 .f32) (p : Fin 5000) (q : Fin 128) :
    k0_pay1 x w (ix2 p q) = ∑ k : Fin 128, x (ix2 p k) * w (ix2 q k) := by
  unfold k0_pay1
  exact kdot128_apply _ _ p q

theorem pay_linear2 (x : Vec Ideal S5000x128 .f32) (w : Vec Ideal S128x128 .f32) (p : Fin 5000) (q : Fin 128) :
    k2_pay1 x w (ix2 p q) = ∑ k : Fin 128, x (ix2 p k) * w (ix2 q k) := by
  unfold k2_pay1
  simp only [shapeCast_self]
  exact kdot128_apply _ _ p q

theorem pay_linear4 (x : Vec Ideal S5000x128 .f32) (w : Vec Ideal S128x128 .f32) (p : Fin 5000) (q : Fin 128) :
    k4_pay1 x w (ix2 p q) = ∑ k : Fin 128, x (ix2 p k) * w (ix2 q k) := by
  unfold k4_pay1
  simp only [shapeCast_self]
  exact kdot128_apply _ _ p q

theorem pay_linear6 (x : Vec Ideal S5000x128 .f32) (w : Vec Ideal S128x128 .f32) (p : Fin 5000) (q : Fin 128) :
    k6_pay1 x w (ix2 p q) = ∑ k : Fin 128, x (ix2 p k) * w (ix2 q k) := by
  unfold k6_pay1
  simp only [shapeCast_self]
  exact kdot128_apply _ _ p q

theorem pay_linear8 (x : Vec Ideal S5000x128 .f32) (w : Vec Ideal S64x128 .f32) (p : Fin 5000) (q : Fin 64) :
    k8_pay1 x w (ix2 p q) = ∑ k : Fin 128, x (ix2 p k) * w (ix2 q k) := by
  unfold k8_pay1
  simp only [shapeCast_self]
  exact kdot64_apply _ _ p q

/-! ### The bias bodies -/

theorem pay_bias1 (a : Vec Ideal S5000x128 .f32) (b : Vec Ideal S1x128 .f32) (p : Fin 5000) (q : Fin 128) :
    k1_pay1 a b (ix2 p q) = max (a (ix2 p q) + b (ix2 0 q)) (Ideal.ofBits .f32 0x00000000#32) := by
  unfold k1_pay1
  simp only [shapeCast_self]
  show max (a (ix2 p q) + broadcastTo S5000x128 b broadcasts_S1x128_S5000x128 (ix2 p q)) (Ideal.ofBits .f32 0x00000000#32) = _
  rw [broadcastTo_apply b broadcasts_S1x128_S5000x128 (ix2 p q) (ix2 0 q) (fun d => by
    match d with
    | ⟨0, _⟩ => rfl
    | ⟨1, _⟩ => rfl)]

theorem pay_bias3 (a : Vec Ideal S5000x128 .f32) (b : Vec Ideal S1x128 .f32) (p : Fin 5000) (q : Fin 128) :
    k3_pay1 a b (ix2 p q) = max (a (ix2 p q) + b (ix2 0 q)) (Ideal.ofBits .f32 0x00000000#32) := by
  unfold k3_pay1
  simp only [shapeCast_self]
  show max (a (ix2 p q) + broadcastTo S5000x128 b broadcasts_S1x128_S5000x128 (ix2 p q)) (Ideal.ofBits .f32 0x00000000#32) = _
  rw [broadcastTo_apply b broadcasts_S1x128_S5000x128 (ix2 p q) (ix2 0 q) (fun d => by
    match d with
    | ⟨0, _⟩ => rfl
    | ⟨1, _⟩ => rfl)]

theorem pay_bias5 (a : Vec Ideal S5000x128 .f32) (b : Vec Ideal S1x128 .f32) (p : Fin 5000) (q : Fin 128) :
    k5_pay1 a b (ix2 p q) = max (a (ix2 p q) + b (ix2 0 q)) (Ideal.ofBits .f32 0x00000000#32) := by
  unfold k5_pay1
  simp only [shapeCast_self]
  show max (a (ix2 p q) + broadcastTo S5000x128 b broadcasts_S1x128_S5000x128 (ix2 p q)) (Ideal.ofBits .f32 0x00000000#32) = _
  rw [broadcastTo_apply b broadcasts_S1x128_S5000x128 (ix2 p q) (ix2 0 q) (fun d => by
    match d with
    | ⟨0, _⟩ => rfl
    | ⟨1, _⟩ => rfl)]

theorem pay_bias7 (a : Vec Ideal S5000x128 .f32) (b : Vec Ideal S1x128 .f32) (p : Fin 5000) (q : Fin 128) :
    k7_pay1 a b (ix2 p q) = max (a (ix2 p q) + b (ix2 0 q)) (Ideal.ofBits .f32 0x00000000#32) := by
  unfold k7_pay1
  simp only [shapeCast_self]
  show max (a (ix2 p q) + broadcastTo S5000x128 b broadcasts_S1x128_S5000x128 (ix2 p q)) (Ideal.ofBits .f32 0x00000000#32) = _
  rw [broadcastTo_apply b broadcasts_S1x128_S5000x128 (ix2 p q) (ix2 0 q) (fun d => by
    match d with
    | ⟨0, _⟩ => rfl
    | ⟨1, _⟩ => rfl)]

theorem pay_bias9 (a : Vec Ideal S5000x64 .f32) (b : Vec Ideal S1x64 .f32) (p : Fin 5000) (q : Fin 64) :
    k9_pay1 a b (ix2 p q) = a (ix2 p q) + b (ix2 0 q) := by
  unfold k9_pay1
  simp only [shapeCast_self]
  show a (ix2 p q) + broadcastTo S5000x64 b broadcasts_S1x64_S5000x64 (ix2 p q) = _
  rw [broadcastTo_apply b broadcasts_S1x64_S5000x64 (ix2 p q) (ix2 0 q) (fun d => by
    match d with
    | ⟨0, _⟩ => rfl
    | ⟨1, _⟩ => rfl)]

end Cert.Gcn.Body

end
-- ==== Proof.SpecAt.lean ====
/-
  The specification's dense stages read at an entry, over the extended reals:
  `(x · Wᵀ)[r, q] = ∑ k, x[r, k] * W[q, k]` (the host product contracts the second axis of `x` against the first of
  the transposed `W`, and the transpose swaps the two coordinates back); the bias rows at `(r, q)` hold `b[q]`; the
  clamp at an entry is `max · 0`. And the form in which a row-blocked bias pass leaves its array — the input plus a
  single row `B : [1, n]` read at `(0, q)`, clamped or not — is the specification's bias stage when `B` is the bias
  vector laid out as one row.
-/
import proofs.«106422_j64647847740121_1_alg».proof.Proof.Spec
import Idealize.ShloMosaic.Lib.ValueLayout

noncomputable section

namespace Cert.Gcn

open Idealize.ShloMosaic Idealize.ShloMosaic.ValueIdx Cert.ReferenceIdeal Cert.ReferenceIdeal.Gen
open scoped BigOperators

variable {F : FTy → Type} [FloatOps F]

/-! ## The host product's operand indices -/

theorem rdot128_lhs0 (i : S50000x128.Idx) (κ : dot_S50000x128_S128x128_S50000x128_1_0_0_1_n_n.contr.Idx) : (dot_S50000x128_S128x128_S50000x128_1_0_0_1_n_n.lhsIdx i κ 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem rdot128_lhs1 (i : S50000x128.Idx) (κ : dot_S50000x128_S128x128_S50000x128_1_0_0_1_n_n.contr.Idx) : (dot_S50000x128_S128x128_S50000x128_1_0_0_1_n_n.lhsIdx i κ 1).val = (κ ⟨0, by decide⟩).val :=
  dot_S50000x128_S128x128_S50000x128_1_0_0_1_n_n.lhsIdx_val_of_single rfl i κ
theorem rdot128_rhs0 (i : S50000x128.Idx) (κ : dot_S50000x128_S128x128_S50000x128_1_0_0_1_n_n.contr.Idx) : (dot_S50000x128_S128x128_S50000x128_1_0_0_1_n_n.rhsIdx i κ 0).val = (κ ⟨0, by decide⟩).val :=
  dot_S50000x128_S128x128_S50000x128_1_0_0_1_n_n.rhsIdx_val_of_single rfl i κ
theorem rdot128_rhs1 (i : S50000x128.Idx) (κ : dot_S50000x128_S128x128_S50000x128_1_0_0_1_n_n.contr.Idx) : (dot_S50000x128_S128x128_S50000x128_1_0_0_1_n_n.rhsIdx i κ 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

theorem rdot64_lhs0 (i : S50000x64.Idx) (κ : dot_S50000x128_S128x64_S50000x64_1_0_0_1_n_n.contr.Idx) : (dot_S50000x128_S128x64_S50000x64_1_0_0_1_n_n.lhsIdx i κ 0).val = (i 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl
theorem rdot64_lhs1 (i : S50000x64.Idx) (κ : dot_S50000x128_S128x64_S50000x64_1_0_0_1_n_n.contr.Idx) : (dot_S50000x128_S128x64_S50000x64_1_0_0_1_n_n.lhsIdx i κ 1).val = (κ ⟨0, by decide⟩).val :=
  dot_S50000x128_S128x64_S50000x64_1_0_0_1_n_n.lhsIdx_val_of_single rfl i κ
theorem rdot64_rhs0 (i : S50000x64.Idx) (κ : dot_S50000x128_S128x64_S50000x64_1_0_0_1_n_n.contr.Idx) : (dot_S50000x128_S128x64_S50000x64_1_0_0_1_n_n.rhsIdx i κ 0).val = (κ ⟨0, by decide⟩).val :=
  dot_S50000x128_S128x64_S50000x64_1_0_0_1_n_n.rhsIdx_val_of_single rfl i κ
theorem rdot64_rhs1 (i : S50000x64.Idx) (κ : dot_S50000x128_S128x64_S50000x64_1_0_0_1_n_n.contr.Idx) : (dot_S50000x128_S128x64_S50000x64_1_0_0_1_n_n.rhsIdx i κ 1).val = (i 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl

/-! ## The projection at an entry -/

/-- `(x · Wᵀ)[r, q] = ∑ k, x[r, k] * W[q, k]`. -/
theorem linear128_apply (X : (⟨S50000x128, .f32⟩ : BufTy).Contents (Elt Ideal)) (W : (⟨S128x128, .f32⟩ : BufTy).Contents (Elt Ideal))
    (r : Fin 50000) (q : Fin 128) :
    linear128 (F := Ideal) X W (ix2 r q) = ∑ k : Fin 128, X (ix2 r k) * W (ix2 q k) := by
  unfold linear128
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 r q) ((contrEquiv1 dot_S50000x128_S128x128_S50000x128_1_0_0_1_n_n 128 rfl rfl).symm k) = ix2 r k := funext fun a => Fin.ext (by
    match a with
    | ⟨0, _⟩ => exact rdot128_lhs0 _ _
    | ⟨1, _⟩ => exact (rdot128_lhs1 _ _).trans hk)
  have er : dot_S50000x128_S128x128_S50000x128_1_0_0_1_n_n.rhsIdx (ix2 r q) ((contrEquiv1 dot_S50000x128_S128x128_S50000x128_1_0_0_1_n_n 128 rfl rfl).symm k) = ix2 k q := funext fun a => Fin.ext (by
    match a with
    | ⟨0, _⟩ => exact (rdot128_rhs0 _ _).trans hk
    | ⟨1, _⟩ => exact rdot128_rhs1 _ _)
  rw [el, er]
  refine congrArg (X (ix2 r k) * ·) ?_
  exact transpose_apply [1, 0] W transposes_S128x128_S128x128_1_0 (ix2 k q) (ix2 q k) (fun b => by
    match b with
    | ⟨0, _⟩ => rfl
    | ⟨1, _⟩ => rfl)

/-- `(x · Wᵀ)[r, q] = ∑ k, x[r, k] * W[q, k]`. -/
theorem linear64_apply (X : (⟨S50000x128, .f32⟩ : BufTy).Contents (Elt Ideal)) (W : (⟨S64x128, .f32⟩ : BufTy).Contents (Elt Ideal))
    (r : Fin 50000) (q : Fin 64) :
    linear64 (F := Ideal) X W (ix2 r q) = ∑ k : Fin 128, X (ix2 r k) * W (ix2 q k) := by
  unfold linear64
  simp only [Host.dotGeneral]
  rw [Ideal.dotGeneral_apply, ← Equiv.sum_comp (contrEquiv1 dot_S50000x128_S128x64_S50000x64_1_0_0_1_n_n 128 rfl rfl).symm]
  refine Finset.sum_congr rfl fun k _ => ?_
  have hk := contrEquiv1_symm_val dot_S50000x128_S128x64_S50000x64_1_0_0_1_n_n 128 rfl rfl k
  have el : dot_S50000x128_S128x64_S50000x64_1_0_0_1_n_n.lhsIdx (ix2 r q) ((contrEquiv1 dot_S50000x128_S128x64_S50000x64_1_0_0_1_n_n 128 rfl rfl).symm k) = ix2 r k := funext fun a => Fin.ext (by
    match a with
    | ⟨0, _⟩ => exact rdot64_lhs0 _ _
    | ⟨1, _⟩ => exact (rdot64_lhs1 _ _).trans hk)
  have er : dot_S50000x128_S128x64_S50000x64_1_0_0_1_n_n.rhsIdx (ix2 r q) ((contrEquiv1 dot_S50000x128_S128x64_S50000x64_1_0_0_1_n_n 128 rfl rfl).symm k) = ix2 k q := funext fun a => Fin.ext (by
    match a with
    | ⟨0, _⟩ => exact (rdot64_rhs0 _ _).trans hk
    | ⟨1, _⟩ => exact rdot64_rhs1 _ _)
  rw [el, er]
  refine congrArg (X (ix2 r k) * ·) ?_
  exact transpose_apply [1, 0] W transposes_S64x128_S128x64_1_0 (ix2 k q) (ix2 q k) (fun b => by
    match b with
    | ⟨0, _⟩ => rfl
    | ⟨1, _⟩ => rfl)

/-! ## The bias rows and the clamp at an entry -/

/-- The bias rows at `(r, q)` hold `b[q]`. -/
theorem biasRows128_apply (b : (⟨S128, .f32⟩ : BufTy).Contents (Elt F)) (r : Fin 50000) (q : Fin 128) :
    biasRows128 (F := F) b (ix2 r q) = b (ix1 q) := by
  unfold biasRows128
  rw [broadcastInDim_apply ![0, 1] bcast_S1x128_S50000x128_0_1 _ (ix2 r q) (ix2 0 q) (fun a => by
    match a with
    | ⟨0, _⟩ => show (0 : Nat) = if (1 : Nat) = 1 then 0 else r.val; rw [if_pos rfl]
    | ⟨1, _⟩ => show q.val = if (128 : Nat) = 1 then 0 else q.val; rw [if_neg (by decide)])]
  exact broadcastInDim_apply ![1] bcast_S128_S1x128_1 b (ix2 0 q) (ix1 q) (fun a => by
    match a with
    | ⟨0, _⟩ => show q.val = if (128 : Nat) = 1 then 0 else q.val; rw [if_neg (by decide)])

/-- The bias rows at `(r, q)` hold `b[q]`. -/
theorem biasRows64_apply (b : (⟨S64, .f32⟩ : BufTy).Contents (Elt F)) (r : Fin 50000) (q : Fin 64) :
    biasRows64 (F := F) b (ix2 r q) = b (ix1 q) := by
  unfold biasRows64
  rw [broadcastInDim_apply ![0, 1] bcast_S1x64_S50000x64_0_1 _ (ix2 r q) (ix2 0 q) (fun a => by
    match a with
    | ⟨0, _⟩ => show (0 : Nat) = if (1 : Nat) = 1 then 0 else r.val; rw [if_pos rfl]
    | ⟨1, _⟩ => show q.val = if (64 : Nat) = 1 then 0 else q.val; rw [if_neg (by decide)])]
  exact broadcastInDim_apply ![1] bcast_S64_S1x64_1 b (ix2 0 q) (ix1 q) (fun a => by
    match a with
    | ⟨0, _⟩ => show q.val = if (64 : Nat) = 1 then 0 else q.val; rw [if_neg (by decide)])

theorem relu128_apply (a : (⟨S50000x128, .f32⟩ : BufTy).Contents (Elt Ideal)) (i : S50000x128.Idx) :
    relu128 (F := Ideal) a i = max (a i) (Ideal.ofBits .f32 0x00000000#32) := rfl

/-! ## What a row-blocked bias pass leaves -/

/-- The input plus the single row `B`, repeated down the rows, clamped below at zero. -/
def addRowClamp128 (A : (⟨S50000x128, .f32⟩ : BufTy).Contents (Elt Ideal)) (B : (⟨S1x128, .f32⟩ : BufTy).Contents (Elt Ideal)) :
    (⟨S50000x128, .f32⟩ : BufTy).Contents (Elt Ideal) :=
  fun i => max (A i + B (ix2 0 (i 1))) (Ideal.ofBits .f32 0x00000000#32)

/-- The input plus the single row `B`, repeated down the rows. -/
def addRow64 (A : (⟨S50000x64, .f32⟩ : BufTy).Contents (Elt Ideal)) (B : (⟨S1x64, .f32⟩ : BufTy).Contents (Elt Ideal)) :
    (⟨S50000x64, .f32⟩ : BufTy).Contents (Elt Ideal) :=
  fun i => A i + B (ix2 0 (i 1))

/-- With the bias vector laid out as one row, that is the specification's bias-and-clamp stage. -/
theorem addRowClamp128_eq (A : (⟨S50000x128, .f32⟩ : BufTy).Contents (Elt Ideal)) (b : (⟨S128, .f32⟩ : BufTy).Contents (Elt Ideal))
    (h : S128.ShapeCasts S1x128) :
    addRowClamp128 A (shapeCast S1x128 b h) = relu128 (F := Ideal) (addf A (biasRows128 b)) := by
  funext i
  obtain ⟨r, q, rfl⟩ : ∃ (r : Fin 50000) (q : Fin 128), i = ix2 r q := ⟨i 0, i 1, eq_ix2 i⟩
  show max (A (ix2 r q) + shapeCast S1x128 b h (ix2 0 q)) _ = max (A (ix2 r q) + biasRows128 (F := Ideal) b (ix2 r q)) _
  rw [biasRows128_apply, shapeCast_addUnit_apply (d := ![128]) b h (ix2 0 q)]
  exact congrArg (fun z => max (A (ix2 r q) + b z) _) (funext fun a => by match a with | ⟨0, _⟩ => rfl)

theorem addRow64_eq (A : (⟨S50000x64, .f32⟩ : BufTy).Contents (Elt Ideal)) (b : (⟨S64, .f32⟩ : BufTy).Contents (Elt Ideal))
    (h : S64.ShapeCasts S1x64) :
    addRow64 A (shapeCast S1x64 b h) = (addf A (biasRows64 (F := Ideal) b) : FVec Ideal S50000x64 .f32) := by
  funext i
  obtain ⟨r, q, rfl⟩ : ∃ (r : Fin 50000) (q : Fin 64), i = ix2 r q := ⟨i 0, i 1, eq_ix2 i⟩
  show A (ix2 r q) + shapeCast S1x64 b h (ix2 0 q) = A (ix2 r q) + biasRows64 (F := Ideal) b (ix2 r q)
  rw [biasRows64_apply, shapeCast_addUnit_apply (d := ![64]) b h (ix2 0 q)]
  exact congrArg (fun z => A (ix2 r q) + b z) (funext fun a => by match a with | ⟨0, _⟩ => rfl)

end Cert.Gcn

end
-- ==== Proof.Region8.lean ====
/-
  Projection region 8: grid point `t` multiplies rows `5000 t … 5000 t + 4999` of its input by the whole weight
  matrix, contracting the second axis of both, and writes the same rows of its output. Entry `(p, q)` of the block is
  `∑ k, x[5000 t + p, k] * W[q, k]`, which is the specification's projection at row `5000 t + p`; the ten row blocks
  tile the output, so after the region the output array is the projection of the input array, whole.
-/
import proofs.«106422_j64647847740121_1_alg».proof.Proof.Gen.KernelIdeal.Frame
import proofs.«106422_j64647847740121_1_alg».proof.Proof.KernelBody
import proofs.«106422_j64647847740121_1_alg».proof.Proof.SpecAt

set_option maxRecDepth 16384

noncomputable section

namespace Cert.Gcn.Region8

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: point `t` takes row block `t` of the input and of the output, and the whole of the
    second operand. -/
theorem idx_facts : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- What point `t` writes back is block `t` of the projection of the arrays the region finds. -/
theorem flushed_eq (c : Dev nD) (t : Fin cfg8.N) :
    (dat8 (F := Ideal) V c).flushed 2 t = ((cfg8.win 2).blk t).view.read (Elt Ideal) (linear64 (F := Ideal) (V c main_v95) (V c main_arg10)) := by
  show (cfg8.win 2).cut (grid8.coords t) ((dat8 (F := Ideal) V c).after 2 t) = _
  rw [after8_2]
  unfold out8_2
  rw [View.canon_unit_zero hz]
  simp only [View.ld_unit_zero (S := S5000x128) hz, View.ld_unit_zero (S := S64x128) hz]
  obtain ⟨e0, e1, e2, e3, e4, e5⟩ := idx_facts t
  have ht : t.val < 10 := lt_of_lt_of_eq t.isLt N_8
  funext j
  obtain ⟨p, q, rfl⟩ : ∃ (p : Fin 5000) (q : Fin 64), j = ix2 p q := ⟨j 0, j 1, eq_ix2 j⟩
  have hp : p.val < 5000 := p.isLt
  show k8_pay1 (iblk8 V c 0 t) (iblk8 V c 1 t) (ix2 p q) = (linear64 (F := Ideal) (V c main_v95) (V c main_arg10)) (((cfg8.win 2).blk t).view.emb (ix2 p q))
  refine (Body.pay_linear8 (iblk8 V c 0 t) (iblk8 V c 1 t) p q).trans ?_
  have hE : ((cfg8.win 2).blk t).view.emb (ix2 p q) = ix2 (⟨t.val * 5000 + p.val, by omega⟩ : Fin 50000) q := by
    funext a; apply Fin.ext
    match a with
    | ⟨0, _⟩ => show win8_2.index t (0 : Fin 2) * 5000 + 1 * p.val = t.val * 5000 + p.val; omega
    | ⟨1, _⟩ => show win8_2.index t (1 : Fin 2) * 64 + 1 * q.val = q.val; omega
  rw [hE, linear64_apply]
  refine Finset.sum_congr rfl fun k _ => ?_
  have h0 : iblk8 V c 0 t (ix2 p k) = V c main_v95 (ix2 (⟨t.val * 5000 + p.val, by omega⟩ : Fin 50000) k) := by
    show V c main_v95 (((cfg8.win 0).blk t).view.emb (ix2 p k)) = _
    refine congrArg (V c main_v95) ?_
    funext a; apply Fin.ext
    match a with
    | ⟨0, _⟩ => show win8_0.index t (0 : Fin 2) * 5000 + 1 * p.val = t.val * 5000 + p.val; omega
    | ⟨1, _⟩ => show win8_0.index t (1 : Fin 2) * 128 + 1 * k.val = k.val; omega
  have h1 : iblk8 V c 1 t (ix2 q k) = V c main_arg10 (ix2 q k) := by
    show V c main_arg10 (((cfg8.win 1).blk t).view.emb (ix2 q k)) = _
    refine congrArg (V c main_arg10) ?_
    funext a; apply Fin.ext
    match a with
    | ⟨0, _⟩ => show win8_1.index t (0 : Fin 2) * 64 + 1 * q.val = q.val; omega
    | ⟨1, _⟩ => show win8_1.index t (1 : Fin 2) * 128 + 1 * k.val = k.val; omega
  rw [h0, h1]

/-- An index of the output array is in point `t`'s block iff each coordinate is in the block's range on its axis. -/
theorem mem_blk (t : Fin cfg8.N) (i : S50000x64.Idx) :
    i ∈ ((cfg8.win 2).blk t).view.set ↔ ∀ a : Fin 2, win8_2.index t a * S5000x64.size a ≤ (i a).val ∧ (i a).val < win8_2.index t a * S5000x64.size a + S5000x64.size a := by
  show i ∈ ((View.whole main_v96).slice (win8_2.rect t)).set ↔ _
  rw [View.set_slice_whole, Rect.mem_set_unit]
  exact Iff.rfl

/-- Row `r` of the output lies in the block of point `r / 5000`: the ten row blocks tile the array. -/
theorem cover (i : S50000x64.Idx) : ∃ t : Fin cfg8.N, (cfg8.win 2).flush t = true ∧ i ∈ ((cfg8.win 2).blk t).view.set := by
  have hi0 : (i 0).val < 50000 := (i 0).isLt
  have hi1 : (i 1).val < 64 := (i 1).isLt
  have hN : (i 0).val / 5000 < cfg8.N := lt_of_lt_of_eq (by omega : (i 0).val / 5000 < 10) N_8.symm
  obtain ⟨-, -, -, -, e4, e5⟩ := idx_facts ⟨(i 0).val / 5000, hN⟩
  refine ⟨⟨(i 0).val / 5000, hN⟩, flush8_2 _, ?_⟩
  rw [mem_blk]
  intro a
  match a with
  | ⟨0, _⟩ =>
    show win8_2.index ⟨(i 0).val / 5000, hN⟩ (0 : Fin 2) * 5000 ≤ (i 0).val ∧ (i 0).val < win8_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win8_2.index ⟨(i 0).val / 5000, hN⟩ (1 : Fin 2) * 64 ≤ (i 1).val ∧ (i 1).val < win8_2.index ⟨(i 0).val / 5000, hN⟩ (1 : Fin 2) * 64 + 64
    rw [e5]; omega

/-- The output array after the region, whole. -/
theorem final (c : Dev nD) : (dat8 (F := Ideal) V c).arrAt 2 cfg8.N = linear64 (F := Ideal) (V c main_v95) (V c main_arg10) :=
  (dat8 (F := Ideal) V c).arrAt_eq_of_cover 2 _ (fun t _ => flushed_eq V c t) cover

end Cert.Gcn.Region8

end
-- ==== Proof.Region9.lean ====
/-
  Bias region 9: grid point `t` takes rows `5000 t … 5000 t + 4999` of its input and the bias as one row, adds the row
  to every row of the block, and writes the same rows of its output. Entry `(p, q)` of the block is
  `a[5000 t + p, q] + b[0, q]`; the ten row blocks tile the output, so after the region the output array is that function
  of the input array and the row, whole.
-/
import proofs.«106422_j64647847740121_1_alg».proof.Proof.Gen.KernelIdeal.Frame
import proofs.«106422_j64647847740121_1_alg».proof.Proof.KernelBody
import proofs.«106422_j64647847740121_1_alg».proof.Proof.SpecAt

set_option maxRecDepth 16384

noncomputable section

namespace Cert.Gcn.Region9

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: point `t` takes row block `t` of the input and of the output, and the whole of the
    second operand. -/
theorem idx_facts : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

/-- What point `t` writes back is block `t` of the input plus the row. -/
theorem flushed_eq (c : Dev nD) (t : Fin cfg9.N) :
    (dat9 (F := Ideal) V c).flushed 2 t = ((cfg9.win 2).blk t).view.read (Elt Ideal) (addRow64 (V c main_v109) (V c main_v110)) := by
  show (cfg9.win 2).cut (grid9.coords t) ((dat9 (F := Ideal) V c).after 2 t) = _
  rw [after9_2]
  unfold out9_2
  rw [View.canon_unit_zero hz]
  simp only [View.ld_unit_zero (S := S5000x64) hz, View.ld_unit_zero (S := S1x64) hz]
  obtain ⟨e0, e1, e2, e3, e4, e5⟩ := idx_facts t
  have ht : t.val < 10 := lt_of_lt_of_eq t.isLt N_9
  funext j
  obtain ⟨p, q, rfl⟩ : ∃ (p : Fin 5000) (q : Fin 64), j = ix2 p q := ⟨j 0, j 1, eq_ix2 j⟩
  have hp : p.val < 5000 := p.isLt
  show k9_pay1 (iblk9 V c 0 t) (iblk9 V c 1 t) (ix2 p q) = (addRow64 (V c main_v109) (V c main_v110)) (((cfg9.win 2).blk t).view.emb (ix2 p q))
  refine (Body.pay_bias9 (iblk9 V c 0 t) (iblk9 V c 1 t) p q).trans ?_
  have hE : ((cfg9.win 2).blk t).view.emb (ix2 p q) = ix2 (⟨t.val * 5000 + p.val, by omega⟩ : Fin 50000) q := by
    funext a; apply Fin.ext
    match a with
    | ⟨0, _⟩ => show win9_2.index t (0 : Fin 2) * 5000 + 1 * p.val = t.val * 5000 + p.val; omega
    | ⟨1, _⟩ => show win9_2.index t (1 : Fin 2) * 64 + 1 * q.val = q.val; omega
  rw [hE]
  have h0 : iblk9 V c 0 t (ix2 p q) = V c main_v109 (ix2 (⟨t.val * 5000 + p.val, by omega⟩ : Fin 50000) q) := by
    show V c main_v109 (((cfg9.win 0).blk t).view.emb (ix2 p q)) = _
    refine congrArg (V c main_v109) ?_
    funext a; apply Fin.ext
    match a with
    | ⟨0, _⟩ => show win9_0.index t (0 : Fin 2) * 5000 + 1 * p.val = t.val * 5000 + p.val; omega
    | ⟨1, _⟩ => show win9_0.index t (1 : Fin 2) * 64 + 1 * q.val = q.val; omega
  have h1 : iblk9 V c 1 t (ix2 0 q) = V c main_v110 (ix2 0 q) := by
    show V c main_v110 (((cfg9.win 1).blk t).view.emb (ix2 0 q)) = _
    refine congrArg (V c main_v110) ?_
    funext a; apply Fin.ext
    match a with
    | ⟨0, _⟩ => show win9_1.index t (0 : Fin 2) * 1 + 1 * 0 = 0; omega
    | ⟨1, _⟩ => show win9_1.index t (1 : Fin 2) * 64 + 1 * q.val = q.val; omega
  rw [h0, h1]
  rfl

/-- An index of the output array is in point `t`'s block iff each coordinate is in the block's range on its axis. -/
theorem mem_blk (t : Fin cfg9.N) (i : S50000x64.Idx) :
    i ∈ ((cfg9.win 2).blk t).view.set ↔ ∀ a : Fin 2, win9_2.index t a * S5000x64.size a ≤ (i a).val ∧ (i a).val < win9_2.index t a * S5000x64.size a + S5000x64.size a := by
  show i ∈ ((View.whole main_v111).slice (win9_2.rect t)).set ↔ _
  rw [View.set_slice_whole, Rect.mem_set_unit]
  exact Iff.rfl

/-- Row `r` of the output lies in the block of point `r / 5000`: the ten row blocks tile the array. -/
theorem cover (i : S50000x64.Idx) : ∃ t : Fin cfg9.N, (cfg9.win 2).flush t = true ∧ i ∈ ((cfg9.win 2).blk t).view.set := by
  have hi0 : (i 0).val < 50000 := (i 0).isLt
  have hi1 : (i 1).val < 64 := (i 1).isLt
  have hN : (i 0).val / 5000 < cfg9.N := lt_of_lt_of_eq (by omega : (i 0).val / 5000 < 10) N_9.symm
  obtain ⟨-, -, -, -, e4, e5⟩ := idx_facts ⟨(i 0).val / 5000, hN⟩
  refine ⟨⟨(i 0).val / 5000, hN⟩, flush9_2 _, ?_⟩
  rw [mem_blk]
  intro a
  match a with
  | ⟨0, _⟩ =>
    show win9_2.index ⟨(i 0).val / 5000, hN⟩ (0 : Fin 2) * 5000 ≤ (i 0).val ∧ (i 0).val < win9_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win9_2.index ⟨(i 0).val / 5000, hN⟩ (1 : Fin 2) * 64 ≤ (i 1).val ∧ (i 1).val < win9_2.index ⟨(i 0).val / 5000, hN⟩ (1 : Fin 2) * 64 + 64
    rw [e5]; omega

/-- The output array after the region, whole. -/
theorem final (c : Dev nD) : (dat9 (F := Ideal) V c).arrAt 2 cfg9.N = addRow64 (V c main_v109) (V c main_v110) :=
  (dat9 (F := Ideal) V c).arrAt_eq_of_cover 2 _ (fun t _ => flushed_eq V c t) cover

end Cert.Gcn.Region9

end
-- ==== Proof.KeptGraph.lean ====
/-
  The graph's buffers — the two endpoint lists and the edge weights, computed once before the first region — are
  written by no later host operation and are no region's array: at every later boundary of the program they hold what
  they held when the first region was entered.
-/
import proofs.«106422_j64647847740121_1_alg».proof.Proof.Gen.KernelIdeal.Frame

set_option maxRecDepth 16384

noncomputable section

namespace Cert.Gcn.KeptGraph

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- No operation of a stretch of host operations writes the buffer at hand: each operation's one result buffer is another
    reference. -/
local macro "host_kept " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

theorem src_4 (c : Dev nD) : W4 m ρ c (Proc.devRef .tc main_v3) = W3 m ρ c (Proc.devRef .tc main_v3) :=
  (W4_of_ne m ρ c main_v3 (by decide))

theorem src_7 (c : Dev nD) : W7 m ρ c (Proc.devRef .tc main_v3) = W3 m ρ c (Proc.devRef .tc main_v3) :=
  ((W7_of_ne m ρ c main_v3 (by decide)).trans
    ((W6_of_ne m ρ c main_v3 (by decide)).trans
    ((show W5 m ρ c (Proc.devRef .tc main_v3) = W4 m ρ c (Proc.devRef .tc main_v3) from by host_kept hostOps1)))).trans (src_4 m ρ c)

theorem src_10 (c : Dev nD) : W10 m ρ c (Proc.devRef .tc main_v3) = W3 m ρ c (Proc.devRef .tc main_v3) :=
  ((W10_of_ne m ρ c main_v3 (by decide)).trans
    ((W9_of_ne m ρ c main_v3 (by decide)).trans
    ((show W8 m ρ c (Proc.devRef .tc main_v3) = W7 m ρ c (Proc.devRef .tc main_v3) from by host_kept hostOps3)))).trans (src_7 m ρ c)

theorem src_13 (c : Dev nD) : W13 m ρ c (Proc.devRef .tc main_v3) = W3 m ρ c (Proc.devRef .tc main_v3) :=
  ((W13_of_ne m ρ c main_v3 (by decide)).trans
    ((W12_of_ne m ρ c main_v3 (by decide)).trans
    ((show W11 m ρ c (Proc.devRef .tc main_v3) = W10 m ρ c (Proc.devRef .tc main_v3) from by host_kept hostOps5)))).trans (src_10 m ρ c)

theorem src_16 (c : Dev nD) : W16 m ρ c (Proc.devRef .tc main_v3) = W3 m ρ c (Proc.devRef .tc main_v3) :=
  ((W16_of_ne m ρ c main_v3 (by decide)).trans
    ((W15_of_ne m ρ c main_v3 (by decide)).trans
    ((show W14 m ρ c (Proc.devRef .tc main_v3) = W13 m ρ c (Proc.devRef .tc main_v3) from by host_kept hostOps7)))).trans (src_13 m ρ c)

theorem dst_4 (c : Dev nD) : W4 m ρ c (Proc.devRef .tc main_v6) = W3 m ρ c (Proc.devRef .tc main_v6) :=
  (W4_of_ne m ρ c main_v6 (by decide))

theorem dst_7 (c : Dev nD) : W7 m ρ c (Proc.devRef .tc main_v6) = W3 m ρ c (Proc.devRef .tc main_v6) :=
  ((W7_of_ne m ρ c main_v6 (by decide)).trans
    ((W6_of_ne m ρ c main_v6 (by decide)).trans
    ((show W5 m ρ c (Proc.devRef .tc main_v6) = W4 m ρ c (Proc.devRef .tc main_v6) from by host_kept hostOps1)))).trans (dst_4 m ρ c)

theorem dst_10 (c : Dev nD) : W10 m ρ c (Proc.devRef .tc main_v6) = W3 m ρ c (Proc.devRef .tc main_v6) :=
  ((W10_of_ne m ρ c main_v6 (by decide)).trans
    ((W9_of_ne m ρ c main_v6 (by decide)).trans
    ((show W8 m ρ c (Proc.devRef .tc main_v6) = W7 m ρ c (Proc.devRef .tc main_v6) from by host_kept hostOps3)))).trans (dst_7 m ρ c)

theorem dst_13 (c : Dev nD) : W13 m ρ c (Proc.devRef .tc main_v6) = W3 m ρ c (Proc.devRef .tc main_v6) :=
  ((W13_of_ne m ρ c main_v6 (by decide)).trans
    ((W12_of_ne m ρ c main_v6 (by decide)).trans
    ((show W11 m ρ c (Proc.devRef .tc main_v6) = W10 m ρ c (Proc.devRef .tc main_v6) from by host_kept hostOps5)))).trans (dst_10 m ρ c)

theorem dst_16 (c : Dev nD) : W16 m ρ c (Proc.devRef .tc main_v6) = W3 m ρ c (Proc.devRef .tc main_v6) :=
  ((W16_of_ne m ρ c main_v6 (by decide)).trans
    ((W15_of_ne m ρ c main_v6 (by decide)).trans
    ((show W14 m ρ c (Proc.devRef .tc main_v6) = W13 m ρ c (Proc.devRef .tc main_v6) from by host_kept hostOps7)))).trans (dst_13 m ρ c)

theorem weight_4 (c : Dev nD) : W4 m ρ c (Proc.devRef .tc main_v31) = W3 m ρ c (Proc.devRef .tc main_v31) :=
  (W4_of_ne m ρ c main_v31 (by decide))

theorem weight_7 (c : Dev nD) : W7 m ρ c (Proc.devRef .tc main_v31) = W3 m ρ c (Proc.devRef .tc main_v31) :=
  ((W7_of_ne m ρ c main_v31 (by decide)).trans
    ((W6_of_ne m ρ c main_v31 (by decide)).trans
    ((show W5 m ρ c (Proc.devRef .tc main_v31) = W4 m ρ c (Proc.devRef .tc main_v31) from by host_kept hostOps1)))).trans (weight_4 m ρ c)

theorem weight_10 (c : Dev nD) : W10 m ρ c (Proc.devRef .tc main_v31) = W3 m ρ c (Proc.devRef .tc main_v31) :=
  ((W10_of_ne m ρ c main_v31 (by decide)).trans
    ((W9_of_ne m ρ c main_v31 (by decide)).trans
    ((show W8 m ρ c (Proc.devRef .tc main_v31) = W7 m ρ c (Proc.devRef .tc main_v31) from by host_kept hostOps3)))).trans (weight_7 m ρ c)

theorem weight_13 (c : Dev nD) : W13 m ρ c (Proc.devRef .tc main_v31) = W3 m ρ c (Proc.devRef .tc main_v31) :=
  ((W13_of_ne m ρ c main_v31 (by decide)).trans
    ((W12_of_ne m ρ c main_v31 (by decide)).trans
    ((show W11 m ρ c (Proc.devRef .tc main_v31) = W10 m ρ c (Proc.devRef .tc main_v31) from by host_kept hostOps5)))).trans (weight_10 m ρ c)

theorem weight_16 (c : Dev nD) : W16 m ρ c (Proc.devRef .tc main_v31) = W3 m ρ c (Proc.devRef .tc main_v31) :=
  ((W16_of_ne m ρ c main_v31 (by decide)).trans
    ((W15_of_ne m ρ c main_v31 (by decide)).trans
    ((show W14 m ρ c (Proc.devRef .tc main_v31) = W13 m ρ c (Proc.devRef .tc main_v31) from by host_kept hostOps7)))).trans (weight_13 m ρ c)

end Cert.Gcn.KeptGraph

end
-- ==== Proof.KeptArgs.lean ====
/-
  No host operation and no region writes an argument array (a region reads one through an input window, whose array
  the pipeline leaves as it found it): where an argument is consumed it still holds its launch contents.
-/
import proofs.«106422_j64647847740121_1_alg».proof.Proof.Gen.KernelIdeal.Frame

set_option maxRecDepth 16384

noncomputable section

namespace Cert.Gcn.KeptArgs

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- No operation of a stretch of host operations writes the buffer at hand: each operation's one result buffer is another
    reference. -/
local macro "host_kept " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

theorem arg0_3 (c : Dev nD) : W3 m ρ c (Proc.devRef .tc main_arg0) = m ((c : Thread nD τ).loc main_arg0) :=
  ((show W3 m ρ c (Proc.devRef .tc main_arg0) = W2 m ρ c (Proc.devRef .tc main_arg0) from by host_kept hostOps0_2).trans
    ((show W2 m ρ c (Proc.devRef .tc main_arg0) = W1 m ρ c (Proc.devRef .tc main_arg0) from by host_kept hostOps0_1).trans
    ((show W1 m ρ c (Proc.devRef .tc main_arg0) = W0 m ρ c (Proc.devRef .tc main_arg0) from by host_kept hostOps0)))).trans rfl

theorem arg2_3 (c : Dev nD) : W3 m ρ c (Proc.devRef .tc main_arg2) = m ((c : Thread nD τ).loc main_arg2) :=
  ((show W3 m ρ c (Proc.devRef .tc main_arg2) = W2 m ρ c (Proc.devRef .tc main_arg2) from by host_kept hostOps0_2).trans
    ((show W2 m ρ c (Proc.devRef .tc main_arg2) = W1 m ρ c (Proc.devRef .tc main_arg2) from by host_kept hostOps0_1).trans
    ((show W1 m ρ c (Proc.devRef .tc main_arg2) = W0 m ρ c (Proc.devRef .tc main_arg2) from by host_kept hostOps0)))).trans rfl

theorem arg3_4 (c : Dev nD) : W4 m ρ c (Proc.devRef .tc main_arg3) = m ((c : Thread nD τ).loc main_arg3) :=
  ((W4_of_ne m ρ c main_arg3 (by decide)).trans
    ((show W3 m ρ c (Proc.devRef .tc main_arg3) = W2 m ρ c (Proc.devRef .tc main_arg3) from by host_kept hostOps0_2).trans
    ((show W2 m ρ c (Proc.devRef .tc main_arg3) = W1 m ρ c (Proc.devRef .tc main_arg3) from by host_kept hostOps0_1).trans
    ((show W1 m ρ c (Proc.devRef .tc main_arg3) = W0 m ρ c (Proc.devRef .tc main_arg3) from by host_kept hostOps0))))).trans rfl

theorem arg4_6 (c : Dev nD) : W6 m ρ c (Proc.devRef .tc main_arg4) = m ((c : Thread nD τ).loc main_arg4) :=
  ((W6_of_ne m ρ c main_arg4 (by decide)).trans
    ((show W5 m ρ c (Proc.devRef .tc main_arg4) = W4 m ρ c (Proc.devRef .tc main_arg4) from by host_kept hostOps1).trans
    ((W4_of_ne m ρ c main_arg4 (by decide)).trans
    ((show W3 m ρ c (Proc.devRef .tc main_arg4) = W2 m ρ c (Proc.devRef .tc main_arg4) from by host_kept hostOps0_2).trans
    ((show W2 m ρ c (Proc.devRef .tc main_arg4) = W1 m ρ c (Proc.devRef .tc main_arg4) from by host_kept hostOps0_1).trans
    ((show W1 m ρ c (Proc.devRef .tc main_arg4) = W0 m ρ c (Proc.devRef .tc main_arg4) from by host_kept hostOps0))))))).trans rfl

theorem arg5_7 (c : Dev nD) : W7 m ρ c (Proc.devRef .tc main_arg5) = m ((c : Thread nD τ).loc main_arg5) :=
  ((W7_of_ne m ρ c main_arg5 (by decide)).trans
    ((W6_of_ne m ρ c main_arg5 (by decide)).trans
    ((show W5 m ρ c (Proc.devRef .tc main_arg5) = W4 m ρ c (Proc.devRef .tc main_arg5) from by host_kept hostOps1).trans
    ((W4_of_ne m ρ c main_arg5 (by decide)).trans
    ((show W3 m ρ c (Proc.devRef .tc main_arg5) = W2 m ρ c (Proc.devRef .tc main_arg5) from by host_kept hostOps0_2).trans
    ((show W2 m ρ c (Proc.devRef .tc main_arg5) = W1 m ρ c (Proc.devRef .tc main_arg5) from by host_kept hostOps0_1).trans
    ((show W1 m ρ c (Proc.devRef .tc main_arg5) = W0 m ρ c (Proc.devRef .tc main_arg5) from by host_kept hostOps0)))))))).trans rfl

theorem arg6_9 (c : Dev nD) : W9 m ρ c (Proc.devRef .tc main_arg6) = m ((c : Thread nD τ).loc main_arg6) :=
  ((W9_of_ne m ρ c main_arg6 (by decide)).trans
    ((show W8 m ρ c (Proc.devRef .tc main_arg6) = W7 m ρ c (Proc.devRef .tc main_arg6) from by host_kept hostOps3).trans
    ((W7_of_ne m ρ c main_arg6 (by decide)).trans
    ((W6_of_ne m ρ c main_arg6 (by decide)).trans
    ((show W5 m ρ c (Proc.devRef .tc main_arg6) = W4 m ρ c (Proc.devRef .tc main_arg6) from by host_kept hostOps1).trans
    ((W4_of_ne m ρ c main_arg6 (by decide)).trans
    ((show W3 m ρ c (Proc.devRef .tc main_arg6) = W2 m ρ c (Proc.devRef .tc main_arg6) from by host_kept hostOps0_2).trans
    ((show W2 m ρ c (Proc.devRef .tc main_arg6) = W1 m ρ c (Proc.devRef .tc main_arg6) from by host_kept hostOps0_1).trans
    ((show W1 m ρ c (Proc.devRef .tc main_arg6) = W0 m ρ c (Proc.devRef .tc main_arg6) from by host_kept hostOps0)))))))))).trans rfl

theorem arg7_10 (c : Dev nD) : W10 m ρ c (Proc.devRef .tc main_arg7) = m ((c : Thread nD τ).loc main_arg7) :=
  ((W10_of_ne m ρ c main_arg7 (by decide)).trans
    ((W9_of_ne m ρ c main_arg7 (by decide)).trans
    ((show W8 m ρ c (Proc.devRef .tc main_arg7) = W7 m ρ c (Proc.devRef .tc main_arg7) from by host_kept hostOps3).trans
    ((W7_of_ne m ρ c main_arg7 (by decide)).trans
    ((W6_of_ne m ρ c main_arg7 (by decide)).trans
    ((show W5 m ρ c (Proc.devRef .tc main_arg7) = W4 m ρ c (Proc.devRef .tc main_arg7) from by host_kept hostOps1).trans
    ((W4_of_ne m ρ c main_arg7 (by decide)).trans
    ((show W3 m ρ c (Proc.devRef .tc main_arg7) = W2 m ρ c (Proc.devRef .tc main_arg7) from by host_kept hostOps0_2).trans
    ((show W2 m ρ c (Proc.devRef .tc main_arg7) = W1 m ρ c (Proc.devRef .tc main_arg7) from by host_kept hostOps0_1).trans
    ((show W1 m ρ c (Proc.devRef .tc main_arg7) = W0 m ρ c (Proc.devRef .tc main_arg7) from by host_kept hostOps0))))))))))).trans rfl

theorem arg8_12 (c : Dev nD) : W12 m ρ c (Proc.devRef .tc main_arg8) = m ((c : Thread nD τ).loc main_arg8) :=
  ((W12_of_ne m ρ c main_arg8 (by decide)).trans
    ((show W11 m ρ c (Proc.devRef .tc main_arg8) = W10 m ρ c (Proc.devRef .tc main_arg8) from by host_kept hostOps5).trans
    ((W10_of_ne m ρ c main_arg8 (by decide)).trans
    ((W9_of_ne m ρ c main_arg8 (by decide)).trans
    ((show W8 m ρ c (Proc.devRef .tc main_arg8) = W7 m ρ c (Proc.devRef .tc main_arg8) from by host_kept hostOps3).trans
    ((W7_of_ne m ρ c main_arg8 (by decide)).trans
    ((W6_of_ne m ρ c main_arg8 (by decide)).trans
    ((show W5 m ρ c (Proc.devRef .tc main_arg8) = W4 m ρ c (Proc.devRef .tc main_arg8) from by host_kept hostOps1).trans
    ((W4_of_ne m ρ c main_arg8 (by decide)).trans
    ((show W3 m ρ c (Proc.devRef .tc main_arg8) = W2 m ρ c (Proc.devRef .tc main_arg8) from by host_kept hostOps0_2).trans
    ((show W2 m ρ c (Proc.devRef .tc main_arg8) = W1 m ρ c (Proc.devRef .tc main_arg8) from by host_kept hostOps0_1).trans
    ((show W1 m ρ c (Proc.devRef .tc main_arg8) = W0 m ρ c (Proc.devRef .tc main_arg8) from by host_kept hostOps0))))))))))))).trans rfl

theorem arg9_13 (c : Dev nD) : W13 m ρ c (Proc.devRef .tc main_arg9) = m ((c : Thread nD τ).loc main_arg9) :=
  ((W13_of_ne m ρ c main_arg9 (by decide)).trans
    ((W12_of_ne m ρ c main_arg9 (by decide)).trans
    ((show W11 m ρ c (Proc.devRef .tc main_arg9) = W10 m ρ c (Proc.devRef .tc main_arg9) from by host_kept hostOps5).trans
    ((W10_of_ne m ρ c main_arg9 (by decide)).trans
    ((W9_of_ne m ρ c main_arg9 (by decide)).trans
    ((show W8 m ρ c (Proc.devRef .tc main_arg9) = W7 m ρ c (Proc.devRef .tc main_arg9) from by host_kept hostOps3).trans
    ((W7_of_ne m ρ c main_arg9 (by decide)).trans
    ((W6_of_ne m ρ c main_arg9 (by decide)).trans
    ((show W5 m ρ c (Proc.devRef .tc main_arg9) = W4 m ρ c (Proc.devRef .tc main_arg9) from by host_kept hostOps1).trans
    ((W4_of_ne m ρ c main_arg9 (by decide)).trans
    ((show W3 m ρ c (Proc.devRef .tc main_arg9) = W2 m ρ c (Proc.devRef .tc main_arg9) from by host_kept hostOps0_2).trans
    ((show W2 m ρ c (Proc.devRef .tc main_arg9) = W1 m ρ c (Proc.devRef .tc main_arg9) from by host_kept hostOps0_1).trans
    ((show W1 m ρ c (Proc.devRef .tc main_arg9) = W0 m ρ c (Proc.devRef .tc main_arg9) from by host_kept hostOps0)))))))))))))).trans rfl

theorem arg10_15 (c : Dev nD) : W15 m ρ c (Proc.devRef .tc main_arg10) = m ((c : Thread nD τ).loc main_arg10) :=
  ((W15_of_ne m ρ c main_arg10 (by decide)).trans
    ((show W14 m ρ c (Proc.devRef .tc main_arg10) = W13 m ρ c (Proc.devRef .tc main_arg10) from by host_kept hostOps7).trans
    ((W13_of_ne m ρ c main_arg10 (by decide)).trans
    ((W12_of_ne m ρ c main_arg10 (by decide)).trans
    ((show W11 m ρ c (Proc.devRef .tc main_arg10) = W10 m ρ c (Proc.devRef .tc main_arg10) from by host_kept hostOps5).trans
    ((W10_of_ne m ρ c main_arg10 (by decide)).trans
    ((W9_of_ne m ρ c main_arg10 (by decide)).trans
    ((show W8 m ρ c (Proc.devRef .tc main_arg10) = W7 m ρ c (Proc.devRef .tc main_arg10) from by host_kept hostOps3).trans
    ((W7_of_ne m ρ c main_arg10 (by decide)).trans
    ((W6_of_ne m ρ c main_arg10 (by decide)).trans
    ((show W5 m ρ c (Proc.devRef .tc main_arg10) = W4 m ρ c (Proc.devRef .tc main_arg10) from by host_kept hostOps1).trans
    ((W4_of_ne m ρ c main_arg10 (by decide)).trans
    ((show W3 m ρ c (Proc.devRef .tc main_arg10) = W2 m ρ c (Proc.devRef .tc main_arg10) from by host_kept hostOps0_2).trans
    ((show W2 m ρ c (Proc.devRef .tc main_arg10) = W1 m ρ c (Proc.devRef .tc main_arg10) from by host_kept hostOps0_1).trans
    ((show W1 m ρ c (Proc.devRef .tc main_arg10) = W0 m ρ c (Proc.devRef .tc main_arg10) from by host_kept hostOps0)))))))))))))))).trans rfl

theorem arg11_16 (c : Dev nD) : W16 m ρ c (Proc.devRef .tc main_arg11) = m ((c : Thread nD τ).loc main_arg11) :=
  ((W16_of_ne m ρ c main_arg11 (by decide)).trans
    ((W15_of_ne m ρ c main_arg11 (by decide)).trans
    ((show W14 m ρ c (Proc.devRef .tc main_arg11) = W13 m ρ c (Proc.devRef .tc main_arg11) from by host_kept hostOps7).trans
    ((W13_of_ne m ρ c main_arg11 (by decide)).trans
    ((W12_of_ne m ρ c main_arg11 (by decide)).trans
    ((show W11 m ρ c (Proc.devRef .tc main_arg11) = W10 m ρ c (Proc.devRef .tc main_arg11) from by host_kept hostOps5).trans
    ((W10_of_ne m ρ c main_arg11 (by decide)).trans
    ((W9_of_ne m ρ c main_arg11 (by decide)).trans
    ((show W8 m ρ c (Proc.devRef .tc main_arg11) = W7 m ρ c (Proc.devRef .tc main_arg11) from by host_kept hostOps3).trans
    ((W7_of_ne m ρ c main_arg11 (by decide)).trans
    ((W6_of_ne m ρ c main_arg11 (by decide)).trans
    ((show W5 m ρ c (Proc.devRef .tc main_arg11) = W4 m ρ c (Proc.devRef .tc main_arg11) from by host_kept hostOps1).trans
    ((W4_of_ne m ρ c main_arg11 (by decide)).trans
    ((show W3 m ρ c (Proc.devRef .tc main_arg11) = W2 m ρ c (Proc.devRef .tc main_arg11) from by host_kept hostOps0_2).trans
    ((show W2 m ρ c (Proc.devRef .tc main_arg11) = W1 m ρ c (Proc.devRef .tc main_arg11) from by host_kept hostOps0_1).trans
    ((show W1 m ρ c (Proc.devRef .tc main_arg11) = W0 m ρ c (Proc.devRef .tc main_arg11) from by host_kept hostOps0))))))))))))))))).trans rfl

end Cert.Gcn.KeptArgs

end
-- ==== Proof.GraphStage.lean ====
/-
  On entering the first region the three graph buffers hold the specification's functions of the edge list: the
  source endpoints, the destination endpoints (each followed by the self loops), and the edge weights. The host
  operations before the region are the specification's operations in the same order, applied to the edge list as
  launched.
-/
import proofs.«106422_j64647847740121_1_alg».proof.Proof.Gen.KernelIdeal.Frame
import proofs.«106422_j64647847740121_1_alg».proof.Proof.Spec
import Idealize.ShloMosaic.Lib.StableHlo.Run

set_option maxRecDepth 16384

noncomputable section

namespace Cert.Gcn.Graph

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

theorem src_eq (c : Dev nD) :
    W3 m ρ c (Proc.devRef .tc main_v3) = Cert.Gcn.endpoints0 (F := F) (m ((c : Thread nD τ).loc main_arg1)) := by
  dsimp only [W3, W2, W1, hostOps0, hostOps0_1, hostOps0_2]
  after_results_simp
  rfl

theorem dst_eq (c : Dev nD) :
    W3 m ρ c (Proc.devRef .tc main_v6) = Cert.Gcn.endpoints1 (F := F) (m ((c : Thread nD τ).loc main_arg1)) := by
  dsimp only [W3, W2, W1, hostOps0, hostOps0_1, hostOps0_2]
  after_results_simp
  rfl

set_option maxHeartbeats 4000000 in
theorem weight_eq (c : Dev nD) :
    W3 m ρ c (Proc.devRef .tc main_v31)
      = Cert.Gcn.edgeWeight (F := F) (Cert.Gcn.endpoints0 (m ((c : Thread nD τ).loc main_arg1))) (Cert.Gcn.endpoints1 (m ((c : Thread nD τ).loc main_arg1))) := by
  dsimp only [W3, W2, W1, hostOps0, hostOps0_1, hostOps0_2]
  after_results_simp
  rfl

end Cert.Gcn.Graph

end
-- ==== Proof.Terms.lean ====
/-
  The specification's intermediate values, named: the graph terms of the launched edge list and the activations after
  each hidden layer, as functions of the launch memory on a core.
-/
import proofs.«106422_j64647847740121_1_alg».proof.Proof.Gen.KernelIdeal.Frame
import proofs.«106422_j64647847740121_1_alg».proof.Proof.Spec

noncomputable section

namespace Cert.Gcn.Kernel

open Idealize.ShloMosaic Idealize.ShloMosaic.TcCoe Idealize.SL.Sem
open Cert.KernelIdeal Cert.KernelIdeal.Gen

variable (m : (ℓ : Loc nD τ sig) → Buf (Elt Ideal) ℓ) (c : Dev nD)

/-- Source endpoints, destination endpoints and edge weights of the launched edge list. -/
def src : (⟨Cert.ReferenceIdeal.S850000, .i32⟩ : BufTy).Contents (Elt Ideal) := Cert.Gcn.endpoints0 (F := Ideal) (m ((c : Thread nD τ).loc main_arg1))
def dst : (⟨Cert.ReferenceIdeal.S850000, .i32⟩ : BufTy).Contents (Elt Ideal) := Cert.Gcn.endpoints1 (F := Ideal) (m ((c : Thread nD τ).loc main_arg1))
def wt : (⟨Cert.ReferenceIdeal.S850000, .f32⟩ : BufTy).Contents (Elt Ideal) := Cert.Gcn.edgeWeight (F := Ideal) (src m c) (dst m c)

/-- The activations after hidden layers 1 to 4. -/
def act1 : (⟨Cert.ReferenceIdeal.S50000x128, .f32⟩ : BufTy).Contents (Elt Ideal) :=
  Cert.Gcn.hiddenLayer (F := Ideal) (m ((c : Thread nD τ).loc main_arg0)) (m ((c : Thread nD τ).loc main_arg2)) (m ((c : Thread nD τ).loc main_arg3)) (src m c) (dst m c) (wt m c)
def act2 : (⟨Cert.ReferenceIdeal.S50000x128, .f32⟩ : BufTy).Contents (Elt Ideal) :=
  Cert.Gcn.hiddenLayer (F := Ideal) (act1 m c) (m ((c : Thread nD τ).loc main_arg4)) (m ((c : Thread nD τ).loc main_arg5)) (src m c) (dst m c) (wt m c)
def act3 : (⟨Cert.ReferenceIdeal.S50000x128, .f32⟩ : BufTy).Contents (Elt Ideal) :=
  Cert.Gcn.hiddenLayer (F := Ideal) (act2 m c) (m ((c : Thread nD τ).loc main_arg6)) (m ((c : Thread nD τ).loc main_arg7)) (src m c) (dst m c) (wt m c)
def act4 : (⟨Cert.ReferenceIdeal.S50000x128, .f32⟩ : BufTy).Contents (Elt Ideal) :=
  Cert.Gcn.hiddenLayer (F := Ideal) (act3 m c) (m ((c : Thread nD τ).loc main_arg8)) (m ((c : Thread nD τ).loc main_arg9)) (src m c) (dst m c) (wt m c)

/-- The output layer over the fourth activation is the network of the launched arguments. -/
theorem network_eq :
    Cert.Gcn.outputLayer (F := Ideal) (act4 m c) (m ((c : Thread nD τ).loc main_arg10)) (m ((c : Thread nD τ).loc main_arg11)) (src m c) (dst m c) (wt m c)
      = Cert.Gcn.network (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := rfl

end Cert.Gcn.Kernel

end
-- ==== Proof.Region6.lean ====
/-
  Projection region 6: grid point `t` multiplies rows `5000 t … 5000 t + 4999` of its input by the whole weight
  matrix, contracting the second axis of both, and writes the same rows of its output. Entry `(p, q)` of the block is
  `∑ k, x[5000 t + p, k] * W[q, k]`, which is the specification's projection at row `5000 t + p`; the ten row blocks
  tile the output, so after the region the output array is the projection of the input array, whole.
-/
import proofs.«106422_j64647847740121_1_alg».proof.Proof.Gen.KernelIdeal.Frame
import proofs.«106422_j64647847740121_1_alg».proof.Proof.KernelBody
import proofs.«106422_j64647847740121_1_alg».proof.Proof.SpecAt

set_option maxRecDepth 16384

noncomputable section

namespace Cert.Gcn.Region6

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: point `t` takes row block `t` of the input and of the output, and the whole of the
    second operand. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point `t` writes back is block `t` of the projection of the arrays the region finds. -/
theorem flushed_eq (c : Dev nD) (t : Fin cfg6.N) :
    (dat6 (F := Ideal) V c).flushed 2 t = ((cfg6.win 2).blk t).view.read (Elt Ideal) (linear128 (F := Ideal) (V c main_v79) (V c main_arg8)) := by
  show (cfg6.win 2).cut (grid6.coords t) ((dat6 (F := Ideal) V c).after 2 t) = _
  rw [after6_2]
  unfold out6_2
  rw [View.canon_unit_zero hz]
  simp only [View.ld_unit_zero (S := S5000x128) hz, View.ld_unit_zero (S := S128x128) hz]
  obtain ⟨e0, e1, e2, e3, e4, e5⟩ := idx_facts t
  have ht : t.val < 10 := lt_of_lt_of_eq t.isLt N_6
  funext j
  obtain ⟨p, q, rfl⟩ : ∃ (p : Fin 5000) (q : Fin 128), j = ix2 p q := ⟨j 0, j 1, eq_ix2 j⟩
  have hp : p.val < 5000 := p.isLt
  show k6_pay1 (iblk6 V c 0 t) (iblk6 V c 1 t) (ix2 p q) = (linear128 (F := Ideal) (V c main_v79) (V c main_arg8)) (((cfg6.win 2).blk t).view.emb (ix2 p q))
  refine (Body.pay_linear6 (iblk6 V c 0 t) (iblk6 V c 1 t) p q).trans ?_
  have hE : ((cfg6.win 2).blk t).view.emb (ix2 p q) = ix2 (⟨t.val * 5000 + p.val, by omega⟩ : Fin 50000) q := by
    funext a; apply Fin.ext
    match a with
    | ⟨0, _⟩ => show win6_2.index t (0 : Fin 2) * 5000 + 1 * p.val = t.val * 5000 + p.val; omega
    | ⟨1, _⟩ => show win6_2.index t (1 : Fin 2) * 128 + 1 * q.val = q.val; omega
  rw [hE, linear128_apply]
  refine Finset.sum_congr rfl fun k _ => ?_
  have h0 : iblk6 V c 0 t (ix2 p k) = V c main_v79 (ix2 (⟨t.val * 5000 + p.val, by omega⟩ : Fin 50000) k) := by
    show V c main_v79 (((cfg6.win 0).blk t).view.emb (ix2 p k)) = _
    refine congrArg (V c main_v79) ?_
    funext a; apply Fin.ext
    match a with
    | ⟨0, _⟩ => show win6_0.index t (0 : Fin 2) * 5000 + 1 * p.val = t.val * 5000 + p.val; omega
    | ⟨1, _⟩ => show win6_0.index t (1 : Fin 2) * 128 + 1 * k.val = k.val; omega
  have h1 : iblk6 V c 1 t (ix2 q k) = V c main_arg8 (ix2 q k) := by
    show V c main_arg8 (((cfg6.win 1).blk t).view.emb (ix2 q k)) = _
    refine congrArg (V c main_arg8) ?_
    funext a; apply Fin.ext
    match a with
    | ⟨0, _⟩ => show win6_1.index t (0 : Fin 2) * 128 + 1 * q.val = q.val; omega
    | ⟨1, _⟩ => show win6_1.index t (1 : Fin 2) * 128 + 1 * k.val = k.val; omega
  rw [h0, h1]

/-- An index of the output array is in point `t`'s block iff each coordinate is in the block's range on its axis. -/
theorem mem_blk (t : Fin cfg6.N) (i : S50000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole main_v80).slice (win6_2.rect t)).set ↔ _
  rw [View.set_slice_whole, Rect.mem_set_unit]
  exact Iff.rfl

/-- Row `r` of the output lies in the block of point `r / 5000`: the ten row blocks tile the array. -/
theorem cover (i : S50000x128.Idx) : ∃ t : Fin cfg6.N, (cfg6.win 2).flush t = true ∧ i ∈ ((cfg6.win 2).blk t).view.set := by
  have hi0 : (i 0).val < 50000 := (i 0).isLt
  have hi1 : (i 1).val < 128 := (i 1).isLt
  have hN : (i 0).val / 5000 < cfg6.N := lt_of_lt_of_eq (by omega : (i 0).val / 5000 < 10) N_6.symm
  obtain ⟨-, -, -, -, e4, e5⟩ := idx_facts ⟨(i 0).val / 5000, hN⟩
  refine ⟨⟨(i 0).val / 5000, hN⟩, flush6_2 _, ?_⟩
  rw [mem_blk]
  intro a
  match a with
  | ⟨0, _⟩ =>
    show win6_2.index ⟨(i 0).val / 5000, hN⟩ (0 : Fin 2) * 5000 ≤ (i 0).val ∧ (i 0).val < win6_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win6_2.index ⟨(i 0).val / 5000, hN⟩ (1 : Fin 2) * 128 ≤ (i 1).val ∧ (i 1).val < win6_2.index ⟨(i 0).val / 5000, hN⟩ (1 : Fin 2) * 128 + 128
    rw [e5]; omega

/-- The output array after the region, whole. -/
theorem final (c : Dev nD) : (dat6 (F := Ideal) V c).arrAt 2 cfg6.N = linear128 (F := Ideal) (V c main_v79) (V c main_arg8) :=
  (dat6 (F := Ideal) V c).arrAt_eq_of_cover 2 _ (fun t _ => flushed_eq V c t) cover

end Cert.Gcn.Region6

end
-- ==== Proof.Region7.lean ====
/-
  Bias region 7: grid point `t` takes rows `5000 t … 5000 t + 4999` of its input and the bias as one row, adds the row
  to every row of the block and clamps below at zero, and writes the same rows of its output. Entry `(p, q)` of the block is
  `max (a[5000 t + p, q] + b[0, q]) 0`; the ten row blocks tile the output, so after the region the output array is that function
  of the input array and the row, whole.
-/
import proofs.«106422_j64647847740121_1_alg».proof.Proof.Gen.KernelIdeal.Frame
import proofs.«106422_j64647847740121_1_alg».proof.Proof.KernelBody
import proofs.«106422_j64647847740121_1_alg».proof.Proof.SpecAt

set_option maxRecDepth 16384

noncomputable section

namespace Cert.Gcn.Region7

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: point `t` takes row block `t` of the input and of the output, and the whole of the
    second operand. -/
theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- What point `t` writes back is block `t` of the input plus the row, clamped. -/
theorem flushed_eq (c : Dev nD) (t : Fin cfg7.N) :
    (dat7 (F := Ideal) V c).flushed 2 t = ((cfg7.win 2).blk t).view.read (Elt Ideal) (addRowClamp128 (V c main_v93) (V c main_v94)) := by
  show (cfg7.win 2).cut (grid7.coords t) ((dat7 (F := Ideal) V c).after 2 t) = _
  rw [after7_2]
  unfold out7_2
  rw [View.canon_unit_zero hz]
  simp only [View.ld_unit_zero (S := S5000x128) hz, View.ld_unit_zero (S := S1x128) hz]
  obtain ⟨e0, e1, e2, e3, e4, e5⟩ := idx_facts t
  have ht : t.val < 10 := lt_of_lt_of_eq t.isLt N_7
  funext j
  obtain ⟨p, q, rfl⟩ : ∃ (p : Fin 5000) (q : Fin 128), j = ix2 p q := ⟨j 0, j 1, eq_ix2 j⟩
  have hp : p.val < 5000 := p.isLt
  show k7_pay1 (iblk7 V c 0 t) (iblk7 V c 1 t) (ix2 p q) = (addRowClamp128 (V c main_v93) (V c main_v94)) (((cfg7.win 2).blk t).view.emb (ix2 p q))
  refine (Body.pay_bias7 (iblk7 V c 0 t) (iblk7 V c 1 t) p q).trans ?_
  have hE : ((cfg7.win 2).blk t).view.emb (ix2 p q) = ix2 (⟨t.val * 5000 + p.val, by omega⟩ : Fin 50000) q := by
    funext a; apply Fin.ext
    match a with
    | ⟨0, _⟩ => show win7_2.index t (0 : Fin 2) * 5000 + 1 * p.val = t.val * 5000 + p.val; omega
    | ⟨1, _⟩ => show win7_2.index t (1 : Fin 2) * 128 + 1 * q.val = q.val; omega
  rw [hE]
  have h0 : iblk7 V c 0 t (ix2 p q) = V c main_v93 (ix2 (⟨t.val * 5000 + p.val, by omega⟩ : Fin 50000) q) := by
    show V c main_v93 (((cfg7.win 0).blk t).view.emb (ix2 p q)) = _
    refine congrArg (V c main_v93) ?_
    funext a; apply Fin.ext
    match a with
    | ⟨0, _⟩ => show win7_0.index t (0 : Fin 2) * 5000 + 1 * p.val = t.val * 5000 + p.val; omega
    | ⟨1, _⟩ => show win7_0.index t (1 : Fin 2) * 128 + 1 * q.val = q.val; omega
  have h1 : iblk7 V c 1 t (ix2 0 q) = V c main_v94 (ix2 0 q) := by
    show V c main_v94 (((cfg7.win 1).blk t).view.emb (ix2 0 q)) = _
    refine congrArg (V c main_v94) ?_
    funext a; apply Fin.ext
    match a with
    | ⟨0, _⟩ => show win7_1.index t (0 : Fin 2) * 1 + 1 * 0 = 0; omega
    | ⟨1, _⟩ => show win7_1.index t (1 : Fin 2) * 128 + 1 * q.val = q.val; omega
  rw [h0, h1]
  rfl

/-- An index of the output array is in point `t`'s block iff each coordinate is in the block's range on its axis. -/
theorem mem_blk (t : Fin cfg7.N) (i : S50000x128.Idx) :
    i ∈ ((cfg7.win 2).blk t).view.set ↔ ∀ a : Fin 2, win7_2.index t a * S5000x128.size a ≤ (i a).val ∧ (i a).val < win7_2.index t a * S5000x128.size a + S5000x128.size a := by
  show i ∈ ((View.whole main_v95).slice (win7_2.rect t)).set ↔ _
  rw [View.set_slice_whole, Rect.mem_set_unit]
  exact Iff.rfl

/-- Row `r` of the output lies in the block of point `r / 5000`: the ten row blocks tile the array. -/
theorem cover (i : S50000x128.Idx) : ∃ t : Fin cfg7.N, (cfg7.win 2).flush t = true ∧ i ∈ ((cfg7.win 2).blk t).view.set := by
  have hi0 : (i 0).val < 50000 := (i 0).isLt
  have hi1 : (i 1).val < 128 := (i 1).isLt
  have hN : (i 0).val / 5000 < cfg7.N := lt_of_lt_of_eq (by omega : (i 0).val / 5000 < 10) N_7.symm
  obtain ⟨-, -, -, -, e4, e5⟩ := idx_facts ⟨(i 0).val / 5000, hN⟩
  refine ⟨⟨(i 0).val / 5000, hN⟩, flush7_2 _, ?_⟩
  rw [mem_blk]
  intro a
  match a with
  | ⟨0, _⟩ =>
    show win7_2.index ⟨(i 0).val / 5000, hN⟩ (0 : Fin 2) * 5000 ≤ (i 0).val ∧ (i 0).val < win7_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win7_2.index ⟨(i 0).val / 5000, hN⟩ (1 : Fin 2) * 128 ≤ (i 1).val ∧ (i 1).val < win7_2.index ⟨(i 0).val / 5000, hN⟩ (1 : Fin 2) * 128 + 128
    rw [e5]; omega

/-- The output array after the region, whole. -/
theorem final (c : Dev nD) : (dat7 (F := Ideal) V c).arrAt 2 cfg7.N = addRowClamp128 (V c main_v93) (V c main_v94) :=
  (dat7 (F := Ideal) V c).arrAt_eq_of_cover 2 _ (fun t _ => flushed_eq V c t) cover

end Cert.Gcn.Region7

end
-- ==== Proof.Region4.lean ====
/-
  Projection region 4: grid point `t` multiplies rows `5000 t … 5000 t + 4999` of its input by the whole weight
  matrix, contracting the second axis of both, and writes the same rows of its output. Entry `(p, q)` of the block is
  `∑ k, x[5000 t + p, k] * W[q, k]`, which is the specification's projection at row `5000 t + p`; the ten row blocks
  tile the output, so after the region the output array is the projection of the input array, whole.
-/
import proofs.«106422_j64647847740121_1_alg».proof.Proof.Gen.KernelIdeal.Frame
import proofs.«106422_j64647847740121_1_alg».proof.Proof.KernelBody
import proofs.«106422_j64647847740121_1_alg».proof.Proof.SpecAt

set_option maxRecDepth 16384

noncomputable section

namespace Cert.Gcn.Region4

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: point `t` takes row block `t` of the input and of the output, and the whole of the
    second operand. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the projection of the arrays the region finds. -/
theorem flushed_eq (c : Dev nD) (t : Fin cfg4.N) :
    (dat4 (F := Ideal) V c).flushed 2 t = ((cfg4.win 2).blk t).view.read (Elt Ideal) (linear128 (F := Ideal) (V c main_v63) (V c main_arg6)) := by
  show (cfg4.win 2).cut (grid4.coords t) ((dat4 (F := Ideal) V c).after 2 t) = _
  rw [after4_2]
  unfold out4_2
  rw [View.canon_unit_zero hz]
  simp only [View.ld_unit_zero (S := S5000x128) hz, View.ld_unit_zero (S := S128x128) hz]
  obtain ⟨e0, e1, e2, e3, e4, e5⟩ := idx_facts t
  have ht : t.val < 10 := lt_of_lt_of_eq t.isLt N_4
  funext j
  obtain ⟨p, q, rfl⟩ : ∃ (p : Fin 5000) (q : Fin 128), j = ix2 p q := ⟨j 0, j 1, eq_ix2 j⟩
  have hp : p.val < 5000 := p.isLt
  show k4_pay1 (iblk4 V c 0 t) (iblk4 V c 1 t) (ix2 p q) = (linear128 (F := Ideal) (V c main_v63) (V c main_arg6)) (((cfg4.win 2).blk t).view.emb (ix2 p q))
  refine (Body.pay_linear4 (iblk4 V c 0 t) (iblk4 V c 1 t) p q).trans ?_
  have hE : ((cfg4.win 2).blk t).view.emb (ix2 p q) = ix2 (⟨t.val * 5000 + p.val, by omega⟩ : Fin 50000) q := by
    funext a; apply Fin.ext
    match a with
    | ⟨0, _⟩ => show win4_2.index t (0 : Fin 2) * 5000 + 1 * p.val = t.val * 5000 + p.val; omega
    | ⟨1, _⟩ => show win4_2.index t (1 : Fin 2) * 128 + 1 * q.val = q.val; omega
  rw [hE, linear128_apply]
  refine Finset.sum_congr rfl fun k _ => ?_
  have h0 : iblk4 V c 0 t (ix2 p k) = V c main_v63 (ix2 (⟨t.val * 5000 + p.val, by omega⟩ : Fin 50000) k) := by
    show V c main_v63 (((cfg4.win 0).blk t).view.emb (ix2 p k)) = _
    refine congrArg (V c main_v63) ?_
    funext a; apply Fin.ext
    match a with
    | ⟨0, _⟩ => show win4_0.index t (0 : Fin 2) * 5000 + 1 * p.val = t.val * 5000 + p.val; omega
    | ⟨1, _⟩ => show win4_0.index t (1 : Fin 2) * 128 + 1 * k.val = k.val; omega
  have h1 : iblk4 V c 1 t (ix2 q k) = V c main_arg6 (ix2 q k) := by
    show V c main_arg6 (((cfg4.win 1).blk t).view.emb (ix2 q k)) = _
    refine congrArg (V c main_arg6) ?_
    funext a; apply Fin.ext
    match a with
    | ⟨0, _⟩ => show win4_1.index t (0 : Fin 2) * 128 + 1 * q.val = q.val; omega
    | ⟨1, _⟩ => show win4_1.index t (1 : Fin 2) * 128 + 1 * k.val = k.val; omega
  rw [h0, h1]

/-- An index of the output array is in point `t`'s block iff each coordinate is in the block's range on its axis. -/
theorem mem_blk (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v64).slice (win4_2.rect t)).set ↔ _
  rw [View.set_slice_whole, Rect.mem_set_unit]
  exact Iff.rfl

/-- Row `r` of the output lies in the block of point `r / 5000`: the ten row blocks tile the array. -/
theorem cover (i : S50000x128.Idx) : ∃ t : Fin cfg4.N, (cfg4.win 2).flush t = true ∧ i ∈ ((cfg4.win 2).blk t).view.set := by
  have hi0 : (i 0).val < 50000 := (i 0).isLt
  have hi1 : (i 1).val < 128 := (i 1).isLt
  have hN : (i 0).val / 5000 < cfg4.N := lt_of_lt_of_eq (by omega : (i 0).val / 5000 < 10) N_4.symm
  obtain ⟨-, -, -, -, e4, e5⟩ := idx_facts ⟨(i 0).val / 5000, hN⟩
  refine ⟨⟨(i 0).val / 5000, hN⟩, flush4_2 _, ?_⟩
  rw [mem_blk]
  intro a
  match a with
  | ⟨0, _⟩ =>
    show win4_2.index ⟨(i 0).val / 5000, hN⟩ (0 : Fin 2) * 5000 ≤ (i 0).val ∧ (i 0).val < win4_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win4_2.index ⟨(i 0).val / 5000, hN⟩ (1 : Fin 2) * 128 ≤ (i 1).val ∧ (i 1).val < win4_2.index ⟨(i 0).val / 5000, hN⟩ (1 : Fin 2) * 128 + 128
    rw [e5]; omega

/-- The output array after the region, whole. -/
theorem final (c : Dev nD) : (dat4 (F := Ideal) V c).arrAt 2 cfg4.N = linear128 (F := Ideal) (V c main_v63) (V c main_arg6) :=
  (dat4 (F := Ideal) V c).arrAt_eq_of_cover 2 _ (fun t _ => flushed_eq V c t) cover

end Cert.Gcn.Region4

end
-- ==== Proof.Region5.lean ====
/-
  Bias region 5: grid point `t` takes rows `5000 t … 5000 t + 4999` of its input and the bias as one row, adds the row
  to every row of the block and clamps below at zero, and writes the same rows of its output. Entry `(p, q)` of the block is
  `max (a[5000 t + p, q] + b[0, q]) 0`; the ten row blocks tile the output, so after the region the output array is that function
  of the input array and the row, whole.
-/
import proofs.«106422_j64647847740121_1_alg».proof.Proof.Gen.KernelIdeal.Frame
import proofs.«106422_j64647847740121_1_alg».proof.Proof.KernelBody
import proofs.«106422_j64647847740121_1_alg».proof.Proof.SpecAt

set_option maxRecDepth 16384

noncomputable section

namespace Cert.Gcn.Region5

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: point `t` takes row block `t` of the input and of the output, and the whole of the
    second operand. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is block `t` of the input plus the row, clamped. -/
theorem flushed_eq (c : Dev nD) (t : Fin cfg5.N) :
    (dat5 (F := Ideal) V c).flushed 2 t = ((cfg5.win 2).blk t).view.read (Elt Ideal) (addRowClamp128 (V c main_v77) (V c main_v78)) := by
  show (cfg5.win 2).cut (grid5.coords t) ((dat5 (F := Ideal) V c).after 2 t) = _
  rw [after5_2]
  unfold out5_2
  rw [View.canon_unit_zero hz]
  simp only [View.ld_unit_zero (S := S5000x128) hz, View.ld_unit_zero (S := S1x128) hz]
  obtain ⟨e0, e1, e2, e3, e4, e5⟩ := idx_facts t
  have ht : t.val < 10 := lt_of_lt_of_eq t.isLt N_5
  funext j
  obtain ⟨p, q, rfl⟩ : ∃ (p : Fin 5000) (q : Fin 128), j = ix2 p q := ⟨j 0, j 1, eq_ix2 j⟩
  have hp : p.val < 5000 := p.isLt
  show k5_pay1 (iblk5 V c 0 t) (iblk5 V c 1 t) (ix2 p q) = (addRowClamp128 (V c main_v77) (V c main_v78)) (((cfg5.win 2).blk t).view.emb (ix2 p q))
  refine (Body.pay_bias5 (iblk5 V c 0 t) (iblk5 V c 1 t) p q).trans ?_
  have hE : ((cfg5.win 2).blk t).view.emb (ix2 p q) = ix2 (⟨t.val * 5000 + p.val, by omega⟩ : Fin 50000) q := by
    funext a; apply Fin.ext
    match a with
    | ⟨0, _⟩ => show win5_2.index t (0 : Fin 2) * 5000 + 1 * p.val = t.val * 5000 + p.val; omega
    | ⟨1, _⟩ => show win5_2.index t (1 : Fin 2) * 128 + 1 * q.val = q.val; omega
  rw [hE]
  have h0 : iblk5 V c 0 t (ix2 p q) = V c main_v77 (ix2 (⟨t.val * 5000 + p.val, by omega⟩ : Fin 50000) q) := by
    show V c main_v77 (((cfg5.win 0).blk t).view.emb (ix2 p q)) = _
    refine congrArg (V c main_v77) ?_
    funext a; apply Fin.ext
    match a with
    | ⟨0, _⟩ => show win5_0.index t (0 : Fin 2) * 5000 + 1 * p.val = t.val * 5000 + p.val; omega
    | ⟨1, _⟩ => show win5_0.index t (1 : Fin 2) * 128 + 1 * q.val = q.val; omega
  have h1 : iblk5 V c 1 t (ix2 0 q) = V c main_v78 (ix2 0 q) := by
    show V c main_v78 (((cfg5.win 1).blk t).view.emb (ix2 0 q)) = _
    refine congrArg (V c main_v78) ?_
    funext a; apply Fin.ext
    match a with
    | ⟨0, _⟩ => show win5_1.index t (0 : Fin 2) * 1 + 1 * 0 = 0; omega
    | ⟨1, _⟩ => show win5_1.index t (1 : Fin 2) * 128 + 1 * q.val = q.val; omega
  rw [h0, h1]
  rfl

/-- An index of the output array is in point `t`'s block iff each coordinate is in the block's range on its axis. -/
theorem mem_blk (t : Fin cfg5.N) (i : S50000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v79).slice (win5_2.rect t)).set ↔ _
  rw [View.set_slice_whole, Rect.mem_set_unit]
  exact Iff.rfl

/-- Row `r` of the output lies in the block of point `r / 5000`: the ten row blocks tile the array. -/
theorem cover (i : S50000x128.Idx) : ∃ t : Fin cfg5.N, (cfg5.win 2).flush t = true ∧ i ∈ ((cfg5.win 2).blk t).view.set := by
  have hi0 : (i 0).val < 50000 := (i 0).isLt
  have hi1 : (i 1).val < 128 := (i 1).isLt
  have hN : (i 0).val / 5000 < cfg5.N := lt_of_lt_of_eq (by omega : (i 0).val / 5000 < 10) N_5.symm
  obtain ⟨-, -, -, -, e4, e5⟩ := idx_facts ⟨(i 0).val / 5000, hN⟩
  refine ⟨⟨(i 0).val / 5000, hN⟩, flush5_2 _, ?_⟩
  rw [mem_blk]
  intro a
  match a with
  | ⟨0, _⟩ =>
    show win5_2.index ⟨(i 0).val / 5000, hN⟩ (0 : Fin 2) * 5000 ≤ (i 0).val ∧ (i 0).val < win5_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win5_2.index ⟨(i 0).val / 5000, hN⟩ (1 : Fin 2) * 128 ≤ (i 1).val ∧ (i 1).val < win5_2.index ⟨(i 0).val / 5000, hN⟩ (1 : Fin 2) * 128 + 128
    rw [e5]; omega

/-- The output array after the region, whole. -/
theorem final (c : Dev nD) : (dat5 (F := Ideal) V c).arrAt 2 cfg5.N = addRowClamp128 (V c main_v77) (V c main_v78) :=
  (dat5 (F := Ideal) V c).arrAt_eq_of_cover 2 _ (fun t _ => flushed_eq V c t) cover

end Cert.Gcn.Region5

end
-- ==== Proof.Region2.lean ====
/-
  Projection region 2: grid point `t` multiplies rows `5000 t … 5000 t + 4999` of its input by the whole weight
  matrix, contracting the second axis of both, and writes the same rows of its output. Entry `(p, q)` of the block is
  `∑ k, x[5000 t + p, k] * W[q, k]`, which is the specification's projection at row `5000 t + p`; the ten row blocks
  tile the output, so after the region the output array is the projection of the input array, whole.
-/
import proofs.«106422_j64647847740121_1_alg».proof.Proof.Gen.KernelIdeal.Frame
import proofs.«106422_j64647847740121_1_alg».proof.Proof.KernelBody
import proofs.«106422_j64647847740121_1_alg».proof.Proof.SpecAt

set_option maxRecDepth 16384

noncomputable section

namespace Cert.Gcn.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: point `t` takes row block `t` of the input and of the output, and the whole of the
    second operand. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the projection of the arrays the region finds. -/
theorem flushed_eq (c : Dev nD) (t : Fin cfg2.N) :
    (dat2 (F := Ideal) V c).flushed 2 t = ((cfg2.win 2).blk t).view.read (Elt Ideal) (linear128 (F := Ideal) (V c main_v47) (V c main_arg4)) := by
  show (cfg2.win 2).cut (grid2.coords t) ((dat2 (F := Ideal) V c).after 2 t) = _
  rw [after2_2]
  unfold out2_2
  rw [View.canon_unit_zero hz]
  simp only [View.ld_unit_zero (S := S5000x128) hz, View.ld_unit_zero (S := S128x128) hz]
  obtain ⟨e0, e1, e2, e3, e4, e5⟩ := idx_facts t
  have ht : t.val < 10 := lt_of_lt_of_eq t.isLt N_2
  funext j
  obtain ⟨p, q, rfl⟩ : ∃ (p : Fin 5000) (q : Fin 128), j = ix2 p q := ⟨j 0, j 1, eq_ix2 j⟩
  have hp : p.val < 5000 := p.isLt
  show k2_pay1 (iblk2 V c 0 t) (iblk2 V c 1 t) (ix2 p q) = (linear128 (F := Ideal) (V c main_v47) (V c main_arg4)) (((cfg2.win 2).blk t).view.emb (ix2 p q))
  refine (Body.pay_linear2 (iblk2 V c 0 t) (iblk2 V c 1 t) p q).trans ?_
  have hE : ((cfg2.win 2).blk t).view.emb (ix2 p q) = ix2 (⟨t.val * 5000 + p.val, by omega⟩ : Fin 50000) q := by
    funext a; apply Fin.ext
    match a with
    | ⟨0, _⟩ => show win2_2.index t (0 : Fin 2) * 5000 + 1 * p.val = t.val * 5000 + p.val; omega
    | ⟨1, _⟩ => show win2_2.index t (1 : Fin 2) * 128 + 1 * q.val = q.val; omega
  rw [hE, linear128_apply]
  refine Finset.sum_congr rfl fun k _ => ?_
  have h0 : iblk2 V c 0 t (ix2 p k) = V c main_v47 (ix2 (⟨t.val * 5000 + p.val, by omega⟩ : Fin 50000) k) := by
    show V c main_v47 (((cfg2.win 0).blk t).view.emb (ix2 p k)) = _
    refine congrArg (V c main_v47) ?_
    funext a; apply Fin.ext
    match a with
    | ⟨0, _⟩ => show win2_0.index t (0 : Fin 2) * 5000 + 1 * p.val = t.val * 5000 + p.val; omega
    | ⟨1, _⟩ => show win2_0.index t (1 : Fin 2) * 128 + 1 * k.val = k.val; omega
  have h1 : iblk2 V c 1 t (ix2 q k) = V c main_arg4 (ix2 q k) := by
    show V c main_arg4 (((cfg2.win 1).blk t).view.emb (ix2 q k)) = _
    refine congrArg (V c main_arg4) ?_
    funext a; apply Fin.ext
    match a with
    | ⟨0, _⟩ => show win2_1.index t (0 : Fin 2) * 128 + 1 * q.val = q.val; omega
    | ⟨1, _⟩ => show win2_1.index t (1 : Fin 2) * 128 + 1 * k.val = k.val; omega
  rw [h0, h1]

/-- An index of the output array is in point `t`'s block iff each coordinate is in the block's range on its axis. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v48).slice (win2_2.rect t)).set ↔ _
  rw [View.set_slice_whole, Rect.mem_set_unit]
  exact Iff.rfl

/-- Row `r` of the output lies in the block of point `r / 5000`: the ten row blocks tile the array. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : (i 0).val / 5000 < cfg2.N := lt_of_lt_of_eq (by omega : (i 0).val / 5000 < 10) N_2.symm
  obtain ⟨-, -, -, -, e4, e5⟩ := idx_facts ⟨(i 0).val / 5000, hN⟩
  refine ⟨⟨(i 0).val / 5000, hN⟩, flush2_2 _, ?_⟩
  rw [mem_blk]
  intro a
  match a with
  | ⟨0, _⟩ =>
    show win2_2.index ⟨(i 0).val / 5000, hN⟩ (0 : Fin 2) * 5000 ≤ (i 0).val ∧ (i 0).val < win2_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, hN⟩ (1 : Fin 2) * 128 ≤ (i 1).val ∧ (i 1).val < win2_2.index ⟨(i 0).val / 5000, hN⟩ (1 : Fin 2) * 128 + 128
    rw [e5]; omega

/-- The output array after the region, whole. -/
theorem final (c : Dev nD) : (dat2 (F := Ideal) V c).arrAt 2 cfg2.N = linear128 (F := Ideal) (V c main_v47) (V c main_arg4) :=
  (dat2 (F := Ideal) V c).arrAt_eq_of_cover 2 _ (fun t _ => flushed_eq V c t) cover

end Cert.Gcn.Region2

end
-- ==== Proof.Region3.lean ====
/-
  Bias region 3: grid point `t` takes rows `5000 t … 5000 t + 4999` of its input and the bias as one row, adds the row
  to every row of the block and clamps below at zero, and writes the same rows of its output. Entry `(p, q)` of the block is
  `max (a[5000 t + p, q] + b[0, q]) 0`; the ten row blocks tile the output, so after the region the output array is that function
  of the input array and the row, whole.
-/
import proofs.«106422_j64647847740121_1_alg».proof.Proof.Gen.KernelIdeal.Frame
import proofs.«106422_j64647847740121_1_alg».proof.Proof.KernelBody
import proofs.«106422_j64647847740121_1_alg».proof.Proof.SpecAt

set_option maxRecDepth 16384

noncomputable section

namespace Cert.Gcn.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: point `t` takes row block `t` of the input and of the output, and the whole of the
    second operand. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the input plus the row, clamped. -/
theorem flushed_eq (c : Dev nD) (t : Fin cfg3.N) :
    (dat3 (F := Ideal) V c).flushed 2 t = ((cfg3.win 2).blk t).view.read (Elt Ideal) (addRowClamp128 (V c main_v61) (V c main_v62)) := by
  show (cfg3.win 2).cut (grid3.coords t) ((dat3 (F := Ideal) V c).after 2 t) = _
  rw [after3_2]
  unfold out3_2
  rw [View.canon_unit_zero hz]
  simp only [View.ld_unit_zero (S := S5000x128) hz, View.ld_unit_zero (S := S1x128) hz]
  obtain ⟨e0, e1, e2, e3, e4, e5⟩ := idx_facts t
  have ht : t.val < 10 := lt_of_lt_of_eq t.isLt N_3
  funext j
  obtain ⟨p, q, rfl⟩ : ∃ (p : Fin 5000) (q : Fin 128), j = ix2 p q := ⟨j 0, j 1, eq_ix2 j⟩
  have hp : p.val < 5000 := p.isLt
  show k3_pay1 (iblk3 V c 0 t) (iblk3 V c 1 t) (ix2 p q) = (addRowClamp128 (V c main_v61) (V c main_v62)) (((cfg3.win 2).blk t).view.emb (ix2 p q))
  refine (Body.pay_bias3 (iblk3 V c 0 t) (iblk3 V c 1 t) p q).trans ?_
  have hE : ((cfg3.win 2).blk t).view.emb (ix2 p q) = ix2 (⟨t.val * 5000 + p.val, by omega⟩ : Fin 50000) q := by
    funext a; apply Fin.ext
    match a with
    | ⟨0, _⟩ => show win3_2.index t (0 : Fin 2) * 5000 + 1 * p.val = t.val * 5000 + p.val; omega
    | ⟨1, _⟩ => show win3_2.index t (1 : Fin 2) * 128 + 1 * q.val = q.val; omega
  rw [hE]
  have h0 : iblk3 V c 0 t (ix2 p q) = V c main_v61 (ix2 (⟨t.val * 5000 + p.val, by omega⟩ : Fin 50000) q) := by
    show V c main_v61 (((cfg3.win 0).blk t).view.emb (ix2 p q)) = _
    refine congrArg (V c main_v61) ?_
    funext a; apply Fin.ext
    match a with
    | ⟨0, _⟩ => show win3_0.index t (0 : Fin 2) * 5000 + 1 * p.val = t.val * 5000 + p.val; omega
    | ⟨1, _⟩ => show win3_0.index t (1 : Fin 2) * 128 + 1 * q.val = q.val; omega
  have h1 : iblk3 V c 1 t (ix2 0 q) = V c main_v62 (ix2 0 q) := by
    show V c main_v62 (((cfg3.win 1).blk t).view.emb (ix2 0 q)) = _
    refine congrArg (V c main_v62) ?_
    funext a; apply Fin.ext
    match a with
    | ⟨0, _⟩ => show win3_1.index t (0 : Fin 2) * 1 + 1 * 0 = 0; omega
    | ⟨1, _⟩ => show win3_1.index t (1 : Fin 2) * 128 + 1 * q.val = q.val; omega
  rw [h0, h1]
  rfl

/-- An index of the output array is in point `t`'s block iff each coordinate is in the block's range on its axis. -/
theorem mem_blk (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v63).slice (win3_2.rect t)).set ↔ _
  rw [View.set_slice_whole, Rect.mem_set_unit]
  exact Iff.rfl

/-- Row `r` of the output lies in the block of point `r / 5000`: the ten row blocks tile the array. -/
theorem cover (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  have hN : (i 0).val / 5000 < cfg3.N := lt_of_lt_of_eq (by omega : (i 0).val / 5000 < 10) N_3.symm
  obtain ⟨-, -, -, -, e4, e5⟩ := idx_facts ⟨(i 0).val / 5000, hN⟩
  refine ⟨⟨(i 0).val / 5000, hN⟩, flush3_2 _, ?_⟩
  rw [mem_blk]
  intro a
  match a with
  | ⟨0, _⟩ =>
    show win3_2.index ⟨(i 0).val / 5000, hN⟩ (0 : Fin 2) * 5000 ≤ (i 0).val ∧ (i 0).val < win3_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, hN⟩ (1 : Fin 2) * 128 ≤ (i 1).val ∧ (i 1).val < win3_2.index ⟨(i 0).val / 5000, hN⟩ (1 : Fin 2) * 128 + 128
    rw [e5]; omega

/-- The output array after the region, whole. -/
theorem final (c : Dev nD) : (dat3 (F := Ideal) V c).arrAt 2 cfg3.N = addRowClamp128 (V c main_v61) (V c main_v62) :=
  (dat3 (F := Ideal) V c).arrAt_eq_of_cover 2 _ (fun t _ => flushed_eq V c t) cover

end Cert.Gcn.Region3

end
-- ==== Proof.Region0.lean ====
/-
  Projection region 0: grid point `t` multiplies rows `5000 t … 5000 t + 4999` of its input by the whole weight
  matrix, contracting the second axis of both, and writes the same rows of its output. Entry `(p, q)` of the block is
  `∑ k, x[5000 t + p, k] * W[q, k]`, which is the specification's projection at row `5000 t + p`; the ten row blocks
  tile the output, so after the region the output array is the projection of the input array, whole.
-/
import proofs.«106422_j64647847740121_1_alg».proof.Proof.Gen.KernelIdeal.Frame
import proofs.«106422_j64647847740121_1_alg».proof.Proof.KernelBody
import proofs.«106422_j64647847740121_1_alg».proof.Proof.SpecAt

set_option maxRecDepth 16384

noncomputable section

namespace Cert.Gcn.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: point `t` takes row block `t` of the input and of the output, and the whole of the
    second operand. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the projection of the arrays the region finds. -/
theorem flushed_eq (c : Dev nD) (t : Fin cfg0.N) :
    (dat0 (F := Ideal) V c).flushed 2 t = ((cfg0.win 2).blk t).view.read (Elt Ideal) (linear128 (F := Ideal) (V c main_arg0) (V c main_arg2)) := by
  show (cfg0.win 2).cut (grid0.coords t) ((dat0 (F := Ideal) V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  have ht : t.val < 10 := lt_of_lt_of_eq t.isLt N_0
  funext j
  obtain ⟨p, q, rfl⟩ : ∃ (p : Fin 5000) (q : Fin 128), j = ix2 p q := ⟨j 0, j 1, eq_ix2 j⟩
  have hp : p.val < 5000 := p.isLt
  show k0_pay1 (iblk0 V c 0 t) (iblk0 V c 1 t) (ix2 p q) = (linear128 (F := Ideal) (V c main_arg0) (V c main_arg2)) (((cfg0.win 2).blk t).view.emb (ix2 p q))
  refine (Body.pay_linear0 (iblk0 V c 0 t) (iblk0 V c 1 t) p q).trans ?_
  have hE : ((cfg0.win 2).blk t).view.emb (ix2 p q) = ix2 (⟨t.val * 5000 + p.val, by omega⟩ : Fin 50000) q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  rw [hE, linear128_apply]
  refine Finset.sum_congr rfl fun k _ => ?_
  have h0 : iblk0 V c 0 t (ix2 p k) = V c main_arg0 (ix2 (⟨t.val * 5000 + p.val, by omega⟩ : Fin 50000) k) := by
    show V c main_arg0 (((cfg0.win 0).blk t).view.emb (ix2 p k)) = _
    refine congrArg (V c main_arg0) ?_
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  have h1 : iblk0 V c 1 t (ix2 q k) = V c main_arg2 (ix2 q k) := by
    show V c main_arg2 (((cfg0.win 1).blk t).view.emb (ix2 q k)) = _
    refine congrArg (V c main_arg2) ?_
    funext a; apply Fin.ext
    match a with
    | ⟨0, _⟩ => show win0_1.index t (0 : Fin 2) * 128 + 1 * q.val = q.val; omega
    | ⟨1, _⟩ => show win0_1.index t (1 : Fin 2) * 128 + 1 * k.val = k.val; omega
  rw [h0, h1]

/-- An index of the output array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Row `r` of the output lies in the block of point `r / 5000`: the ten row blocks tile the array. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : (i 0).val / 5000 < cfg0.N := lt_of_lt_of_eq (by omega : (i 0).val / 5000 < 10) N_0.symm
  obtain ⟨-, -, -, -, e4, e5⟩ := idx_facts ⟨(i 0).val / 5000, hN⟩
  refine ⟨⟨(i 0).val / 5000, hN⟩, flush0_2 _, ?_⟩
  rw [mem_blk]
  intro a
  match a with
  | ⟨0, _⟩ =>
    show win0_2.index ⟨(i 0).val / 5000, hN⟩ (0 : Fin 2) * 5000 ≤ (i 0).val ∧ (i 0).val < win0_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hN⟩ (1 : Fin 2) * 128 ≤ (i 1).val ∧ (i 1).val < win0_2.index ⟨(i 0).val / 5000, hN⟩ (1 : Fin 2) * 128 + 128
    rw [e5]; omega

/-- The output array after the region, whole. -/
theorem final (c : Dev nD) : (dat0 (F := Ideal) V c).arrAt 2 cfg0.N = linear128 (F := Ideal) (V c main_arg0) (V c main_arg2) :=
  (dat0 (F := Ideal) V c).arrAt_eq_of_cover 2 _ (fun t _ => flushed_eq V c t) cover

end Cert.Gcn.Region0

end
-- ==== Proof.Region1.lean ====
/-
  Bias region 1: grid point `t` takes rows `5000 t … 5000 t + 4999` of its input and the bias as one row, adds the row
  to every row of the block and clamps below at zero, and writes the same rows of its output. Entry `(p, q)` of the block is
  `max (a[5000 t + p, q] + b[0, q]) 0`; the ten row blocks tile the output, so after the region the output array is that function
  of the input array and the row, whole.
-/
import proofs.«106422_j64647847740121_1_alg».proof.Proof.Gen.KernelIdeal.Frame
import proofs.«106422_j64647847740121_1_alg».proof.Proof.KernelBody
import proofs.«106422_j64647847740121_1_alg».proof.Proof.SpecAt

set_option maxRecDepth 16384

noncomputable section

namespace Cert.Gcn.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: point `t` takes row block `t` of the input and of the output, and the whole of the
    second operand. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the input plus the row, clamped. -/
theorem flushed_eq (c : Dev nD) (t : Fin cfg1.N) :
    (dat1 (F := Ideal) V c).flushed 2 t = ((cfg1.win 2).blk t).view.read (Elt Ideal) (addRowClamp128 (V c main_v45) (V c main_v46)) := by
  show (cfg1.win 2).cut (grid1.coords t) ((dat1 (F := Ideal) V c).after 2 t) = _
  rw [after1_2]
  unfold out1_2
  rw [View.canon_unit_zero hz]
  simp only [View.ld_unit_zero (S := S5000x128) hz, View.ld_unit_zero (S := S1x128) hz]
  obtain ⟨e0, e1, e2, e3, e4, e5⟩ := idx_facts t
  have ht : t.val < 10 := lt_of_lt_of_eq t.isLt N_1
  funext j
  obtain ⟨p, q, rfl⟩ : ∃ (p : Fin 5000) (q : Fin 128), j = ix2 p q := ⟨j 0, j 1, eq_ix2 j⟩
  have hp : p.val < 5000 := p.isLt
  show k1_pay1 (iblk1 V c 0 t) (iblk1 V c 1 t) (ix2 p q) = (addRowClamp128 (V c main_v45) (V c main_v46)) (((cfg1.win 2).blk t).view.emb (ix2 p q))
  refine (Body.pay_bias1 (iblk1 V c 0 t) (iblk1 V c 1 t) p q).trans ?_
  have hE : ((cfg1.win 2).blk t).view.emb (ix2 p q) = ix2 (⟨t.val * 5000 + p.val, by omega⟩ : Fin 50000) q := by
    funext a; apply Fin.ext
    match a with
    | ⟨0, _⟩ => show win1_2.index t (0 : Fin 2) * 5000 + 1 * p.val = t.val * 5000 + p.val; omega
    | ⟨1, _⟩ => show win1_2.index t (1 : Fin 2) * 128 + 1 * q.val = q.val; omega
  rw [hE]
  have h0 : iblk1 V c 0 t (ix2 p q) = V c main_v45 (ix2 (⟨t.val * 5000 + p.val, by omega⟩ : Fin 50000) q) := by
    show V c main_v45 (((cfg1.win 0).blk t).view.emb (ix2 p q)) = _
    refine congrArg (V c main_v45) ?_
    funext a; apply Fin.ext
    match a with
    | ⟨0, _⟩ => show win1_0.index t (0 : Fin 2) * 5000 + 1 * p.val = t.val * 5000 + p.val; omega
    | ⟨1, _⟩ => show win1_0.index t (1 : Fin 2) * 128 + 1 * q.val = q.val; omega
  have h1 : iblk1 V c 1 t (ix2 0 q) = V c main_v46 (ix2 0 q) := by
    show V c main_v46 (((cfg1.win 1).blk t).view.emb (ix2 0 q)) = _
    refine congrArg (V c main_v46) ?_
    funext a; apply Fin.ext
    match a with
    | ⟨0, _⟩ => show win1_1.index t (0 : Fin 2) * 1 + 1 * 0 = 0; omega
    | ⟨1, _⟩ => show win1_1.index t (1 : Fin 2) * 128 + 1 * q.val = q.val; omega
  rw [h0, h1]
  rfl

/-- An index of the output array is in point `t`'s block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v47).slice (win1_2.rect t)).set ↔ _
  rw [View.set_slice_whole, Rect.mem_set_unit]
  exact Iff.rfl

/-- Row `r` of the output lies in the block of point `r / 5000`: the ten row blocks tile the array. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : (i 0).val / 5000 < cfg1.N := lt_of_lt_of_eq (by omega : (i 0).val / 5000 < 10) N_1.symm
  obtain ⟨-, -, -, -, e4, e5⟩ := idx_facts ⟨(i 0).val / 5000, hN⟩
  refine ⟨⟨(i 0).val / 5000, hN⟩, flush1_2 _, ?_⟩
  rw [mem_blk]
  intro a
  match a with
  | ⟨0, _⟩ =>
    show win1_2.index ⟨(i 0).val / 5000, hN⟩ (0 : Fin 2) * 5000 ≤ (i 0).val ∧ (i 0).val < win1_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, hN⟩ (1 : Fin 2) * 128 ≤ (i 1).val ∧ (i 1).val < win1_2.index ⟨(i 0).val / 5000, hN⟩ (1 : Fin 2) * 128 + 128
    rw [e5]; omega

/-- The output array after the region, whole. -/
theorem final (c : Dev nD) : (dat1 (F := Ideal) V c).arrAt 2 cfg1.N = addRowClamp128 (V c main_v45) (V c main_v46) :=
  (dat1 (F := Ideal) V c).arrAt_eq_of_cover 2 _ (fun t _ => flushed_eq V c t) cover

end Cert.Gcn.Region1

end
-- ==== Proof.Layer0.lean ====
/-
  Layer 1 of the kernel program. The projection region leaves `x · Wᵀ` of its input array; the host operations
  after it gather those rows at the source endpoints, scale them by the edge weights and accumulate them at the
  destination endpoints, and lay the bias out as one row; the bias region adds that row to every row and clamps at zero.
  With the input array at the previous activation, the layer's output array is the specification's layer function of it.
-/
import proofs.«106422_j64647847740121_1_alg».proof.Proof.Region0
import proofs.«106422_j64647847740121_1_alg».proof.Proof.Region1
import proofs.«106422_j64647847740121_1_alg».proof.Proof.KeptGraph
import proofs.«106422_j64647847740121_1_alg».proof.Proof.KeptArgs
import proofs.«106422_j64647847740121_1_alg».proof.Proof.GraphStage
import proofs.«106422_j64647847740121_1_alg».proof.Proof.Terms
import Idealize.ShloMosaic.Lib.StableHlo.Run

set_option maxRecDepth 16384

noncomputable section

namespace Cert.Gcn.Layer0

open Idealize.ShloMosaic Idealize.ShloMosaic.TcCoe Idealize.SL.Sem Idealize.ShloMosaic.StableHlo
open Cert.KernelIdeal Cert.KernelIdeal.Gen Cert.Gcn

variable (m : (ℓ : Loc nD τ sig) → Buf (Elt Ideal) ℓ) (ρ : Dev nD → PrngReg)

/-- After the projection region: the projection of the region's input array by the launched weights. -/
theorem projected (c : Dev nD) :
    W4 m ρ c (Proc.devRef .tc main_v32) = linear128 (F := Ideal) (W3 m ρ c (Proc.devRef .tc main_arg0)) (m ((c : Thread nD τ).loc main_arg2)) := by
  refine (W4_arr m ρ c 2).trans ((Region0.final (V3 m ρ) c).trans ?_)
  show linear128 (F := Ideal) (W3 m ρ c (Proc.devRef .tc main_arg0)) (W3 m ρ c (Proc.devRef .tc main_arg2)) = _
  rw [KeptArgs.arg2_3 m ρ c]

/-- After the host operations: the projected rows gathered, weighted and accumulated over the edges. -/
theorem aggregated (c : Dev nD) :
    W5 m ρ c (Proc.devRef .tc main_v45)
      = aggregate128 (F := Ideal) (W4 m ρ c (Proc.devRef .tc main_v32)) (W4 m ρ c (Proc.devRef .tc main_v3))
          (W4 m ρ c (Proc.devRef .tc main_v6)) (W4 m ρ c (Proc.devRef .tc main_v31)) := by
  dsimp only [W5, hostOps1]
  after_results_simp
  rfl

/-- And the bias vector as one row. -/
theorem biasRow (c : Dev nD) :
    W5 m ρ c (Proc.devRef .tc main_v46) = shapeCast S1x128 (W4 m ρ c (Proc.devRef .tc main_arg3)) shapeCasts_S128_S1x128 := by
  dsimp only [W5, hostOps1]
  after_results_simp
  rfl

/-- After the bias region: the aggregated array plus the row, clamped. -/
theorem biased (c : Dev nD) :
    W6 m ρ c (Proc.devRef .tc main_v47)
      = addRowClamp128 (W5 m ρ c (Proc.devRef .tc main_v45)) (W5 m ρ c (Proc.devRef .tc main_v46)) :=
  (W6_arr m ρ c 2).trans (Region1.final (V5 m ρ) c)

/-- The layer's output array is the specification's layer 1 of the launched arguments. -/
theorem activation (c : Dev nD) : W6 m ρ c (Proc.devRef .tc main_v47) = Kernel.act1 m c := by
  rw [biased m ρ c, aggregated m ρ c, biasRow m ρ c, projected m ρ c, KeptArgs.arg0_3 m ρ c, KeptGraph.src_4 m ρ c, KeptGraph.dst_4 m ρ c, KeptGraph.weight_4 m ρ c,
    Graph.src_eq m ρ c, Graph.dst_eq m ρ c, Graph.weight_eq m ρ c, KeptArgs.arg3_4 m ρ c, addRowClamp128_eq]
  rfl

end Cert.Gcn.Layer0

end
-- ==== Proof.Layer1.lean ====
/-
  Layer 2 of the kernel program. The projection region leaves `x · Wᵀ` of its input array; the host operations
  after it gather those rows at the source endpoints, scale them by the edge weights and accumulate them at the
  destination endpoints, and lay the bias out as one row; the bias region adds that row to every row and clamps at zero.
  With the input array at the previous activation, the layer's output array is the specification's layer function of it.
-/
import proofs.«106422_j64647847740121_1_alg».proof.Proof.Region2
import proofs.«106422_j64647847740121_1_alg».proof.Proof.Region3
import proofs.«106422_j64647847740121_1_alg».proof.Proof.KeptGraph
import proofs.«106422_j64647847740121_1_alg».proof.Proof.KeptArgs
import proofs.«106422_j64647847740121_1_alg».proof.Proof.GraphStage
import proofs.«106422_j64647847740121_1_alg».proof.Proof.Terms
import proofs.«106422_j64647847740121_1_alg».proof.Proof.Layer0
import Idealize.ShloMosaic.Lib.StableHlo.Run

set_option maxRecDepth 16384

noncomputable section

namespace Cert.Gcn.Layer1

open Idealize.ShloMosaic Idealize.ShloMosaic.TcCoe Idealize.SL.Sem Idealize.ShloMosaic.StableHlo
open Cert.KernelIdeal Cert.KernelIdeal.Gen Cert.Gcn

variable (m : (ℓ : Loc nD τ sig) → Buf (Elt Ideal) ℓ) (ρ : Dev nD → PrngReg)

/-- After the projection region: the projection of the region's input array by the launched weights. -/
theorem projected (c : Dev nD) :
    W7 m ρ c (Proc.devRef .tc main_v48) = linear128 (F := Ideal) (W6 m ρ c (Proc.devRef .tc main_v47)) (m ((c : Thread nD τ).loc main_arg4)) := by
  refine (W7_arr m ρ c 2).trans ((Region2.final (V6 m ρ) c).trans ?_)
  show linear128 (F := Ideal) (W6 m ρ c (Proc.devRef .tc main_v47)) (W6 m ρ c (Proc.devRef .tc main_arg4)) = _
  rw [KeptArgs.arg4_6 m ρ c]

/-- After the host operations: the projected rows gathered, weighted and accumulated over the edges. -/
theorem aggregated (c : Dev nD) :
    W8 m ρ c (Proc.devRef .tc main_v61)
      = aggregate128 (F := Ideal) (W7 m ρ c (Proc.devRef .tc main_v48)) (W7 m ρ c (Proc.devRef .tc main_v3))
          (W7 m ρ c (Proc.devRef .tc main_v6)) (W7 m ρ c (Proc.devRef .tc main_v31)) := by
  dsimp only [W8, hostOps3]
  after_results_simp
  rfl

/-- And the bias vector as one row. -/
theorem biasRow (c : Dev nD) :
    W8 m ρ c (Proc.devRef .tc main_v62) = shapeCast S1x128 (W7 m ρ c (Proc.devRef .tc main_arg5)) shapeCasts_S128_S1x128 := by
  dsimp only [W8, hostOps3]
  after_results_simp
  rfl

/-- After the bias region: the aggregated array plus the row, clamped. -/
theorem biased (c : Dev nD) :
    W9 m ρ c (Proc.devRef .tc main_v63)
      = addRowClamp128 (W8 m ρ c (Proc.devRef .tc main_v61)) (W8 m ρ c (Proc.devRef .tc main_v62)) :=
  (W9_arr m ρ c 2).trans (Region3.final (V8 m ρ) c)

/-- The layer's output array is the specification's layer 2 of the launched arguments. -/
theorem activation (c : Dev nD) : W9 m ρ c (Proc.devRef .tc main_v63) = Kernel.act2 m c := by
  rw [biased m ρ c, aggregated m ρ c, biasRow m ρ c, projected m ρ c, Layer0.activation m ρ c, KeptGraph.src_7 m ρ c, KeptGraph.dst_7 m ρ c, KeptGraph.weight_7 m ρ c,
    Graph.src_eq m ρ c, Graph.dst_eq m ρ c, Graph.weight_eq m ρ c, KeptArgs.arg5_7 m ρ c, addRowClamp128_eq]
  rfl

end Cert.Gcn.Layer1

end
-- ==== Proof.Layer2.lean ====
/-
  Layer 3 of the kernel program. The projection region leaves `x · Wᵀ` of its input array; the host operations
  after it gather those rows at the source endpoints, scale them by the edge weights and accumulate them at the
  destination endpoints, and lay the bias out as one row; the bias region adds that row to every row and clamps at zero.
  With the input array at the previous activation, the layer's output array is the specification's layer function of it.
-/
import proofs.«106422_j64647847740121_1_alg».proof.Proof.Region4
import proofs.«106422_j64647847740121_1_alg».proof.Proof.Region5
import proofs.«106422_j64647847740121_1_alg».proof.Proof.KeptGraph
import proofs.«106422_j64647847740121_1_alg».proof.Proof.KeptArgs
import proofs.«106422_j64647847740121_1_alg».proof.Proof.GraphStage
import proofs.«106422_j64647847740121_1_alg».proof.Proof.Terms
import proofs.«106422_j64647847740121_1_alg».proof.Proof.Layer1
import Idealize.ShloMosaic.Lib.StableHlo.Run

set_option maxRecDepth 16384

noncomputable section

namespace Cert.Gcn.Layer2

open Idealize.ShloMosaic Idealize.ShloMosaic.TcCoe Idealize.SL.Sem Idealize.ShloMosaic.StableHlo
open Cert.KernelIdeal Cert.KernelIdeal.Gen Cert.Gcn

variable (m : (ℓ : Loc nD τ sig) → Buf (Elt Ideal) ℓ) (ρ : Dev nD → PrngReg)

/-- After the projection region: the projection of the region's input array by the launched weights. -/
theorem projected (c : Dev nD) :
    W10 m ρ c (Proc.devRef .tc main_v64) = linear128 (F := Ideal) (W9 m ρ c (Proc.devRef .tc main_v63)) (m ((c : Thread nD τ).loc main_arg6)) := by
  refine (W10_arr m ρ c 2).trans ((Region4.final (V9 m ρ) c).trans ?_)
  show linear128 (F := Ideal) (W9 m ρ c (Proc.devRef .tc main_v63)) (W9 m ρ c (Proc.devRef .tc main_arg6)) = _
  rw [KeptArgs.arg6_9 m ρ c]

/-- After the host operations: the projected rows gathered, weighted and accumulated over the edges. -/
theorem aggregated (c : Dev nD) :
    W11 m ρ c (Proc.devRef .tc main_v77)
      = aggregate128 (F := Ideal) (W10 m ρ c (Proc.devRef .tc main_v64)) (W10 m ρ c (Proc.devRef .tc main_v3))
          (W10 m ρ c (Proc.devRef .tc main_v6)) (W10 m ρ c (Proc.devRef .tc main_v31)) := by
  dsimp only [W11, hostOps5]
  after_results_simp
  rfl

/-- And the bias vector as one row. -/
theorem biasRow (c : Dev nD) :
    W11 m ρ c (Proc.devRef .tc main_v78) = shapeCast S1x128 (W10 m ρ c (Proc.devRef .tc main_arg7)) shapeCasts_S128_S1x128 := by
  dsimp only [W11, hostOps5]
  after_results_simp
  rfl

/-- After the bias region: the aggregated array plus the row, clamped. -/
theorem biased (c : Dev nD) :
    W12 m ρ c (Proc.devRef .tc main_v79)
      = addRowClamp128 (W11 m ρ c (Proc.devRef .tc main_v77)) (W11 m ρ c (Proc.devRef .tc main_v78)) :=
  (W12_arr m ρ c 2).trans (Region5.final (V11 m ρ) c)

/-- The layer's output array is the specification's layer 3 of the launched arguments. -/
theorem activation (c : Dev nD) : W12 m ρ c (Proc.devRef .tc main_v79) = Kernel.act3 m c := by
  rw [biased m ρ c, aggregated m ρ c, biasRow m ρ c, projected m ρ c, Layer1.activation m ρ c, KeptGraph.src_10 m ρ c, KeptGraph.dst_10 m ρ c, KeptGraph.weight_10 m ρ c,
    Graph.src_eq m ρ c, Graph.dst_eq m ρ c, Graph.weight_eq m ρ c, KeptArgs.arg7_10 m ρ c, addRowClamp128_eq]
  rfl

end Cert.Gcn.Layer2

end
-- ==== Proof.Layer3.lean ====
/-
  Layer 4 of the kernel program. The projection region leaves `x · Wᵀ` of its input array; the host operations
  after it gather those rows at the source endpoints, scale them by the edge weights and accumulate them at the
  destination endpoints, and lay the bias out as one row; the bias region adds that row to every row and clamps at zero.
  With the input array at the previous activation, the layer's output array is the specification's layer function of it.
-/
import proofs.«106422_j64647847740121_1_alg».proof.Proof.Region6
import proofs.«106422_j64647847740121_1_alg».proof.Proof.Region7
import proofs.«106422_j64647847740121_1_alg».proof.Proof.KeptGraph
import proofs.«106422_j64647847740121_1_alg».proof.Proof.KeptArgs
import proofs.«106422_j64647847740121_1_alg».proof.Proof.GraphStage
import proofs.«106422_j64647847740121_1_alg».proof.Proof.Terms
import proofs.«106422_j64647847740121_1_alg».proof.Proof.Layer2
import Idealize.ShloMosaic.Lib.StableHlo.Run

set_option maxRecDepth 16384

noncomputable section

namespace Cert.Gcn.Layer3

open Idealize.ShloMosaic Idealize.ShloMosaic.TcCoe Idealize.SL.Sem Idealize.ShloMosaic.StableHlo
open Cert.KernelIdeal Cert.KernelIdeal.Gen Cert.Gcn

variable (m : (ℓ : Loc nD τ sig) → Buf (Elt Ideal) ℓ) (ρ : Dev nD → PrngReg)

/-- After the projection region: the projection of the region's input array by the launched weights. -/
theorem projected (c : Dev nD) :
    W13 m ρ c (Proc.devRef .tc main_v80) = linear128 (F := Ideal) (W12 m ρ c (Proc.devRef .tc main_v79)) (m ((c : Thread nD τ).loc main_arg8)) := by
  refine (W13_arr m ρ c 2).trans ((Region6.final (V12 m ρ) c).trans ?_)
  show linear128 (F := Ideal) (W12 m ρ c (Proc.devRef .tc main_v79)) (W12 m ρ c (Proc.devRef .tc main_arg8)) = _
  rw [KeptArgs.arg8_12 m ρ c]

/-- After the host operations: the projected rows gathered, weighted and accumulated over the edges. -/
theorem aggregated (c : Dev nD) :
    W14 m ρ c (Proc.devRef .tc main_v93)
      = aggregate128 (F := Ideal) (W13 m ρ c (Proc.devRef .tc main_v80)) (W13 m ρ c (Proc.devRef .tc main_v3))
          (W13 m ρ c (Proc.devRef .tc main_v6)) (W13 m ρ c (Proc.devRef .tc main_v31)) := by
  dsimp only [W14, hostOps7]
  after_results_simp
  rfl

/-- And the bias vector as one row. -/
theorem biasRow (c : Dev nD) :
    W14 m ρ c (Proc.devRef .tc main_v94) = shapeCast S1x128 (W13 m ρ c (Proc.devRef .tc main_arg9)) shapeCasts_S128_S1x128 := by
  dsimp only [W14, hostOps7]
  after_results_simp
  rfl

/-- After the bias region: the aggregated array plus the row, clamped. -/
theorem biased (c : Dev nD) :
    W15 m ρ c (Proc.devRef .tc main_v95)
      = addRowClamp128 (W14 m ρ c (Proc.devRef .tc main_v93)) (W14 m ρ c (Proc.devRef .tc main_v94)) :=
  (W15_arr m ρ c 2).trans (Region7.final (V14 m ρ) c)

/-- The layer's output array is the specification's layer 4 of the launched arguments. -/
theorem activation (c : Dev nD) : W15 m ρ c (Proc.devRef .tc main_v95) = Kernel.act4 m c := by
  rw [biased m ρ c, aggregated m ρ c, biasRow m ρ c, projected m ρ c, Layer2.activation m ρ c, KeptGraph.src_13 m ρ c, KeptGraph.dst_13 m ρ c, KeptGraph.weight_13 m ρ c,
    Graph.src_eq m ρ c, Graph.dst_eq m ρ c, Graph.weight_eq m ρ c, KeptArgs.arg9_13 m ρ c, addRowClamp128_eq]
  rfl

end Cert.Gcn.Layer3

end
-- ==== Proof.Layer4.lean ====
/-
  Layer 5 of the kernel program. The projection region leaves `x · Wᵀ` of its input array; the host operations
  after it gather those rows at the source endpoints, scale them by the edge weights and accumulate them at the
  destination endpoints, and lay the bias out as one row; the bias region adds that row to every row.
  With the input array at the previous activation, the layer's output array is the specification's layer function of it.
-/
import proofs.«106422_j64647847740121_1_alg».proof.Proof.Region8
import proofs.«106422_j64647847740121_1_alg».proof.Proof.Region9
import proofs.«106422_j64647847740121_1_alg».proof.Proof.KeptGraph
import proofs.«106422_j64647847740121_1_alg».proof.Proof.KeptArgs
import proofs.«106422_j64647847740121_1_alg».proof.Proof.GraphStage
import proofs.«106422_j64647847740121_1_alg».proof.Proof.Terms
import proofs.«106422_j64647847740121_1_alg».proof.Proof.Layer3
import Idealize.ShloMosaic.Lib.StableHlo.Run

set_option maxRecDepth 16384

noncomputable section

namespace Cert.Gcn.Layer4

open Idealize.ShloMosaic Idealize.ShloMosaic.TcCoe Idealize.SL.Sem Idealize.ShloMosaic.StableHlo
open Cert.KernelIdeal Cert.KernelIdeal.Gen Cert.Gcn

variable (m : (ℓ : Loc nD τ sig) → Buf (Elt Ideal) ℓ) (ρ : Dev nD → PrngReg)

/-- After the projection region: the projection of the region's input array by the launched weights. -/
theorem projected (c : Dev nD) :
    W16 m ρ c (Proc.devRef .tc main_v96) = linear64 (F := Ideal) (W15 m ρ c (Proc.devRef .tc main_v95)) (m ((c : Thread nD τ).loc main_arg10)) := by
  refine (W16_arr m ρ c 2).trans ((Region8.final (V15 m ρ) c).trans ?_)
  show linear64 (F := Ideal) (W15 m ρ c (Proc.devRef .tc main_v95)) (W15 m ρ c (Proc.devRef .tc main_arg10)) = _
  rw [KeptArgs.arg10_15 m ρ c]

/-- After the host operations: the projected rows gathered, weighted and accumulated over the edges. -/
theorem aggregated (c : Dev nD) :
    W17 m ρ c (Proc.devRef .tc main_v109)
      = aggregate64 (F := Ideal) (W16 m ρ c (Proc.devRef .tc main_v96)) (W16 m ρ c (Proc.devRef .tc main_v3))
          (W16 m ρ c (Proc.devRef .tc main_v6)) (W16 m ρ c (Proc.devRef .tc main_v31)) := by
  dsimp only [W17, hostOps9]
  after_results_simp
  rfl

/-- And the bias vector as one row. -/
theorem biasRow (c : Dev nD) :
    W17 m ρ c (Proc.devRef .tc main_v110) = shapeCast S1x64 (W16 m ρ c (Proc.devRef .tc main_arg11)) shapeCasts_S64_S1x64 := by
  dsimp only [W17, hostOps9]
  after_results_simp
  rfl

/-- After the bias region: the aggregated array plus the row. -/
theorem biased (c : Dev nD) :
    W18 m ρ c (Proc.devRef .tc main_v111)
      = addRow64 (W17 m ρ c (Proc.devRef .tc main_v109)) (W17 m ρ c (Proc.devRef .tc main_v110)) :=
  (W18_arr m ρ c 2).trans (Region9.final (V17 m ρ) c)

/-- The layer's output array is the specification's layer 5 of the launched arguments. -/
theorem activation (c : Dev nD) : W18 m ρ c (Proc.devRef .tc main_v111) = Cert.Gcn.outputLayer (F := Ideal) (Kernel.act4 m c) (m ((c : Thread nD τ).loc main_arg10)) (m ((c : Thread nD τ).loc main_arg11)) (Kernel.src m c) (Kernel.dst m c) (Kernel.wt m c) := by
  rw [biased m ρ c, aggregated m ρ c, biasRow m ρ c, projected m ρ c, Layer3.activation m ρ c, KeptGraph.src_16 m ρ c, KeptGraph.dst_16 m ρ c, KeptGraph.weight_16 m ρ c,
    Graph.src_eq m ρ c, Graph.dst_eq m ρ c, Graph.weight_eq m ρ c, KeptArgs.arg11_16 m ρ c, addRow64_eq]
  rfl

end Cert.Gcn.Layer4

end
-- ==== Proof.lean ====
/-
  Two programs for a five-layer graph convolution over 50000 nodes and 800000 edges (plus one self loop per node),
  equal at the exact instance.

  One layer maps node features `x` to `out[n, :] = (∑ over edges j into n of norm[j] * (x · Wᵀ)[src[j], :]) + b`, followed by
  `max · 0` in every layer but the last; `norm[j] = dinv[src[j]] * dinv[dst[j]]` with `dinv = deg^(-1/2)` (zero at
  degree zero) depends on the graph only. The kernel program computes `norm` once and runs each layer as a pipelined
  projection (row blocks of `x` times `W`, contracting the second axis of both, in a narrower float format that is
  the identity on extended reals), host gather / scale / accumulate, and a pipelined bias pass. The reference recomputes
  `norm` in every layer, transposes `W` and contracts second axis against first, and adds the bias on the host. Over
  the extended reals both are `Cert.Gcn.network` of the twelve arguments: the two products are the same sum
  `∑ k, x[r, k] * W[q, k]`, the ten row blocks of each pipelined pass tile its output, the bias row read at
  `(0, q)` is `b[q]`, and every other operation is the same operation applied to equal operands. No law used here
  needs finite entries, so the precondition is not opened.

  The three frames: the two kernel programs' are generated; the reference's is its run with the result dropped. The
  idealization rewrote nothing, so `preserves` is `True`.
-/
import proofs.«106422_j64647847740121_1_alg».proof.Defs
import proofs.«106422_j64647847740121_1_alg».proof.Proof.Gen.Kernel
import proofs.«106422_j64647847740121_1_alg».proof.Proof.Gen.Kernel.Skeleton
import proofs.«106422_j64647847740121_1_alg».proof.Proof.Gen.Kernel.Launch
import proofs.«106422_j64647847740121_1_alg».proof.Proof.Gen.Kernel.Points
import proofs.«106422_j64647847740121_1_alg».proof.Proof.Gen.Kernel.Frame
import proofs.«106422_j64647847740121_1_alg».proof.Proof.Gen.KernelIdeal
import proofs.«106422_j64647847740121_1_alg».proof.Proof.Gen.KernelIdeal.Skeleton
import proofs.«106422_j64647847740121_1_alg».proof.Proof.Gen.KernelIdeal.Launch
import proofs.«106422_j64647847740121_1_alg».proof.Proof.Gen.KernelIdeal.Points
import proofs.«106422_j64647847740121_1_alg».proof.Proof.Gen.KernelIdeal.Frame
import proofs.«106422_j64647847740121_1_alg».proof.Proof.Gen.ReferenceIdeal
import proofs.«106422_j64647847740121_1_alg».proof.Proof.Gen.Pre_finite_inputs
import proofs.«106422_j64647847740121_1_alg».proof.Proof.RefRun
import proofs.«106422_j64647847740121_1_alg».proof.Proof.KernelRun
import proofs.«106422_j64647847740121_1_alg».proof.Proof.Layer4
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.Gcn.Reference.run (F := Ideal) m ρ)

/-- Both programs end with the result at the network of the (agreeing) arguments. -/
theorem algebraic : Cert.algebraic_KernelIdeal_ReferenceIdeal := by
  intro m ρ m' ρ' _ hagree
  refine ⟨fun c => Cert.Gcn.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans ((Cert.Gcn.Layer4.activation m ρ c).trans (Cert.Gcn.Kernel.network_eq m c)), (h c).2⟩)
      (Cert.Gcn.KernelRun.run_result (F := Ideal) m ρ)
  · refine (θ_run Cert.ReferenceIdeal.defs _ _).mono (fun r h c => ⟨(h c).1.trans ?_, (h c).2⟩)
      (Cert.Gcn.Reference.run (F := Ideal) m' ρ')
    obtain ⟨h0, h1, h2, h3, h4, h5, h6, h7, h8, h9, h10, h11⟩ := hagree c
    rw [h0, h1, h2, h3, h4, h5, h6, h7, h8, h9, h10, h11]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
